-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x13 : Shape := ⟨2, ![131072, 13]⟩
abbrev S131072x4 : Shape := ⟨2, ![131072, 4]⟩
abbrev S32x3 : Shape := ⟨2, ![32, 3]⟩
abbrev S544x1024 : Shape := ⟨2, ![544, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S3x256 : Shape := ⟨2, ![3, 256]⟩
abbrev S256x256 : Shape := ⟨2, ![256, 256]⟩
abbrev S3x128 : Shape := ⟨2, ![3, 128]⟩
abbrev S128 : Shape := ⟨1, ![128]⟩
abbrev S128x13 : Shape := ⟨2, ![128, 13]⟩
abbrev S13 : Shape := ⟨1, ![13]⟩
abbrev S256x13 : Shape := ⟨2, ![256, 13]⟩
abbrev S_ : Shape := ⟨0, ![]⟩

class Facts : Prop where
  bcast_S_S131072x13 : S_.BroadcastsInDim S131072x13 (![] : Fin 0 → Fin S131072x13.rank)
  reducesTo_S131072x13_S_d0_1 : S131072x13.ReducesTo [0, 1] S_
  h_S_ : 0 < S_.numel
  bcast_S_S131072x4 : S_.BroadcastsInDim S131072x4 (![] : Fin 0 → Fin S131072x4.rank)
  reducesTo_S131072x4_S_d0_1 : S131072x4.ReducesTo [0, 1] S_
  bcast_S_S32x3 : S_.BroadcastsInDim S32x3 (![] : Fin 0 → Fin S32x3.rank)
  reducesTo_S32x3_S_d0_1 : S32x3.ReducesTo [0, 1] S_
  bcast_S_S544x1024 : S_.BroadcastsInDim S544x1024 (![] : Fin 0 → Fin S544x1024.rank)
  reducesTo_S544x1024_S_d0_1 : S544x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S3x256 : S_.BroadcastsInDim S3x256 (![] : Fin 0 → Fin S3x256.rank)
  reducesTo_S3x256_S_d0_1 : S3x256.ReducesTo [0, 1] S_
  bcast_S_S256x256 : S_.BroadcastsInDim S256x256 (![] : Fin 0 → Fin S256x256.rank)
  reducesTo_S256x256_S_d0_1 : S256x256.ReducesTo [0, 1] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x13 : S_.BroadcastsInDim S128x13 (![] : Fin 0 → Fin S128x13.rank)
  reducesTo_S128x13_S_d0_1 : S128x13.ReducesTo [0, 1] S_
  bcast_S_S13 : S_.BroadcastsInDim S13 (![] : Fin 0 → Fin S13.rank)
  reducesTo_S13_S_d0 : S13.ReducesTo [0] S_
  bcast_S_S256x13 : S_.BroadcastsInDim S256x13 (![] : Fin 0 → Fin S256x13.rank)
  reducesTo_S256x13_S_d0_1 : S256x13.ReducesTo [0, 1] S_
  reducesTo_S_S_d : S_.ReducesTo [] S_

variable [Facts]

def fn_part5 {F : FTy → Type} [FloatOps F] (main_arg18 : FVec F S13 .f32) (main_arg19 : FVec F S_ .f32) (main_v83 : IVec S_ 1) (main_v84 : FVec F S256x13 .f32) (main_cst_32 : FVec F S_ .f32) : IVec S_ 1 :=
  let main_v85 : FVec F S256x13 .f32 := broadcastInDim S256x13 ![] bcast_S_S256x13 main_cst_32
  let main_v86 : IVec S256x13 1 := cmpf .olt main_v84 main_v85
  let main_c_33 : IVec S_ 1 := constantI S_ 1 1#1
  let main_v87 : IVec S_ 1 := (fun x v => Host.reduce IntOp.andi x v reducesTo_S256x13_S_d0_1 h_S_) main_v86 main_c_33
  let main_v88 : IVec S_ 1 := andi main_v83 main_v87
  let main_v89 : FVec F S13 .f32 := Host.absf main_arg18
  let main_cst_34 : FVec F S_ .f32 := constant S_ .f32 0x7F800000#32
  let main_v90 : FVec F S13 .f32 := broadcastInDim S13 ![] bcast_S_S13 main_cst_34
  let main_v91 : IVec S13 1 := cmpf .olt main_v89 main_v90
  let main_c_35 : IVec S_ 1 := constantI S_ 1 1#1
  let main_v92 : IVec S_ 1 := (fun x v => Host.reduce IntOp.andi x v reducesTo_S13_S_d0 h_S_) main_v91 main_c_35
  let main_v93 : IVec S_ 1 := andi main_v88 main_v92
  let main_v94 : FVec F S_ .f32 := Host.absf main_arg19
  let main_cst_36 : FVec F S_ .f32 := constant S_ .f32 0x7F800000#32
  let main_v95 : IVec S_ 1 := cmpf .olt main_v94 main_cst_36
  let main_c_37 : IVec S_ 1 := constantI S_ 1 1#1
  let main_v96 : IVec S_ 1 := (fun x v => Host.reduce IntOp.andi x v reducesTo_S_S_d h_S_) main_v95 main_c_37
  let main_v97 : IVec S_ 1 := andi main_v93 main_v96
  main_v97

def fn_part4 {F : FTy → Type} [FloatOps F] (main_arg14 : FVec F S128 .f32) (main_arg15 : FVec F S128x13 .f32) (main_arg16 : FVec F S13 .f32) (main_arg17 : FVec F S256x13 .f32) (main_arg18 : FVec F S13 .f32) (main_arg19 : FVec F S_ .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x13 .f32 := Host.absf main_arg15
  let main_cst_28 : FVec F S_ .f32 := constant S_ .f32 0x7F800000#32
  let main_v75 : FVec F S128x13 .f32 := broadcastInDim S128x13 ![] bcast_S_S128x13 main_cst_28
  let main_v76 : IVec S128x13 1 := cmpf .olt main_v74 main_v75
  let main_c_29 : IVec S_ 1 := constantI S_ 1 1#1
  let main_v77 : IVec S_ 1 := (fun x v => Host.reduce IntOp.andi x v reducesTo_S128x13_S_d0_1 h_S_) main_v76 main_c_29
  let main_v78 : IVec S_ 1 := andi main_v73 main_v77
  let main_v79 : FVec F S13 .f32 := Host.absf main_arg16
  let main_cst_30 : FVec F S_ .f32 := constant S_ .f32 0x7F800000#32
  let main_v80 : FVec F S13 .f32 := broadcastInDim S13 ![] bcast_S_S13 main_cst_30
  let main_v81 : IVec S13 1 := cmpf .olt main_v79 main_v80
  let main_c_31 : IVec S_ 1 := constantI S_ 1 1#1
  let main_v82 : IVec S_ 1 := (fun x v => Host.reduce IntOp.andi x v reducesTo_S13_S_d0 h_S_) main_v81 main_c_31
  let main_v83 : IVec S_ 1 := andi main_v78 main_v82
  let main_v84 : FVec F S256x13 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S256x256 .f32) (main_arg12 : FVec F S256 .f32) (main_arg13 : FVec F S3x128 .f32) (main_arg14 : FVec F S128 .f32) (main_arg15 : FVec F S128x13 .f32) (main_arg16 : FVec F S13 .f32) (main_arg17 : FVec F S256x13 .f32) (main_arg18 : FVec F S13 .f32) (main_arg19 : FVec F S_ .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S3x128 .f32 := Host.absf main_arg13
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg14 main_arg15 main_arg16 main_arg17 main_arg18 main_arg19 main_v63 main_v67

def fn_part2 {F : FTy → Type} [FloatOps F] (main_arg7 : FVec F S512x256 .f32) (main_arg8 : FVec F S256 .f32) (main_arg9 : FVec F S3x256 .f32) (main_arg10 : FVec F S256 .f32) (main_arg11 : FVec F S256x256 .f32) (main_arg12 : FVec F S256 .f32) (main_arg13 : FVec F S3x128 .f32) (main_arg14 : FVec F S128 .f32) (main_arg15 : FVec F S128x13 .f32) (main_arg16 : FVec F S13 .f32) (main_arg17 : FVec F S256x13 .f32) (main_arg18 : FVec F S13 .f32) (main_arg19 : FVec F S_ .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S3x256 .f32 := Host.absf main_arg9
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S1024 .f32) (main_arg5 : FVec F S1024x512 .f32) (main_arg6 : FVec F S512 .f32) (main_arg7 : FVec F S512x256 .f32) (main_arg8 : FVec F S256 .f32) (main_arg9 : FVec F S3x256 .f32) (main_arg10 : FVec F S256 .f32) (main_arg11 : FVec F S256x256 .f32) (main_arg12 : FVec F S256 .f32) (main_arg13 : FVec F S3x128 .f32) (main_arg14 : FVec F S128 .f32) (main_arg15 : FVec F S128x13 .f32) (main_arg16 : FVec F S13 .f32) (main_arg17 : FVec F S256x13 .f32) (main_arg18 : FVec F S13 .f32) (main_arg19 : FVec F S_ .f32) (main_v13 : IVec S_ 1) (main_v16 : IVec S544x1024 1) : IVec S_ 1 :=
  let main_c_5 : IVec S_ 1 := constantI S_ 1 1#1
  let main_v17 : IVec S_ 1 := (fun x v => Host.reduce IntOp.andi x v reducesTo_S544x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S131072x13 .f32) (main_arg1 : FVec F S131072x4 .f32) (main_arg2 : FVec F S32x3 .f32) (main_arg3 : FVec F S544x1024 .f32) (main_arg4 : FVec F S1024 .f32) (main_arg5 : FVec F S1024x512 .f32) (main_arg6 : FVec F S512 .f32) (main_arg7 : FVec F S512x256 .f32) (main_arg8 : FVec F S256 .f32) (main_arg9 : FVec F S3x256 .f32) (main_arg10 : FVec F S256 .f32) (main_arg11 : FVec F S256x256 .f32) (main_arg12 : FVec F S256 .f32) (main_arg13 : FVec F S3x128 .f32) (main_arg14 : FVec F S128 .f32) (main_arg15 : FVec F S128x13 .f32) (main_arg16 : FVec F S13 .f32) (main_arg17 : FVec F S256x13 .f32) (main_arg18 : FVec F S13 .f32) (main_arg19 : FVec F S_ .f32) : IVec S_ 1 :=
  let main_v0 : FVec F S131072x13 .f32 := Host.absf main_arg0
  let main_cst : FVec F S_ .f32 := constant S_ .f32 0x7F800000#32
  let main_v1 : FVec F S131072x13 .f32 := broadcastInDim S131072x13 ![] bcast_S_S131072x13 main_cst
  let main_v2 : IVec S131072x13 1 := cmpf .olt main_v0 main_v1
  let main_c : IVec S_ 1 := constantI S_ 1 1#1
  let main_v3 : IVec S_ 1 := (fun x v => Host.reduce IntOp.andi x v reducesTo_S131072x13_S_d0_1 h_S_) main_v2 main_c
  let main_v4 : FVec F S131072x4 .f32 := Host.absf main_arg1
  let main_cst_0 : FVec F S_ .f32 := constant S_ .f32 0x7F800000#32
  let main_v5 : FVec F S131072x4 .f32 := broadcastInDim S131072x4 ![] bcast_S_S131072x4 main_cst_0
  let main_v6 : IVec S131072x4 1 := cmpf .olt main_v4 main_v5
  let main_c_1 : IVec S_ 1 := constantI S_ 1 1#1
  let main_v7 : IVec S_ 1 := (fun x v => Host.reduce IntOp.andi x v reducesTo_S131072x4_S_d0_1 h_S_) main_v6 main_c_1
  let main_v8 : IVec S_ 1 := andi main_v3 main_v7
  let main_v9 : FVec F S32x3 .f32 := Host.absf main_arg2
  let main_cst_2 : FVec F S_ .f32 := constant S_ .f32 0x7F800000#32
  let main_v10 : FVec F S32x3 .f32 := broadcastInDim S32x3 ![] bcast_S_S32x3 main_cst_2
  let main_v11 : IVec S32x3 1 := cmpf .olt main_v9 main_v10
  let main_c_3 : IVec S_ 1 := constantI S_ 1 1#1
  let main_v12 : IVec S_ 1 := (fun x v => Host.reduce IntOp.andi x v reducesTo_S32x3_S_d0_1 h_S_) main_v11 main_c_3
  let main_v13 : IVec S_ 1 := andi main_v8 main_v12
  let main_v14 : FVec F S544x1024 .f32 := Host.absf main_arg3
  let main_cst_4 : FVec F S_ .f32 := constant S_ .f32 0x7F800000#32
  let main_v15 : FVec F S544x1024 .f32 := broadcastInDim S544x1024 ![] bcast_S_S544x1024 main_cst_4
  let main_v16 : IVec S544x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S131072x13 : Shape := ⟨2, ![131072, 13]⟩
abbrev S131072x4 : Shape := ⟨2, ![131072, 4]⟩
abbrev S32x3 : Shape := ⟨2, ![32, 3]⟩
abbrev S544x1024 : Shape := ⟨2, ![544, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S3x256 : Shape := ⟨2, ![3, 256]⟩
abbrev S256x256 : Shape := ⟨2, ![256, 256]⟩
abbrev S3x128 : Shape := ⟨2, ![3, 128]⟩
abbrev S128 : Shape := ⟨1, ![128]⟩
abbrev S128x13 : Shape := ⟨2, ![128, 13]⟩
abbrev S13 : Shape := ⟨1, ![13]⟩
abbrev S256x13 : Shape := ⟨2, ![256, 13]⟩
abbrev S_ : Shape := ⟨0, ![]⟩
abbrev S1x1024 : Shape := ⟨2, ![1, 1024]⟩
abbrev S1x512 : Shape := ⟨2, ![1, 512]⟩
abbrev S1x256 : Shape := ⟨2, ![1, 256]⟩
abbrev S1x128 : Shape := ⟨2, ![1, 128]⟩
abbrev S1x13 : Shape := ⟨2, ![1, 13]⟩
abbrev S1x1 : Shape := ⟨2, ![1, 1]⟩
abbrev S1024x13 : Shape := ⟨2, ![1024, 13]⟩
abbrev S1024x4 : Shape := ⟨2, ![1024, 4]⟩
abbrev S1024x3 : Shape := ⟨2, ![1024, 3]⟩
abbrev S3x32 : Shape := ⟨2, ![3, 32]⟩
abbrev S1024x32 : Shape := ⟨2, ![1024, 32]⟩
abbrev S32 : Shape := ⟨1, ![32]⟩
abbrev S1x32 : Shape := ⟨2, ![1, 32]⟩
abbrev S1024x1 : Shape := ⟨2, ![1024, 1]⟩
abbrev S1024x17 : Shape := ⟨2, ![1024, 17]⟩
abbrev S1024x544 : Shape := ⟨2, ![1024, 544]⟩
abbrev S1024x1024 : Shape := ⟨2, ![1024, 1024]⟩
abbrev S1024x256 : Shape := ⟨2, ![1024, 256]⟩
abbrev S1024x128 : Shape := ⟨2, ![1024, 128]⟩
abbrev S1024x6 : Shape := ⟨2, ![1024, 6]⟩

abbrev nBuf : Space → Nat
  | .hbm => 38
  | .vmem => 24
  | .smem => 0
  | _ => 0

abbrev bufTy : (tb : Table) → Fin (tcTables nBuf tb) → BufTy
  | .hbm, ⟨0, _⟩ => ⟨S131072x13, .f32⟩
  | .hbm, ⟨1, _⟩ => ⟨S131072x4, .f32⟩
  | .hbm, ⟨2, _⟩ => ⟨S32x3, .f32⟩
  | .hbm, ⟨3, _⟩ => ⟨S544x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S3x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S3x128, .f32⟩
  | .hbm, ⟨14, _⟩ => ⟨S128, .f32⟩
  | .hbm, ⟨15, _⟩ => ⟨S128x13, .f32⟩
  | .hbm, ⟨16, _⟩ => ⟨S13, .f32⟩
  | .hbm, ⟨17, _⟩ => ⟨S256x13, .f32⟩
  | .hbm, ⟨18, _⟩ => ⟨S13, .f32⟩
  | .hbm, ⟨19, _⟩ => ⟨S_, .f32⟩
  | .hbm, ⟨20, _⟩ => ⟨S544x1024, .bf16⟩
  | .hbm, ⟨21, _⟩ => ⟨S1024x512, .bf16⟩
  | .hbm, ⟨22, _⟩ => ⟨S512x256, .bf16⟩
  | .hbm, ⟨23, _⟩ => ⟨S3x256, .bf16⟩
  | .hbm, ⟨24, _⟩ => ⟨S256x256, .bf16⟩
  | .hbm, ⟨25, _⟩ => ⟨S3x128, .bf16⟩
  | .hbm, ⟨26, _⟩ => ⟨S128x13, .bf16⟩
  | .hbm, ⟨27, _⟩ => ⟨S256x13, .bf16⟩
  | .hbm, ⟨28, _⟩ => ⟨S1x1024, .f32⟩
  | .hbm, ⟨29, _⟩ => ⟨S1x512, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x128, .f32⟩
  | .hbm, ⟨34, _⟩ => ⟨S1x13, .f32⟩
  | .hbm, ⟨35, _⟩ => ⟨S1x13, .f32⟩
  | .hbm, ⟨36, _⟩ => ⟨S1x1, .f32⟩
  | .hbm, ⟨37, _⟩ => ⟨S131072x13, .f32⟩
  | .local _ .vmem, ⟨0, _⟩ => ⟨S1024x13, .f32⟩
  | .local _ .vmem, ⟨1, _⟩ => ⟨S1024x13, .f32⟩
  | .local _ .vmem, ⟨2, _⟩ => ⟨S1024x4, .f32⟩
  | .local _ .vmem, ⟨3, _⟩ => ⟨S1024x4, .f32⟩
  | .local _ .vmem, ⟨4, _⟩ => ⟨S32x3, .f32⟩
  | .local _ .vmem, ⟨5, _⟩ => ⟨S544x1024, .bf16⟩
  | .local _ .vmem, ⟨6, _⟩ => ⟨S1x1024, .f32⟩
  | .local _ .vmem, ⟨7, _⟩ => ⟨S1024x512, .bf16⟩
  | .local _ .vmem, ⟨8, _⟩ => ⟨S1x512, .f32⟩
  | .local _ .vmem, ⟨9, _⟩ => ⟨S512x256, .bf16⟩
  | .local _ .vmem, ⟨10, _⟩ => ⟨S1x256, .f32⟩
  | .local _ .vmem, ⟨11, _⟩ => ⟨S3x256, .bf16⟩
  | .local _ .vmem, ⟨12, _⟩ => ⟨S1x256, .f32⟩
  | .local _ .vmem, ⟨13, _⟩ => ⟨S256x256, .bf16⟩
  | .local _ .vmem, ⟨14, _⟩ => ⟨S1x256, .f32⟩
  | .local _ .vmem, ⟨15, _⟩ => ⟨S3x128, .bf16⟩
  | .local _ .vmem, ⟨16, _⟩ => ⟨S1x128, .f32⟩
  | .local _ .vmem, ⟨17, _⟩ => ⟨S128x13, .bf16⟩
  | .local _ .vmem, ⟨18, _⟩ => ⟨S1x13, .f32⟩
  | .local _ .vmem, ⟨19, _⟩ => ⟨S256x13, .bf16⟩
  | .local _ .vmem, ⟨20, _⟩ => ⟨S1x13, .f32⟩
  | .local _ .vmem, ⟨21, _⟩ => ⟨S1x1, .f32⟩
  | .local _ .vmem, ⟨22, _⟩ => ⟨S1024x13, .f32⟩
  | .local _ .vmem, ⟨23, _⟩ => ⟨S1024x13, .f32⟩
  | _, _ => ⟨S131072x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg20_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem20_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S544x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x13 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x13 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x13 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x13 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1024x13 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bitsLt_bf16_f32 : FTy.bits .bf16 < FTy.bits .f32
  shapeCasts_S1024_S1x1024 : S1024.ShapeCasts S1x1024
  shapeCasts_S512_S1x512 : S512.ShapeCasts S1x512
  shapeCasts_S256_S1x256 : S256.ShapeCasts S1x256
  shapeCasts_S128_S1x128 : S128.ShapeCasts S1x128
  shapeCasts_S13_S1x13 : S13.ShapeCasts S1x13
  shapeCasts_S_S1x1 : S_.ShapeCasts S1x1
  inb_S1024x13_S1024x13_0_0 : ∀ a, (![0, 0] : Fin 2 → Nat) a + S1024x13.size a ≤ S1024x13.size a
  h_S1024x13 : 0 < S1024x13.numel
  inb_S1024x4_S1024x4_0_0 : ∀ a, (![0, 0] : Fin 2 → Nat) a + S1024x4.size a ≤ S1024x4.size a
  h_S1024x4 : 0 < S1024x4.numel
  inb_S32x3_S32x3_0_0 : ∀ a, (![0, 0] : Fin 2 → Nat) a + S32x3.size a ≤ S32x3.size a
  h_S32x3 : 0 < S32x3.numel
  slices_S1024x13_o0_0_S1024x3 : S1024x13.Slices ![0, 0] S1024x3
  transposes_S32x3_p1_0_S3x32 : S32x3.Transposes [1, 0] S3x32
  reduces_S3x32_S32 : S3x32.Reduces [0] S32
  shapeCasts_S32_S1x32 : S32.ShapeCasts S1x32
  reduces_S1024x3_S1024 : S1024x3.Reduces [1] S1024
  shapeCasts_S1024_S1024x1 : S1024.ShapeCasts S1024x1
  broadcasts_S1024x1_S1024x32 : S1024x1.Broadcasts S1024x32
  broadcasts_S1x32_S1024x32 : S1x32.Broadcasts S1024x32
  slices_S1024x32_o0_0_S1024x1 : S1024x32.Slices ![0, 0] S1024x1
  broadcasts_S1024x1_S1024x13 : S1024x1.Broadcasts S1024x13
  broadcasts_S1024x1_S1024x4 : S1024x1.Broadcasts S1024x4
  concatenates_S1024x13_S1024x4_S1024x17_d1 : Shape.Concatenates [S1024x13, S1024x4] S1024x17 1
  slices_S1024x32_o0_1_S1024x1 : S1024x32.Slices ![0, 1] S1024x1
  slices_S1024x32_o0_2_S1024x1 : S1024x32.Slices ![0, 2] S1024x1
  slices_S1024x32_o0_3_S1024x1 : S1024x32.Slices ![0, 3] S1024x1
  slices_S1024x32_o0_4_S1024x1 : S1024x32.Slices ![0, 4] S1024x1
  slices_S1024x32_o0_5_S1024x1 : S1024x32.Slices ![0, 5] S1024x1
  slices_S1024x32_o0_6_S1024x1 : S1024x32.Slices ![0, 6] S1024x1
  slices_S1024x32_o0_7_S1024x1 : S1024x32.Slices ![0, 7] S1024x1
  slices_S1024x32_o0_8_S1024x1 : S1024x32.Slices ![0, 8] S1024x1
  slices_S1024x32_o0_9_S1024x1 : S1024x32.Slices ![0, 9] S1024x1
  slices_S1024x32_o0_10_S1024x1 : S1024x32.Slices ![0, 10] S1024x1
  slices_S1024x32_o0_11_S1024x1 : S1024x32.Slices ![0, 11] S1024x1
  slices_S1024x32_o0_12_S1024x1 : S1024x32.Slices ![0, 12] S1024x1
  slices_S1024x32_o0_13_S1024x1 : S1024x32.Slices ![0, 13] S1024x1
  slices_S1024x32_o0_14_S1024x1 : S1024x32.Slices ![0, 14] S1024x1
  slices_S1024x32_o0_15_S1024x1 : S1024x32.Slices ![0, 15] S1024x1
  slices_S1024x32_o0_16_S1024x1 : S1024x32.Slices ![0, 16] S1024x1
  slices_S1024x32_o0_17_S1024x1 : S1024x32.Slices ![0, 17] S1024x1
  slices_S1024x32_o0_18_S1024x1 : S1024x32.Slices ![0, 18] S1024x1
  slices_S1024x32_o0_19_S1024x1 : S1024x32.Slices ![0, 19] S1024x1
  slices_S1024x32_o0_20_S1024x1 : S1024x32.Slices ![0, 20] S1024x1
  slices_S1024x32_o0_21_S1024x1 : S1024x32.Slices ![0, 21] S1024x1
  slices_S1024x32_o0_22_S1024x1 : S1024x32.Slices ![0, 22] S1024x1
  slices_S1024x32_o0_23_S1024x1 : S1024x32.Slices ![0, 23] S1024x1
  slices_S1024x32_o0_24_S1024x1 : S1024x32.Slices ![0, 24] S1024x1
  slices_S1024x32_o0_25_S1024x1 : S1024x32.Slices ![0, 25] S1024x1
  slices_S1024x32_o0_26_S1024x1 : S1024x32.Slices ![0, 26] S1024x1
  slices_S1024x32_o0_27_S1024x1 : S1024x32.Slices ![0, 27] S1024x1
  slices_S1024x32_o0_28_S1024x1 : S1024x32.Slices ![0, 28] S1024x1
  slices_S1024x32_o0_29_S1024x1 : S1024x32.Slices ![0, 29] S1024x1
  slices_S1024x32_o0_30_S1024x1 : S1024x32.Slices ![0, 30] S1024x1
  slices_S1024x32_o0_31_S1024x1 : S1024x32.Slices ![0, 31] S1024x1
  concatenates_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x544_d1 : Shape.Concatenates [S1024x17, S1024x17, S1024x17, S1024x17, S1024x17, S1024x17, S1024x17, S1024x17, S1024x17, S1024x17, S1024x17, S1024x17, S1024x17, S1024x17, S1024x17, S1024x17, S1024x17, S1024x17, S1024x17, S1024x17, S1024x17, S1024x17, S1024x17, S1024x17, S1024x17, S1024x17, S1024x17, S1024x17, S1024x17, S1024x17, S1024x17, S1024x17] S1024x544 1
  inb_S544x1024_S544x1024_0_0 : ∀ a, (![0, 0] : Fin 2 → Nat) a + S544x1024.size a ≤ S544x1024.size a
  h_S544x1024 : 0 < S544x1024.numel
  shapeCasts_S544x1024_S544x1024 : S544x1024.ShapeCasts S544x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x13_S256x13_0_0 : ∀ a, (![0, 0] : Fin 2 → Nat) a + S256x13.size a ≤ S256x13.size a
  h_S256x13 : 0 < S256x13.numel
  shapeCasts_S256x13_S256x13 : S256x13.ShapeCasts S256x13
  inb_S1x13_S1x13_0_0 : ∀ a, (![0, 0] : Fin 2 → Nat) a + S1x13.size a ≤ S1x13.size a
  h_S1x13 : 0 < S1x13.numel
  shapeCasts_S1x13_S1x13 : S1x13.ShapeCasts S1x13
  broadcasts_S1x13_S1024x13 : S1x13.Broadcasts S1024x13
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x13_S128x13_0_0 : ∀ a, (![0, 0] : Fin 2 → Nat) a + S128x13.size a ≤ S128x13.size a
  h_S128x13 : 0 < S128x13.numel
  shapeCasts_S128x13_S128x13 : S128x13.ShapeCasts S128x13
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S1024x13_o0_3_S1024x4 : S1024x13.Slices ![0, 3] S1024x4
  reduces_S1024x4_S1024 : S1024x4.Reduces [1] S1024
  slices_S1024x13_o0_7_S1024x6 : S1024x13.Slices ![0, 7] S1024x6
  concatenates_S1024x3_S1024x4_S1024x6_S1024x13_d1 : Shape.Concatenates [S1024x3, S1024x4, S1024x6] S1024x13 1
  dot_S1024x3_S3x32_S1024x32_1_0_0_1_n_n_wf : DotDims.WF S1024x3 S3x32 S1024x32 [1] [0] [0] [1] [] []
  dot_S1024x544_S544x1024_S1024x1024_1_0_0_1_n_n_wf : DotDims.WF S1024x544 S544x1024 S1024x1024 [1] [0] [0] [1] [] []
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  dot_S1024x3_S3x256_S1024x256_1_0_0_1_n_n_wf : DotDims.WF S1024x3 S3x256 S1024x256 [1] [0] [0] [1] [] []
  dot_S1024x256_S256x256_S1024x256_1_0_0_1_n_n_wf : DotDims.WF S1024x256 S256x256 S1024x256 [1] [0] [0] [1] [] []
  dot_S1024x256_S256x13_S1024x13_1_0_0_1_n_n_wf : DotDims.WF S1024x256 S256x13 S1024x13 [1] [0] [0] [1] [] []
  dot_S1024x3_S3x128_S1024x128_1_0_0_1_n_n_wf : DotDims.WF S1024x3 S3x128 S1024x128 [1] [0] [0] [1] [] []
  dot_S1024x128_S128x13_S1024x13_1_0_0_1_n_n_wf : DotDims.WF S1024x128 S128x13 S1024x13 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x13.size a ≤ S131072x13.size a
  hwx0_0 : ∀ i : grid0.Coords, EltTy.bits .f32 = 32 ∨ (Rect.block (s := S131072x13) S1024x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4.size a ≤ S131072x4.size a
  hwx0_1 : ∀ i : grid0.Coords, EltTy.bits .f32 = 32 ∨ (Rect.block (s := S131072x4) S1024x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x3.size a ≤ S32x3.size a
  hwx0_2 : ∀ i : grid0.Coords, EltTy.bits .f32 = 32 ∨ (Rect.block (s := S32x3) S32x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S544x1024.size a ≤ S544x1024.size a
  hwx0_3 : ∀ i : grid0.Coords, EltTy.bits .bf16 = 32 ∨ (Rect.block (s := S544x1024) S544x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x256.size a ≤ S3x256.size a
  hwx0_9 : ∀ i : grid0.Coords, EltTy.bits .bf16 = 32 ∨ (Rect.block (s := S3x256) S3x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S3x128.size a ≤ S3x128.size a
  hwx0_13 : ∀ i : grid0.Coords, EltTy.bits .bf16 = 32 ∨ (Rect.block (s := S3x128) S3x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x13.size a ≤ S128x13.size a
  hwx0_15 : ∀ i : grid0.Coords, EltTy.bits .bf16 = 32 ∨ (Rect.block (s := S128x13) S128x13.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x13.size a ≤ S1x13.size a
  hwx0_16 : ∀ i : grid0.Coords, EltTy.bits .f32 = 32 ∨ (Rect.block (s := S1x13) S1x13.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x13.size a ≤ S256x13.size a
  hwx0_17 : ∀ i : grid0.Coords, EltTy.bits .bf16 = 32 ∨ (Rect.block (s := S256x13) S256x13.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x13.size a ≤ S1x13.size a
  hwx0_18 : ∀ i : grid0.Coords, EltTy.bits .f32 = 32 ∨ (Rect.block (s := S1x13) S1x13.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1.size a ≤ S1x1.size a
  hwx0_19 : ∀ i : grid0.Coords, EltTy.bits .f32 = 32 ∨ (Rect.block (s := S1x1) S1x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x13.size a ≤ S131072x13.size a
  hwx0_20 : ∀ i : grid0.Coords, EltTy.bits .f32 = 32 ∨ (Rect.block (s := S131072x13) S1024x13.size (cc0_transform_20 i) (hinb0_20 i)).WholeWords (EltTy.packing .f32)

variable [Facts₀]

def dot_S1024x3_S3x32_S1024x32_1_0_0_1_n_n : DotDims S1024x3 S3x32 S1024x32 where
  lhsContracting := [1]
  rhsContracting := [0]
  lhsNonContracting := [0]
  rhsNonContracting := [1]
  lhsBatch := []
  rhsBatch := []
  wf := dot_S1024x3_S3x32_S1024x32_1_0_0_1_n_n_wf
def dot_S1024x544_S544x1024_S1024x1024_1_0_0_1_n_n : DotDims S1024x544 S544x1024 S1024x1024 where
  lhsContracting := [1]
  rhsContracting := [0]
  lhsNonContracting := [0]
  rhsNonContracting := [1]
  lhsBatch := []
  rhsBatch := []
  wf := dot_S1024x544_S544x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x3_S3x256_S1024x256_1_0_0_1_n_n : DotDims S1024x3 S3x256 S1024x256 where
  lhsContracting := [1]
  rhsContracting := [0]
  lhsNonContracting := [0]
  rhsNonContracting := [1]
  lhsBatch := []
  rhsBatch := []
  wf := dot_S1024x3_S3x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x13_S1024x13_1_0_0_1_n_n : DotDims S1024x256 S256x13 S1024x13 where
  lhsContracting := [1]
  rhsContracting := [0]
  lhsNonContracting := [0]
  rhsNonContracting := [1]
  lhsBatch := []
  rhsBatch := []
  wf := dot_S1024x256_S256x13_S1024x13_1_0_0_1_n_n_wf
def dot_S1024x3_S3x128_S1024x128_1_0_0_1_n_n : DotDims S1024x3 S3x128 S1024x128 where
  lhsContracting := [1]
  rhsContracting := [0]
  lhsNonContracting := [0]
  rhsNonContracting := [1]
  lhsBatch := []
  rhsBatch := []
  wf := dot_S1024x3_S3x128_S1024x128_1_0_0_1_n_n_wf
def dot_S1024x128_S128x13_S1024x13_1_0_0_1_n_n : DotDims S1024x128 S128x13 S1024x13 where
  lhsContracting := [1]
  rhsContracting := [0]
  lhsNonContracting := [0]
  rhsNonContracting := [1]
  lhsBatch := []
  rhsBatch := []
  wf := dot_S1024x128_S128x13_S1024x13_1_0_0_1_n_n_wf

abbrev win0_0 : Pipeline.Window sig grid0 :=
  Pipeline.Window.ofSpec (Memref.whole main_arg0) S1024x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S544x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S3x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S3x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v6) S128x13.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v14) S1x13.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v7) S256x13.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v15) S1x13.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v16) S1x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v17) S1024x13.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S131072x13 : Shape := ⟨2, ![131072, 13]⟩
abbrev S131072x4 : Shape := ⟨2, ![131072, 4]⟩
abbrev S32x3 : Shape := ⟨2, ![32, 3]⟩
abbrev S544x1024 : Shape := ⟨2, ![544, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S3x256 : Shape := ⟨2, ![3, 256]⟩
abbrev S256x256 : Shape := ⟨2, ![256, 256]⟩
abbrev S3x128 : Shape := ⟨2, ![3, 128]⟩
abbrev S128 : Shape := ⟨1, ![128]⟩
abbrev S128x13 : Shape := ⟨2, ![128, 13]⟩
abbrev S13 : Shape := ⟨1, ![13]⟩
abbrev S256x13 : Shape := ⟨2, ![256, 13]⟩
abbrev S_ : Shape := ⟨0, ![]⟩
abbrev S131072x3 : Shape := ⟨2, ![131072, 3]⟩
abbrev S1x32x3 : Shape := ⟨3, ![1, 32, 3]⟩
abbrev S131072x1x3 : Shape := ⟨3, ![131072, 1, 3]⟩
abbrev S131072x32x3 : Shape := ⟨3, ![131072, 32, 3]⟩
abbrev S131072x32 : Shape := ⟨2, ![131072, 32]⟩
abbrev S131072x32x1 : Shape := ⟨3, ![131072, 32, 1]⟩
abbrev S131072x1x13 : Shape := ⟨3, ![131072, 1, 13]⟩
abbrev S131072x32x13 : Shape := ⟨3, ![131072, 32, 13]⟩
abbrev S131072x1x4 : Shape := ⟨3, ![131072, 1, 4]⟩
abbrev S131072x32x4 : Shape := ⟨3, ![131072, 32, 4]⟩
abbrev S131072x32x17 : Shape := ⟨3, ![131072, 32, 17]⟩
abbrev S131072x544 : Shape := ⟨2, ![131072, 544]⟩
abbrev S131072x1024 : Shape := ⟨2, ![131072, 1024]⟩
abbrev S1x1024 : Shape := ⟨2, ![1, 1024]⟩
abbrev S131072x512 : Shape := ⟨2, ![131072, 512]⟩
abbrev S1x512 : Shape := ⟨2, ![1, 512]⟩
abbrev S131072x256 : Shape := ⟨2, ![131072, 256]⟩
abbrev S1x256 : Shape := ⟨2, ![1, 256]⟩
abbrev S1x13 : Shape := ⟨2, ![1, 13]⟩
abbrev S131072x128 : Shape := ⟨2, ![131072, 128]⟩
abbrev S1x128 : Shape := ⟨2, ![1, 128]⟩
abbrev S131072 : Shape := ⟨1, ![131072]⟩
abbrev S131072x1 : Shape := ⟨2, ![131072, 1]⟩
abbrev S1 : Shape := ⟨1, ![1]⟩

abbrev nBuf : Space → Nat
  | .hbm => 108
  | .vmem => 0
  | .smem => 0
  | _ => 0

abbrev bufTy : (tb : Table) → Fin (tcTables nBuf tb) → BufTy
  | .hbm, ⟨0, _⟩ => ⟨S131072x13, .f32⟩
  | .hbm, ⟨1, _⟩ => ⟨S131072x4, .f32⟩
  | .hbm, ⟨2, _⟩ => ⟨S32x3, .f32⟩
  | .hbm, ⟨3, _⟩ => ⟨S544x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S3x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S3x128, .f32⟩
  | .hbm, ⟨14, _⟩ => ⟨S128, .f32⟩
  | .hbm, ⟨15, _⟩ => ⟨S128x13, .f32⟩
  | .hbm, ⟨16, _⟩ => ⟨S13, .f32⟩
  | .hbm, ⟨17, _⟩ => ⟨S256x13, .f32⟩
  | .hbm, ⟨18, _⟩ => ⟨S13, .f32⟩
  | .hbm, ⟨19, _⟩ => ⟨S_, .f32⟩
  | .hbm, ⟨20, _⟩ => ⟨S131072x3, .f32⟩
  | .hbm, ⟨21, _⟩ => ⟨S1x32x3, .f32⟩
  | .hbm, ⟨22, _⟩ => ⟨S131072x1x3, .f32⟩
  | .hbm, ⟨23, _⟩ => ⟨S131072x32x3, .f32⟩
  | .hbm, ⟨24, _⟩ => ⟨S131072x32x3, .f32⟩
  | .hbm, ⟨25, _⟩ => ⟨S131072x32x3, .f32⟩
  | .hbm, ⟨26, _⟩ => ⟨S131072x32x3, .f32⟩
  | .hbm, ⟨27, _⟩ => ⟨S_, .f32⟩
  | .hbm, ⟨28, _⟩ => ⟨S131072x32, .f32⟩
  | .hbm, ⟨29, _⟩ => ⟨S131072x32x1, .f32⟩
  | .hbm, ⟨30, _⟩ => ⟨S131072x32x1, .f32⟩
  | .hbm, ⟨31, _⟩ => ⟨S131072x32x1, .f32⟩
  | .hbm, ⟨32, _⟩ => ⟨S_, .f32⟩
  | .hbm, ⟨33, _⟩ => ⟨S131072x32x1, .f32⟩
  | .hbm, ⟨34, _⟩ => ⟨S131072x32x1, .f32⟩
  | .hbm, ⟨35, _⟩ => ⟨S131072x32x1, .f32⟩
  | .hbm, ⟨36, _⟩ => ⟨S131072x1x13, .f32⟩
  | .hbm, ⟨37, _⟩ => ⟨S131072x32x13, .f32⟩
  | .hbm, ⟨38, _⟩ => ⟨S131072x32x13, .f32⟩
  | .hbm, ⟨39, _⟩ => ⟨S131072x32x13, .f32⟩
  | .hbm, ⟨40, _⟩ => ⟨S131072x1x4, .f32⟩
  | .hbm, ⟨41, _⟩ => ⟨S131072x32x4, .f32⟩
  | .hbm, ⟨42, _⟩ => ⟨S131072x32x4, .f32⟩
  | .hbm, ⟨43, _⟩ => ⟨S131072x32x4, .f32⟩
  | .hbm, ⟨44, _⟩ => ⟨S131072x32x17, .f32⟩
  | .hbm, ⟨45, _⟩ => ⟨S131072x544, .f32⟩
  | .hbm, ⟨46, _⟩ => ⟨S131072x1024, .f32⟩
  | .hbm, ⟨47, _⟩ => ⟨S1x1024, .f32⟩
  | .hbm, ⟨48, _⟩ => ⟨S131072x1024, .f32⟩
  | .hbm, ⟨49, _⟩ => ⟨S131072x1024, .f32⟩
  | .hbm, ⟨50, _⟩ => ⟨S_, .f32⟩
  | .hbm, ⟨51, _⟩ => ⟨S131072x1024, .f32⟩
  | .hbm, ⟨52, _⟩ => ⟨S131072x1024, .f32⟩
  | .hbm, ⟨53, _⟩ => ⟨S131072x512, .f32⟩
  | .hbm, ⟨54, _⟩ => ⟨S1x512, .f32⟩
  | .hbm, ⟨55, _⟩ => ⟨S131072x512, .f32⟩
  | .hbm, ⟨56, _⟩ => ⟨S131072x512, .f32⟩
  | .hbm, ⟨57, _⟩ => ⟨S_, .f32⟩
  | .hbm, ⟨58, _⟩ => ⟨S131072x512, .f32⟩
  | .hbm, ⟨59, _⟩ => ⟨S131072x512, .f32⟩
  | .hbm, ⟨60, _⟩ => ⟨S131072x256, .f32⟩
  | .hbm, ⟨61, _⟩ => ⟨S1x256, .f32⟩
  | .hbm, ⟨62, _⟩ => ⟨S131072x256, .f32⟩
  | .hbm, ⟨63, _⟩ => ⟨S131072x256, .f32⟩
  | .hbm, ⟨64, _⟩ => ⟨S131072x256, .f32⟩
  | .hbm, ⟨65, _⟩ => ⟨S1x256, .f32⟩
  | .hbm, ⟨66, _⟩ => ⟨S131072x256, .f32⟩
  | .hbm, ⟨67, _⟩ => ⟨S131072x256, .f32⟩
  | .hbm, ⟨68, _⟩ => ⟨S131072x256, .f32⟩
  | .hbm, ⟨69, _⟩ => ⟨S131072x256, .f32⟩
  | .hbm, ⟨70, _⟩ => ⟨S1x256, .f32⟩
  | .hbm, ⟨71, _⟩ => ⟨S131072x256, .f32⟩
  | .hbm, ⟨72, _⟩ => ⟨S131072x256, .f32⟩
  | .hbm, ⟨73, _⟩ => ⟨S131072x256, .f32⟩
  | .hbm, ⟨74, _⟩ => ⟨S131072x256, .f32⟩
  | .hbm, ⟨75, _⟩ => ⟨S131072x13, .f32⟩
  | .hbm, ⟨76, _⟩ => ⟨S1x13, .f32⟩
  | .hbm, ⟨77, _⟩ => ⟨S131072x13, .f32⟩
  | .hbm, ⟨78, _⟩ => ⟨S131072x13, .f32⟩
  | .hbm, ⟨79, _⟩ => ⟨S131072x128, .f32⟩
  | .hbm, ⟨80, _⟩ => ⟨S1x128, .f32⟩
  | .hbm, ⟨81, _⟩ => ⟨S131072x128, .f32⟩
  | .hbm, ⟨82, _⟩ => ⟨S131072x128, .f32⟩
  | .hbm, ⟨83, _⟩ => ⟨S_, .f32⟩
  | .hbm, ⟨84, _⟩ => ⟨S131072x128, .f32⟩
  | .hbm, ⟨85, _⟩ => ⟨S131072x128, .f32⟩
  | .hbm, ⟨86, _⟩ => ⟨S131072x13, .f32⟩
  | .hbm, ⟨87, _⟩ => ⟨S1x13, .f32⟩
  | .hbm, ⟨88, _⟩ => ⟨S131072x13, .f32⟩
  | .hbm, ⟨89, _⟩ => ⟨S131072x13, .f32⟩
  | .hbm, ⟨90, _⟩ => ⟨S131072x13, .f32⟩
  | .hbm, ⟨91, _⟩ => ⟨S131072x13, .f32⟩
  | .hbm, ⟨92, _⟩ => ⟨S131072x13, .f32⟩
  | .hbm, ⟨93, _⟩ => ⟨S131072x13, .f32⟩
  | .hbm, ⟨94, _⟩ => ⟨S131072x4, .f32⟩
  | .hbm, ⟨95, _⟩ => ⟨S131072x4, .f32⟩
  | .hbm, ⟨96, _⟩ => ⟨S_, .f32⟩
  | .hbm, ⟨97, _⟩ => ⟨S131072, .f32⟩
  | .hbm, ⟨98, _⟩ => ⟨S131072x1, .f32⟩
  | .hbm, ⟨99, _⟩ => ⟨S131072x1, .f32⟩
  | .hbm, ⟨100, _⟩ => ⟨S_, .f32⟩
  | .hbm, ⟨101, _⟩ => ⟨S131072x1, .f32⟩
  | .hbm, ⟨102, _⟩ => ⟨S131072x1, .f32⟩
  | .hbm, ⟨103, _⟩ => ⟨S131072x4, .f32⟩
  | .hbm, ⟨104, _⟩ => ⟨S131072x4, .f32⟩
  | .hbm, ⟨105, _⟩ => ⟨S_, .i32⟩
  | .hbm, ⟨106, _⟩ => ⟨S1, .i32⟩
  | .hbm, ⟨107, _⟩ => ⟨S131072x13, .f32⟩
  | _, _ => ⟨S131072x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call1_cst : Ref sig .tc := ⟨.hbm, 50, rfl⟩
abbrev main_call1_v0 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call2_cst : Ref sig .tc := ⟨.hbm, 57, rfl⟩
abbrev main_call2_v0 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call3_cst : Ref sig .tc := ⟨.hbm, 83, rfl⟩
abbrev main_call3_v0 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call4_v0 : Ref sig .tc := ⟨.hbm, 95, rfl⟩
abbrev main_call4_cst : Ref sig .tc := ⟨.hbm, 96, rfl⟩
abbrev main_call4_v1 : Ref sig .tc := ⟨.hbm, 97, rfl⟩
abbrev main_call4_v2 : Ref sig .tc := ⟨.hbm, 98, rfl⟩
abbrev main_v64 : Ref sig .tc := ⟨.hbm, 99, rfl⟩
abbrev main_cst_0 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c : Ref sig .tc := ⟨.hbm, 105, rfl⟩
abbrev main_v69 : Ref sig .tc := ⟨.hbm, 106, rfl⟩
abbrev main_v70 : Ref sig .tc := ⟨.hbm, 107, rfl⟩

abbrev nD : Nat := 1
abbrev τ : Topo := Topo.v7x

variable {F : FTy → Type} [FloatOps F]

class Facts₀ : Prop where
  slices_S131072x13_S131072x3_0_0 : S131072x13.Slices ![0, 0] S131072x3
  bcast_S32x3_S1x32x3_1_2 : S32x3.BroadcastsInDim S1x32x3 (![1, 2] : Fin 2 → Fin S1x32x3.rank)
  bcast_S131072x3_S131072x1x3_0_2 : S131072x3.BroadcastsInDim S131072x1x3 (![0, 2] : Fin 2 → Fin S131072x1x3.rank)
  bcast_S1x32x3_S131072x32x3_0_1_2 : S1x32x3.BroadcastsInDim S131072x32x3 (![0, 1, 2] : Fin 3 → Fin S131072x32x3.rank)
  bcast_S131072x1x3_S131072x32x3_0_1_2 : S131072x1x3.BroadcastsInDim S131072x32x3 (![0, 1, 2] : Fin 3 → Fin S131072x32x3.rank)
  reducesTo_S131072x32x3_S131072x32_d2 : S131072x32x3.ReducesTo [2] S131072x32
  h_S_ : 0 < S_.numel
  bcast_S131072x32_S131072x32x1_0_1 : S131072x32.BroadcastsInDim S131072x32x1 (![0, 1] : Fin 2 → Fin S131072x32x1.rank)
  bcast_S_S131072x32x1 : S_.BroadcastsInDim S131072x32x1 (![] : Fin 0 → Fin S131072x32x1.rank)
  bcast_S131072x13_S131072x1x13_0_2 : S131072x13.BroadcastsInDim S131072x1x13 (![0, 2] : Fin 2 → Fin S131072x1x13.rank)
  bcast_S131072x1x13_S131072x32x13_0_1_2 : S131072x1x13.BroadcastsInDim S131072x32x13 (![0, 1, 2] : Fin 3 → Fin S131072x32x13.rank)
  bcast_S131072x32x1_S131072x32x13_0_1_2 : S131072x32x1.BroadcastsInDim S131072x32x13 (![0, 1, 2] : Fin 3 → Fin S131072x32x13.rank)
  bcast_S131072x4_S131072x1x4_0_2 : S131072x4.BroadcastsInDim S131072x1x4 (![0, 2] : Fin 2 → Fin S131072x1x4.rank)
  bcast_S131072x1x4_S131072x32x4_0_1_2 : S131072x1x4.BroadcastsInDim S131072x32x4 (![0, 1, 2] : Fin 3 → Fin S131072x32x4.rank)
  bcast_S131072x32x1_S131072x32x4_0_1_2 : S131072x32x1.BroadcastsInDim S131072x32x4 (![0, 1, 2] : Fin 3 → Fin S131072x32x4.rank)
  concatenates_S131072x32x13_S131072x32x4_S131072x32x17_d2 : Shape.Concatenates [S131072x32x13, S131072x32x4] S131072x32x17 2
  shapeCasts_S131072x32x17_S131072x544 : S131072x32x17.ShapeCasts S131072x544
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  bcast_S_S131072x1024 : S_.BroadcastsInDim S131072x1024 (![] : Fin 0 → Fin S131072x1024.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S13_S1x13_1 : S13.BroadcastsInDim S1x13 (![1] : Fin 1 → Fin S1x13.rank)
  bcast_S1x13_S131072x13_0_1 : S1x13.BroadcastsInDim S131072x13 (![0, 1] : Fin 2 → Fin S131072x13.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S_S131072x13 : S_.BroadcastsInDim S131072x13 (![] : Fin 0 → Fin S131072x13.rank)
  slices_S131072x13_S131072x4_0_3 : S131072x13.Slices ![0, 3] S131072x4
  reducesTo_S131072x4_S131072_d1 : S131072x4.ReducesTo [1] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x4_0_1 : S131072x1.BroadcastsInDim S131072x4 (![0, 1] : Fin 2 → Fin S131072x4.rank)
  bcast_S_S1 : S_.BroadcastsInDim S1 (![] : Fin 0 → Fin S1.rank)
  dot_S131072x544_S544x1024_S131072x1024_1_0_0_1_n_n_wf : DotDims.WF S131072x544 S544x1024 S131072x1024 [1] [0] [0] [1] [] []
  dot_S131072x1024_S1024x512_S131072x512_1_0_0_1_n_n_wf : DotDims.WF S131072x1024 S1024x512 S131072x512 [1] [0] [0] [1] [] []
  dot_S131072x512_S512x256_S131072x256_1_0_0_1_n_n_wf : DotDims.WF S131072x512 S512x256 S131072x256 [1] [0] [0] [1] [] []
  dot_S131072x3_S3x256_S131072x256_1_0_0_1_n_n_wf : DotDims.WF S131072x3 S3x256 S131072x256 [1] [0] [0] [1] [] []
  dot_S131072x256_S256x256_S131072x256_1_0_0_1_n_n_wf : DotDims.WF S131072x256 S256x256 S131072x256 [1] [0] [0] [1] [] []
  dot_S131072x256_S256x13_S131072x13_1_0_0_1_n_n_wf : DotDims.WF S131072x256 S256x13 S131072x13 [1] [0] [0] [1] [] []
  dot_S131072x3_S3x128_S131072x128_1_0_0_1_n_n_wf : DotDims.WF S131072x3 S3x128 S131072x128 [1] [0] [0] [1] [] []
  dot_S131072x128_S128x13_S131072x13_1_0_0_1_n_n_wf : DotDims.WF S131072x128 S128x13 S131072x13 [1] [0] [0] [1] [] []
  scatter_S131072x13_S1_S131072x4_01_n_1_0_wf : ScatterDims.WF S131072x13 S1 S131072x4 [0, 1] [] [1] 0

variable [Facts₀]

def dot_S131072x544_S544x1024_S131072x1024_1_0_0_1_n_n : DotDims S131072x544 S544x1024 S131072x1024 where
  lhsContracting := [1]
  rhsContracting := [0]
  lhsNonContracting := [0]
  rhsNonContracting := [1]
  lhsBatch := []
  rhsBatch := []
  wf := dot_S131072x544_S544x1024_S131072x1024_1_0_0_1_n_n_wf
def dot_S131072x1024_S1024x512_S131072x512_1_0_0_1_n_n : DotDims S131072x1024 S1024x512 S131072x512 where
  lhsContracting := [1]
  rhsContracting := [0]
  lhsNonContracting := [0]
  rhsNonContracting := [1]
  lhsBatch := []
  rhsBatch := []
  wf := dot_S131072x1024_S1024x512_S131072x512_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def dot_S131072x3_S3x256_S131072x256_1_0_0_1_n_n : DotDims S131072x3 S3x256 S131072x256 where
  lhsContracting := [1]
  rhsContracting := [0]
  lhsNonContracting := [0]
  rhsNonContracting := [1]
  lhsBatch := []
  rhsBatch := []
  wf := dot_S131072x3_S3x256_S131072x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x13_S131072x13_1_0_0_1_n_n : DotDims S131072x256 S256x13 S131072x13 where
  lhsContracting := [1]
  rhsContracting := [0]
  lhsNonContracting := [0]
  rhsNonContracting := [1]
  lhsBatch := []
  rhsBatch := []
  wf := dot_S131072x256_S256x13_S131072x13_1_0_0_1_n_n_wf
def dot_S131072x3_S3x128_S131072x128_1_0_0_1_n_n : DotDims S131072x3 S3x128 S131072x128 where
  lhsContracting := [1]
  rhsContracting := [0]
  lhsNonContracting := [0]
  rhsNonContracting := [1]
  lhsBatch := []
  rhsBatch := []
  wf := dot_S131072x3_S3x128_S131072x128_1_0_0_1_n_n_wf
def dot_S131072x128_S128x13_S131072x13_1_0_0_1_n_n : DotDims S131072x128 S128x13 S131072x13 where
  lhsContracting := [1]
  rhsContracting := [0]
  lhsNonContracting := [0]
  rhsNonContracting := [1]
  lhsBatch := []
  rhsBatch := []
  wf := dot_S131072x128_S128x13_S131072x13_1_0_0_1_n_n_wf
def scatter_S131072x13_S1_S131072x4_01_n_1_0 : ScatterDims S131072x13 S1 S131072x4 where
  updateWindowDims := [0, 1]
  insertedWindowDims := []
  scatterDimsToOperandDims := [1]
  indexVectorDim := 0
  wf := scatter_S131072x13_S1_S131072x4_01_n_1_0_wf

class Facts : Prop extends Facts₀ where

variable [Facts]
-- ==== Proof.LibConcatCols.lean ====
/-
  Arrays with the same R rows joined along the columns, read at an entry on any element type.

  Two arrays [R, a] and [R, b] concatenated on axis 1 give [R, a + b]; three arrays [R, a], [R, b], [R, c] give
  [R, a + b + c]. The entry at (p, i) of the joined array is the entry at row p of the piece whose span of columns holds
  i: the first piece at column i when i < a, the second at column i - a when a ≤ i < a + b, the third at column
  i - a - b otherwise. `join2` and `join3` are that choice for ONE row, as functions of the row's entries in each piece,
  so that a row of the joined array is `join2` (or `join3`) of the pieces' rows. Over any extents R, a, b, c.
-/
import Idealize.ShloMosaic.Lib.ValueIdx
import Idealize.ShloMosaic.Lib.Pipeline.Value

namespace Cert.LibConcatCols

open Idealize.ShloMosaic Idealize.ShloMosaic.ValueIdx

variable {α : Type}

/-- One row of two pieces laid side by side: column `i` comes from the first piece when `i < a`, else from the second at `i - a`. -/
def join2 {a b n : ℕ} (hn : n = a + b) (x : Fin a → α) (y : Fin b → α) (i : Fin n) : α :=
  if h : i.val < a then x ⟨i.val, h⟩ else y ⟨i.val - a, by have := i.isLt; omega⟩

/-- One row of three pieces laid side by side. -/
def join3 {a b c n : ℕ} (hn : n = a + b + c) (x : Fin a → α) (y : Fin b → α) (z : Fin c → α) (i : Fin n) : α :=
  if h : i.val < a then x ⟨i.val, h⟩
  else if h2 : i.val < a + b then y ⟨i.val - a, by omega⟩
  else z ⟨i.val - (a + b), by have := i.isLt; omega⟩

/-- `join2` depends on its two rows only through their entries. -/
theorem join2_congr {a b n : ℕ} (hn : n = a + b) {x x' : Fin a → α} {y y' : Fin b → α} (hx : ∀ c, x c = x' c) (hy : ∀ c, y c = y' c)
    (i : Fin n) : join2 hn x y i = join2 hn x' y' i := by
  have ex : x = x' := funext hx
  have ey : y = y' := funext hy
  rw [ex, ey]

/-- `join3` depends on its three rows only through their entries. -/
theorem join3_congr {a b c n : ℕ} (hn : n = a + b + c) {x x' : Fin a → α} {y y' : Fin b → α} {z z' : Fin c → α}
    (hx : ∀ k, x k = x' k) (hy : ∀ k, y k = y' k) (hz : ∀ k, z k = z' k) (i : Fin n) : join3 hn x y z i = join3 hn x' y' z' i := by
  have ex : x = x' := funext hx
  have ey : y = y' := funext hy
  have ez : z = z' := funext hz
  rw [ex, ey, ez]

/-- Two arrays of R rows joined along the columns, at entry (p, i): `join2` of the two pieces' rows p. -/
theorem concat2_apply {R a b n : ℕ} (hn : n = a + b) (x : (⟨2, ![R, a]⟩ : Shape).Idx → α) (y : (⟨2, ![R, b]⟩ : Shape).Idx → α)
    (h : Shape.Concatenates [(⟨2, ![R, a]⟩ : Shape), (⟨2, ![R, b]⟩ : Shape)] (⟨2, ![R, n]⟩ : Shape) 1) (p : Fin R) (i : Fin n) :
    concatenate (⟨2, ![R, n]⟩ : Shape) 1 [⟨(⟨2, ![R, a]⟩ : Shape), x⟩, ⟨(⟨2, ![R, b]⟩ : Shape), y⟩] h (ix2 p i)
      = join2 hn (fun c => x (ix2 p c)) (fun c => y (ix2 p c)) i := by
  unfold join2
  split
  next hlt =>
    refine concatenate_apply_piece 1 [⟨(⟨2, ![R, a]⟩ : Shape), x⟩, ⟨(⟨2, ![R, b]⟩ : Shape), y⟩] h (ix2 p i) 0 (by simp) _ x rfl rfl 0 rfl (ix2 p ⟨i.val, hlt⟩) (fun ax hax => ?_) ?_
    · match ax with
      | ⟨0, _⟩ => rfl
      | ⟨1, _⟩ => exact absurd rfl hax
    · show 0 + i.val = i.val
      omega
  next hge =>
    have hi := i.isLt
    refine concatenate_apply_piece 1 [⟨(⟨2, ![R, a]⟩ : Shape), x⟩, ⟨(⟨2, ![R, b]⟩ : Shape), y⟩] h (ix2 p i) 1 (by simp) _ y rfl rfl a ?_ (ix2 p ⟨i.val - a, by omega⟩) (fun ax hax => ?_) ?_
    · show (if h' : (2 : ℕ) = 2 then a else 0) + 0 = a
      rw [dif_pos rfl, Nat.add_zero]
    · match ax with
      | ⟨0, _⟩ => rfl
      | ⟨1, _⟩ => exact absurd rfl hax
    · show a + (i.val - a) = i.val
      omega

/-- Three arrays of R rows joined along the columns, at entry (p, i): `join3` of the three pieces' rows p. -/
theorem concat3_apply {R a b c n : ℕ} (hn : n = a + b + c) (x : (⟨2, ![R, a]⟩ : Shape).Idx → α) (y : (⟨2, ![R, b]⟩ : Shape).Idx → α)
    (z : (⟨2, ![R, c]⟩ : Shape).Idx → α)
    (h : Shape.Concatenates [(⟨2, ![R, a]⟩ : Shape), (⟨2, ![R, b]⟩ : Shape), (⟨2, ![R, c]⟩ : Shape)] (⟨2, ![R, n]⟩ : Shape) 1) (p : Fin R) (i : Fin n) :
    concatenate (⟨2, ![R, n]⟩ : Shape) 1 [⟨(⟨2, ![R, a]⟩ : Shape), x⟩, ⟨(⟨2, ![R, b]⟩ : Shape), y⟩, ⟨(⟨2, ![R, c]⟩ : Shape), z⟩] h (ix2 p i)
      = join3 hn (fun k => x (ix2 p k)) (fun k => y (ix2 p k)) (fun k => z (ix2 p k)) i := by
  unfold join3
  have hi := i.isLt
  split
  next hlt =>
    refine concatenate_apply_piece 1 [⟨(⟨2, ![R, a]⟩ : Shape), x⟩, ⟨(⟨2, ![R, b]⟩ : Shape), y⟩, ⟨(⟨2, ![R, c]⟩ : Shape), z⟩] h (ix2 p i) 0 (by simp) _ x rfl rfl 0 rfl (ix2 p ⟨i.val, hlt⟩) (fun ax hax => ?_) ?_
    · match ax with
      | ⟨0, _⟩ => rfl
      | ⟨1, _⟩ => exact absurd rfl hax
    · show 0 + i.val = i.val
      omega
  next hge =>
    split
    next hlt2 =>
      refine concatenate_apply_piece 1 [⟨(⟨2, ![R, a]⟩ : Shape), x⟩, ⟨(⟨2, ![R, b]⟩ : Shape), y⟩, ⟨(⟨2, ![R, c]⟩ : Shape), z⟩] h (ix2 p i) 1 (by simp) _ y rfl rfl a ?_ (ix2 p ⟨i.val - a, by omega⟩) (fun ax hax => ?_) ?_
      · show (if h' : (2 : ℕ) = 2 then a else 0) + 0 = a
        rw [dif_pos rfl, Nat.add_zero]
      · match ax with
        | ⟨0, _⟩ => rfl
        | ⟨1, _⟩ => exact absurd rfl hax
      · show a + (i.val - a) = i.val
        omega
    next hge2 =>
      refine concatenate_apply_piece 1 [⟨(⟨2, ![R, a]⟩ : Shape), x⟩, ⟨(⟨2, ![R, b]⟩ : Shape), y⟩, ⟨(⟨2, ![R, c]⟩ : Shape), z⟩] h (ix2 p i) 2 (by simp) _ z rfl rfl (a + b) ?_ (ix2 p ⟨i.val - (a + b), by omega⟩) (fun ax hax => ?_) ?_
      · show (if h' : (2 : ℕ) = 2 then a else 0) + ((if h' : (2 : ℕ) = 2 then b else 0) + 0) = a + b
        rw [dif_pos rfl, dif_pos rfl, Nat.add_zero]
      · match ax with
        | ⟨0, _⟩ => rfl
        | ⟨1, _⟩ => exact absurd rfl hax
      · show a + b + (i.val - (a + b)) = i.val
        omega

end Cert.LibConcatCols
-- ==== Proof.RowSpec.lean ====
/-
  One batch row of the operator network, as functions on the extended reals.

  A row carries a state vector (13 entries: a position, a quaternion, six more) and an action vector (4 entries).
  Each of the 32 sensors weighs the row by `exp (-d / (1/2))`, `d` the distance from the row's position to the sensor.
  The encoding lays the 32 weighted copies of (state, action) side by side, 17 entries per sensor; three dense layers
  (the first two rectified) give the branch features, two `tanh` layers on the position the trunk features, their
  product goes through a last dense layer, a rectified two-layer net on the position adds a bias, and the state moves
  by the residual weight times the sum. Last, the quaternion entries 3..6 are divided by their norm plus a small
  constant. Everything is stated entry by entry; the float constants stay the bit patterns the programs spell.

  The one piece of algebra: for REAL position and sensor coordinates, the squared distance written as
  |p|^2 - 2 p.s + |s|^2 and clamped at zero is the sum of the squared coordinate differences.
-/
import Idealize.ShloMosaic.PureOps.Ideal
import Idealize.ShloMosaic.Lib.ValueIdx
import proofs.«178626_j68238440398979_1_alg».proof.Proof.LibConcatCols

noncomputable section

namespace Cert.RowSpec

open Idealize.ShloMosaic Idealize.ShloMosaic.ValueIdx Cert.LibConcatCols

/-- The float zero, two, one half and the quaternion's small constant, as the programs spell them. -/
abbrev Z : EReal := Ideal.ofBits .f32 0x00000000#32
abbrev two : EReal := Ideal.ofBits .f32 0x40000000#32
abbrev half : EReal := Ideal.ofBits .f32 0x3F000000#32
abbrev eps : EReal := Ideal.ofBits .f32 0x322BCC77#32

theorem Z_eq : Z = 0 := by
  simp [Z, Ideal.ofBits, Ideal.ieee]

theorem two_eq : two = ((2 : ℝ) : EReal) := by
  simp [two, Ideal.ofBits, Ideal.ieee, -EReal.coe_mul]; norm_num

/-- A dense layer on one row: entry `k` is the row against column `k` of the weights, plus the bias at `k`. -/
def dense {n h : ℕ} (x : Fin n → EReal) (W : Fin n → Fin h → EReal) (b : Fin h → EReal) (k : Fin h) : EReal :=
  (∑ i : Fin n, x i * W i k) + b k

/-- The first three entries of a state row: the position. -/
def pos (st : Fin 13 → EReal) (k : Fin 3) : EReal := st ⟨k.val, by omega⟩

/-- The squared distance to sensor `s` as the sum of squared coordinate differences, from zero. -/
def dist2Diff (p : Fin 3 → EReal) (sens : Fin 32 → Fin 3 → EReal) (s : Fin 32) : EReal :=
  Z + ∑ k : Fin 3, (sens s k - p k) * (sens s k - p k)

/-- The squared distance to sensor `s` expanded, |p|^2 - 2 p.s + |s|^2, clamped at zero. -/
def dist2Expand (p : Fin 3 → EReal) (sens : Fin 32 → Fin 3 → EReal) (s : Fin 32) : EReal :=
  max ((∑ k : Fin 3, p k * p k) - two * (∑ k : Fin 3, p k * sens s k) + ∑ k : Fin 3, sens s k * sens s k) Z

/-- The weight of a squared distance: `exp (-(sqrt d2) / (1/2))`. -/
def wgtOf (d2 : EReal) : EReal := Ideal.exp (Ideal.div (-(Ideal.sqrt d2)) half)

/-- For real coordinates the two spellings of the squared distance agree. -/
theorem dist2Expand_eq_diff (p : Fin 3 → EReal) (sens : Fin 32 → Fin 3 → EReal) (s : Fin 32)
    (hp : ∀ k, ∃ r : ℝ, p k = (r : EReal)) (hs : ∀ k, ∃ r : ℝ, sens s k = (r : EReal)) :
    dist2Expand p sens s = dist2Diff p sens s := by
  choose a ha using hp
  choose b hb using hs
  unfold dist2Expand dist2Diff
  rw [Fin.sum_univ_three, Fin.sum_univ_three, Fin.sum_univ_three, Fin.sum_univ_three, Z_eq, two_eq]
  simp only [ha, hb]
  have e : ∀ x y : ℝ, ((x : EReal) - (y : EReal)) = ((x - y : ℝ) : EReal) := fun x y => (EReal.coe_sub x y).symm
  simp only [e, ← EReal.coe_mul, ← EReal.coe_add, zero_add]
  have h : a 0 * a 0 + a 1 * a 1 + a 2 * a 2 - 2 * (a 0 * b 0 + a 1 * b 1 + a 2 * b 2) + (b 0 * b 0 + b 1 * b 1 + b 2 * b 2)
      = (b 0 - a 0) * (b 0 - a 0) + (b 1 - a 1) * (b 1 - a 1) + (b 2 - a 2) * (b 2 - a 2) := by ring
  rw [h]
  exact max_eq_left (EReal.coe_le_coe_iff.mpr
    (add_nonneg (add_nonneg (mul_self_nonneg _) (mul_self_nonneg _)) (mul_self_nonneg _)))

/-- The encoding of a row: entry `k` belongs to sensor `k / 17`, and within a sensor the 13 state entries come first,
    then the 4 action entries, each times the sensor's weight. -/
def enc (st : Fin 13 → EReal) (ac : Fin 4 → EReal) (w : Fin 32 → EReal) (k : Fin 544) : EReal :=
  join2 (a := 13) (b := 4) (n := 17) rfl
    (fun c => st c * w ⟨k.val / 17, by have := k.isLt; omega⟩) (fun c => ac c * w ⟨k.val / 17, by have := k.isLt; omega⟩)
    ⟨k.val % 17, Nat.mod_lt _ (by decide)⟩

/-- The weights and biases of the network's layers, entry by entry. -/
structure Net where
  bw1 : Fin 544 → Fin 1024 → EReal
  bb1 : Fin 1024 → EReal
  bw2 : Fin 1024 → Fin 512 → EReal
  bb2 : Fin 512 → EReal
  bw3 : Fin 512 → Fin 256 → EReal
  bb3 : Fin 256 → EReal
  tw1 : Fin 3 → Fin 256 → EReal
  tb1 : Fin 256 → EReal
  tw2 : Fin 256 → Fin 256 → EReal
  tb2 : Fin 256 → EReal
  qw1 : Fin 3 → Fin 128 → EReal
  qb1 : Fin 128 → EReal
  qw2 : Fin 128 → Fin 13 → EReal
  qb2 : Fin 13 → EReal
  pw : Fin 256 → Fin 13 → EReal
  pb : Fin 13 → EReal
  rw : EReal

/-- The branch features of an encoded row: two rectified dense layers and a third dense layer. -/
def branch (N : Net) (e : Fin 544 → EReal) : Fin 256 → EReal :=
  dense (fun n => max (dense (fun n => max (dense e N.bw1 N.bb1 n) Z) N.bw2 N.bb2 n) Z) N.bw3 N.bb3

/-- The trunk features of a position: two `tanh` dense layers. -/
def trunk (N : Net) (p : Fin 3 → EReal) : Fin 256 → EReal :=
  fun n => Ideal.tanh (dense (fun n => Ideal.tanh (dense p N.tw1 N.tb1 n)) N.tw2 N.tb2 n)

/-- The bias net of a position: a rectified dense layer and a dense layer. -/
def biasNet (N : Net) (p : Fin 3 → EReal) : Fin 13 → EReal :=
  dense (fun n => max (dense p N.qw1 N.qb1 n) Z) N.qw2 N.qb2

/-- The moved state: the state plus the residual weight times (projected interaction + bias net). -/
def moved (N : Net) (st : Fin 13 → EReal) (e : Fin 544 → EReal) (j : Fin 13) : EReal :=
  st j + N.rw * (dense (fun n => branch N e n * trunk N (pos st) n) N.pw N.pb j + biasNet N (pos st) j)

/-- The quaternion entries 3..6 of a 13-row. -/
def quat (ns : Fin 13 → EReal) (q : Fin 4) : EReal := ns ⟨3 + q.val, by omega⟩

/-- The norm of the quaternion plus the small constant, the sum of squares starting from `z`. -/
def qden (z : EReal) (ns : Fin 13 → EReal) : EReal := Ideal.sqrt (z + ∑ q : Fin 4, quat ns q * quat ns q) + eps

/-- The output row: entries 0..2 and 7..12 kept, entries 3..6 divided by the quaternion's norm plus the constant. -/
def normalized (z : EReal) (ns : Fin 13 → EReal) : Fin 13 → EReal :=
  join3 (a := 3) (b := 4) (c := 6) (n := 13) rfl (fun k => ns ⟨k.val, by omega⟩) (fun q => Ideal.div (quat ns q) (qden z ns))
    (fun k => ns ⟨7 + k.val, by omega⟩)

/-- The network's weights read off the argument arrays: matrices at `(k, n)`, bias vectors at `n`, the residual
    weight the one entry of a rank-0 array. -/
def netOf (x3 : (⟨2, ![544, 1024]⟩ : Shape).Idx → EReal) (x4 : (⟨1, ![1024]⟩ : Shape).Idx → EReal)
    (x5 : (⟨2, ![1024, 512]⟩ : Shape).Idx → EReal) (x6 : (⟨1, ![512]⟩ : Shape).Idx → EReal)
    (x7 : (⟨2, ![512, 256]⟩ : Shape).Idx → EReal) (x8 : (⟨1, ![256]⟩ : Shape).Idx → EReal)
    (x9 : (⟨2, ![3, 256]⟩ : Shape).Idx → EReal) (x10 : (⟨1, ![256]⟩ : Shape).Idx → EReal)
    (x11 : (⟨2, ![256, 256]⟩ : Shape).Idx → EReal) (x12 : (⟨1, ![256]⟩ : Shape).Idx → EReal)
    (x13 : (⟨2, ![3, 128]⟩ : Shape).Idx → EReal) (x14 : (⟨1, ![128]⟩ : Shape).Idx → EReal)
    (x15 : (⟨2, ![128, 13]⟩ : Shape).Idx → EReal) (x16 : (⟨1, ![13]⟩ : Shape).Idx → EReal)
    (x17 : (⟨2, ![256, 13]⟩ : Shape).Idx → EReal) (x18 : (⟨1, ![13]⟩ : Shape).Idx → EReal)
    (x19 : (⟨0, ![]⟩ : Shape).Idx → EReal) : Net where
  bw1 k n := x3 (ix2 k n)
  bb1 n := x4 (ix1 n)
  bw2 k n := x5 (ix2 k n)
  bb2 n := x6 (ix1 n)
  bw3 k n := x7 (ix2 k n)
  bb3 n := x8 (ix1 n)
  tw1 k n := x9 (ix2 k n)
  tb1 n := x10 (ix1 n)
  tw2 k n := x11 (ix2 k n)
  tb2 n := x12 (ix1 n)
  qw1 k n := x13 (ix2 k n)
  qb1 n := x14 (ix1 n)
  qw2 k n := x15 (ix2 k n)
  qb2 n := x16 (ix1 n)
  pw k n := x17 (ix2 k n)
  pb n := x18 (ix1 n)
  rw := x19 ix0

/-- Row `b` of the state array, of the action array, and the sensor table entry by entry. -/
def stRow (x0 : (⟨2, ![131072, 13]⟩ : Shape).Idx → EReal) (b : Fin 131072) (j : Fin 13) : EReal := x0 (ix2 b j)
def acRow (x1 : (⟨2, ![131072, 4]⟩ : Shape).Idx → EReal) (b : Fin 131072) (j : Fin 4) : EReal := x1 (ix2 b j)
def sensOf (x2 : (⟨2, ![32, 3]⟩ : Shape).Idx → EReal) (s : Fin 32) (k : Fin 3) : EReal := x2 (ix2 s k)

/-- The whole result array, row by row, with the sensor weights from the squared distance `d2` of a position to a sensor. -/
def resultArray (d2 : (Fin 3 → EReal) → (Fin 32 → Fin 3 → EReal) → Fin 32 → EReal) (z : EReal)
    (x0 : (⟨2, ![131072, 13]⟩ : Shape).Idx → EReal) (x1 : (⟨2, ![131072, 4]⟩ : Shape).Idx → EReal)
    (x2 : (⟨2, ![32, 3]⟩ : Shape).Idx → EReal) (N : Net) : (⟨2, ![131072, 13]⟩ : Shape).Idx → EReal :=
  fun i => normalized z (moved N (stRow x0 (i 0)) (enc (stRow x0 (i 0)) (acRow x1 (i 0))
    (fun s => wgtOf (d2 (pos (stRow x0 (i 0))) (sensOf x2) s)))) (i 1)

end Cert.RowSpec

end
-- ==== Proof.RowResult.lean ====
/-
  The row map of the specification with all its inputs named, and the fact that it depends on them only up to equality.
-/
import proofs.«178626_j68238440398979_1_alg».proof.Proof.RowSpec

noncomputable section

namespace Cert.RowSpec

open Idealize.ShloMosaic Idealize.ShloMosaic.ValueIdx

/-- One output row: from the network, a state row, an action row and the sensor table, with the sensor weights taken from
    the squared distance `d2` and the quaternion's sum of squares started at `z`. -/
def rowResult (d2 : (Fin 3 → EReal) → (Fin 32 → Fin 3 → EReal) → Fin 32 → EReal) (z : EReal) (N : Net)
    (st : Fin 13 → EReal) (ac : Fin 4 → EReal) (sens : Fin 32 → Fin 3 → EReal) : Fin 13 → EReal :=
  normalized z (moved N st (enc st ac (fun s => wgtOf (d2 (pos st) sens s))))

/-- The result array at an index is the row map of that row. -/
theorem resultArray_apply (d2 : (Fin 3 → EReal) → (Fin 32 → Fin 3 → EReal) → Fin 32 → EReal) (z : EReal)
    (x0 : (⟨2, ![131072, 13]⟩ : Shape).Idx → EReal) (x1 : (⟨2, ![131072, 4]⟩ : Shape).Idx → EReal)
    (x2 : (⟨2, ![32, 3]⟩ : Shape).Idx → EReal) (N : Net) (i : (⟨2, ![131072, 13]⟩ : Shape).Idx) :
    resultArray d2 z x0 x1 x2 N i = rowResult d2 z N (stRow x0 (i 0)) (acRow x1 (i 0)) (sensOf x2) (i 1) := rfl

/-- The row map at equal inputs. -/
theorem rowResult_congr (d2 : (Fin 3 → EReal) → (Fin 32 → Fin 3 → EReal) → Fin 32 → EReal) (z : EReal) {N N' : Net}
    {st st' : Fin 13 → EReal} {ac ac' : Fin 4 → EReal} {sens sens' : Fin 32 → Fin 3 → EReal}
    (hN : N = N') (hst : st = st') (hac : ac = ac') (hs : sens = sens') (q : Fin 13) :
    rowResult d2 z N st ac sens q = rowResult d2 z N' st' ac' sens' q := by
  rw [hN, hst, hac, hs]

/-- With real position and sensor coordinates the two spellings of the squared distance give the same row. -/
theorem rowResult_expand_eq_diff (z : EReal) (N : Net) (st : Fin 13 → EReal) (ac : Fin 4 → EReal) (sens : Fin 32 → Fin 3 → EReal)
    (hst : ∀ j, ∃ r : ℝ, st j = (r : EReal)) (hs : ∀ s k, ∃ r : ℝ, sens s k = (r : EReal)) :
    rowResult dist2Expand z N st ac sens = rowResult dist2Diff z N st ac sens := by
  unfold rowResult
  have h : (fun s => wgtOf (dist2Expand (pos st) sens s)) = fun s => wgtOf (dist2Diff (pos st) sens s) :=
    funext fun s => by rw [dist2Expand_eq_diff (pos st) sens s (fun k => hst _) (hs s)]
  rw [h]

end Cert.RowSpec

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«178626_j68238440398979_1_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.LibKeepdims.lean ====
/-
  Row reductions that keep the reduced axis as a unit axis, read at an entry on the extended reals.

  A kernel that takes `sum(x, axis=-1, keepdims=True)` of an [a, b] block does three layout steps around the
  arithmetic: the lane sum into [a], a cast of [a] to the column shape [a, 1], and later a broadcast of an [a, 1]
  column back over the b lanes. Read at an entry written by its coordinates:
    * the cast [a] → [a, 1] at (i, u) is the vector at i;
    * the broadcast [a, 1] → [a, b] at (p, c) is the column at (p, 0);
    * the lane sum of an [a, b] array at i is the sum over k of the array at (i, k);
    * a [1, b] row cast to its own shape and broadcast over a rows reads, at (p, c), the row at (0, c).
  Over any extents a, b.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type} {a b : ℕ}

/-- An `[a]` vector cast to the column shape `[a, 1]` reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast over `b` lanes reads, at `(p, c)`, the column at `(p, 0)`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, at row `i`, is the sum over `k` of the array at `(i, k)`. -/
theorem laneSum_apply (src : FVec Ideal (⟨2, ![a, b]⟩ : Shape) .f32)
    (h : (⟨2, ![a, b]⟩ : Shape).Reduces [1] ⟨1, ![a]⟩) (hφ : FKind.Formats .f32)
    (hacc : (0x00000000#32 : BitVec (FTy.bits .f32)) = (0x00000000#32 : BitVec (FTy.bits .f32))) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax; apply Fin.ext
  match ax with
  | ⟨0, _⟩ => rfl
  | ⟨1, _⟩ => rfl

/-- The lane sum kept as a column: the `[a]` sums cast to `[a, 1]` read, at `(i, u)`, the sum over `k` of the array at `(i, k)`. -/
theorem keepdimsSum_apply (src : FVec Ideal (⟨2, ![a, b]⟩ : Shape) .f32)
    (h : (⟨2, ![a, b]⟩ : Shape).Reduces [1] ⟨1, ![a]⟩) (hφ : FKind.Formats .f32)
    (hacc : (0x00000000#32 : BitVec (FTy.bits .f32)) = (0x00000000#32 : BitVec (FTy.bits .f32))) (hc : (⟨1, ![a]⟩ : Shape).ShapeCasts ⟨2, ![a, 1]⟩)
    (i : Fin a) (u : Fin 1) :
    shapeCast ⟨2, ![a, 1]⟩ (multiReduction .add [1] ⟨1, ![a]⟩ src 0x00000000#32 h hφ hacc) hc (ix2 i u)
      = ∑ k : Fin b, src (ix2 i k) :=
  (shapeCast_a_a1_apply _ hc i u).trans (laneSum_apply src h hφ hacc i)

/-- A `[1, b]` row, cast to its own shape and broadcast over `a` rows, reads at `(p, c)` the row at `(0, c)`. -/
theorem rowBroadcast_apply (v : (⟨2, ![1, b]⟩ : Shape).Idx → α) (hc : (⟨2, ![1, b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ v hc) h (ix2 p c) = v (ix2 (0 : Fin 1) c) := by
  rw [shapeCast_self]
  exact broadcastTo_1b_ab_apply v h p c

end Cert.LibKeepdims
-- ==== Proof.KerWeights.lean ====
/-
  The sensor weights of one block of 1024 rows, read at an entry.

  The kernel takes the position columns 0..2 of the state block, forms |p|^2 as a lane sum kept as a column,
  p.s as a matrix product of the position block with the transposed sensor table, |s|^2 as a sum down the
  transposed table's columns kept as a row, and weighs (row p, sensor s) by
  exp ((0 - sqrt (max (|p|^2 - 2 p.s + |s|^2) 0)) / (1/2)).
-/
import proofs.«178626_j68238440398979_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«178626_j68238440398979_1_alg».proof.Proof.LibMatmul2D
import proofs.«178626_j68238440398979_1_alg».proof.Proof.LibKeepdims
import proofs.«178626_j68238440398979_1_alg».proof.Proof.LibConcatCols
import proofs.«178626_j68238440398979_1_alg».proof.Proof.RowSpec

noncomputable section

namespace Cert.KerWeights

open Idealize.ShloMosaic Idealize.ShloMosaic.ValueIdx Cert.KernelIdeal Cert.KernelIdeal.Gen Cert.RowSpec

/-- The position block: column `k` of the state block's row `p`. -/
theorem pos_apply (v0 : Vec Ideal S1024x13 .f32) (p : Fin 1024) (k : Fin 3) :
    k0_pay2 (F := Ideal) v0 (ix2 p k) = v0 (ix2 p ⟨k.val, by omega⟩) := by
  unfold k0_pay2
  exact slice2_axis1_apply 0 v0 slices_S1024x13_o0_0_S1024x3 p k ⟨k.val, by omega⟩ (Nat.zero_add _).symm

/-- A sum down the columns of a `[3, 32]` array: at `s` the sum over the three rows. -/
theorem colSum_apply (src : FVec Ideal S3x32 .f32) (s : Fin 32) :
    multiReduction .add [0] S32 src 0x00000000#32 reduces_S3x32_S32 (.inl rfl) rfl (ix1 s) = ∑ k : Fin 3, src (ix2 k s) := by
  refine (Ideal.multiReduction_add_single src 0x00000000#32 reduces_S3x32_S32 (.inl rfl) rfl (ix1 s)).trans ?_
  refine Finset.sum_congr rfl fun k _ => congrArg src ?_
  funext ax; apply Fin.ext
  match ax with
  | ⟨0, _⟩ => rfl
  | ⟨1, _⟩ => rfl

/-- The weight of (row `p`, sensor `s`) of a block. -/
theorem wgt_apply (v0 : Vec Ideal S1024x13 .f32) (v2 : Vec Ideal S32x3 .f32) (p : Fin 1024) (s : Fin 32) :
    k0_pay4 (F := Ideal) v0 v2 (ix2 p s)
      = Ideal.exp (Ideal.div (Z - Ideal.sqrt (dist2Expand (fun k => v0 (ix2 p ⟨k.val, by omega⟩)) (fun s k => v2 (ix2 s k)) s)) half) := by
  have hA : broadcastTo S1024x32 (shapeCast S1024x1 (multiReduction .add [1] S1024 (mulf (k0_pay2 v0) (k0_pay2 v0)) 0x00000000#32
        reduces_S1024x3_S1024 (.inl rfl) rfl) shapeCasts_S1024_S1024x1) broadcasts_S1024x1_S1024x32 (ix2 p s)
      = ∑ k : Fin 3, v0 (ix2 p ⟨k.val, by omega⟩) * v0 (ix2 p ⟨k.val, by omega⟩) := by
    rw [LibKeepdims.broadcastTo_a1_ab_apply, LibKeepdims.keepdimsSum_apply]
    exact Finset.sum_congr rfl fun k _ => by rw [mulf_apply, pos_apply]
  have hB : matmul dot_S1024x3_S3x32_S1024x32_1_0_0_1_n_n none (k0_pay3 v0)
        (transpose S3x32 [1, 0] (truncf .bf16 v2 bitsLt_bf16_f32) transposes_S32x3_p1_0_S3x32) (constant S1024x32 .f32 0x00000000#32) (ix2 p s)
      = ∑ k : Fin 3, v0 (ix2 p ⟨k.val, by omega⟩) * v2 (ix2 s k) := by
    refine (LibMatmul2D.rows_cols dot_S1024x3_S3x32_S1024x32_1_0_0_1_n_n.wf none (k0_pay3 v0)
      (transpose S3x32 [1, 0] (truncf .bf16 v2 bitsLt_bf16_f32) transposes_S32x3_p1_0_S3x32) p s).trans ?_
    refine Finset.sum_congr rfl fun k _ => ?_
    rw [transpose_ix2_apply]
    show k0_pay2 v0 (ix2 p k) * v2 (ix2 s k) = _
    rw [pos_apply]
  have hC : broadcastTo S1024x32 (shapeCast S1x32 (multiReduction (F := Ideal) .add [0] S32
        (mulf (transpose S3x32 [1, 0] v2 transposes_S32x3_p1_0_S3x32) (transpose S3x32 [1, 0] v2 transposes_S32x3_p1_0_S3x32))
        0x00000000#32 reduces_S3x32_S32 (.inl rfl) rfl) shapeCasts_S32_S1x32) broadcasts_S1x32_S1024x32 (ix2 p s)
      = ∑ k : Fin 3, v2 (ix2 s k) * v2 (ix2 s k) := by
    rw [broadcastTo_1b_ab_apply, shapeCast_a_1a_apply, colSum_apply]
    exact Finset.sum_congr rfl fun k _ => by rw [mulf_apply, transpose_ix2_apply]
  unfold k0_pay4 dist2Expand
  show Ideal.exp (Ideal.div (Z - Ideal.sqrt (max (_ - two * _ + _) Z)) half) = _
  rw [hA, hB, hC]

end Cert.KerWeights

end
-- ==== Proof.KerEnc.lean ====
/-
  The encoding of one block of 1024 rows, read at an entry.

  For each sensor the kernel cuts that sensor's column out of the weight block, spreads it over 13 and over 4 columns,
  multiplies the state block and the action block by it and lays the two products side by side (17 columns); the 32
  such pieces are laid side by side (544 columns). So entry (p, 17 s + j) is the state's (p, j) for j < 13, else the
  action's (p, j - 13), times the weight of (p, s).
-/
import proofs.«178626_j68238440398979_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«178626_j68238440398979_1_alg».proof.Proof.LibMatmul2D
import proofs.«178626_j68238440398979_1_alg».proof.Proof.LibKeepdims
import proofs.«178626_j68238440398979_1_alg».proof.Proof.LibConcatCols
import proofs.«178626_j68238440398979_1_alg».proof.Proof.RowSpec
import proofs.«178626_j68238440398979_1_alg».proof.Proof.KerWeights

noncomputable section

namespace Cert.KerEnc

open Idealize.ShloMosaic Idealize.ShloMosaic.ValueIdx Cert.KernelIdeal Cert.KernelIdeal.Gen Cert.RowSpec Cert.LibConcatCols

/-- One sensor's piece: the state and action blocks times column `o` of the weights, side by side. -/
theorem chunk_apply (v0 : Vec Ideal S1024x13 .f32) (v1 : Vec Ideal S1024x4 .f32) (w : FVec Ideal S1024x32 .f32) (o : ℕ)
    (hs : S1024x32.Slices ![0, o] S1024x1) (s : Fin 32) (ho : s.val = o) (p : Fin 1024) (j : Fin 17) :
    concatenate S1024x17 1
        [⟨S1024x13, mulf v0 (broadcastTo S1024x13 (extractStridedSlice S1024x1 ![0, o] w hs) broadcasts_S1024x1_S1024x13)⟩,
         ⟨S1024x4, mulf v1 (broadcastTo S1024x4 (extractStridedSlice S1024x1 ![0, o] w hs) broadcasts_S1024x1_S1024x4)⟩]
        concatenates_S1024x13_S1024x4_S1024x17_d1 (ix2 p j)
      = join2 (a := 13) (b := 4) (n := 17) rfl (fun c => v0 (ix2 p c) * w (ix2 p s)) (fun c => v1 (ix2 p c) * w (ix2 p s)) j := by
  have hw : ∀ u : Fin 1, extractStridedSlice S1024x1 ![0, o] w hs (ix2 p u) = w (ix2 p s) := fun u =>
    slice2_axis1_apply o w hs p u s (by have := u.isLt; omega)
  refine (concat2_apply (a := 13) (b := 4) (n := 17) rfl _ _ concatenates_S1024x13_S1024x4_S1024x17_d1 p j).trans ?_
  refine join2_congr (a := 13) (b := 4) (n := 17) rfl (fun c => ?_) (fun c => ?_) j
  · show v0 (ix2 p c) * broadcastTo S1024x13 (extractStridedSlice S1024x1 ![0, o] w hs) broadcasts_S1024x1_S1024x13 (ix2 p c) = _
    rw [LibKeepdims.broadcastTo_a1_ab_apply, hw]
  · show v1 (ix2 p c) * broadcastTo S1024x4 (extractStridedSlice S1024x1 ![0, o] w hs) broadcasts_S1024x1_S1024x4 (ix2 p c) = _
    rw [LibKeepdims.broadcastTo_a1_ab_apply, hw]

/-- The encoded block, as the kernel body forms it from the state, action and sensor blocks. -/
def encBlock (x0 : Vec Ideal S1024x13 .f32) (x1 : Vec Ideal S1024x4 .f32) (x2 : Vec Ideal S32x3 .f32) : FVec Ideal S1024x544 .bf16 :=
  k0_pay36 x0 x1 (k0_pay4 x0 x2) (k0_pay5 x0 x1 x2) (k0_pay6 x0 x1 x2) (k0_pay10 (k0_pay8 x0 x2) (k0_pay9 x0 x1 x2)) (k0_pay11 x0 x1 (k0_pay4 x0 x2)) (k0_pay12 x0 x1 (k0_pay4 x0 x2)) (k0_pay13 x0 x1 (k0_pay4 x0 x2)) (k0_pay14 x0 x1 (k0_pay4 x0 x2)) (k0_pay15 x0 x1 (k0_pay4 x0 x2)) (k0_pay16 x0 x1 (k0_pay4 x0 x2)) (k0_pay17 x0 x1 (k0_pay4 x0 x2)) (k0_pay18 x0 x1 (k0_pay4 x0 x2)) (k0_pay19 x0 x1 (k0_pay4 x0 x2)) (k0_pay23 (k0_pay21 x0 (k0_pay4 x0 x2)) (k0_pay22 x1 (k0_pay4 x0 x2))) (k0_pay24 x0 x1 (k0_pay4 x0 x2)) (k0_pay25 x0 x1 (k0_pay4 x0 x2)) (k0_pay26 x0 x1 (k0_pay4 x0 x2)) (k0_pay27 x0 x1 (k0_pay4 x0 x2)) (k0_pay28 x0 x1 (k0_pay4 x0 x2)) (k0_pay29 x0 x1 (k0_pay4 x0 x2)) (k0_pay30 x0 x1 (k0_pay4 x0 x2)) (k0_pay31 x0 x1 (k0_pay4 x0 x2)) (k0_pay32 x0 x1 (k0_pay4 x0 x2)) (k0_pay34 x0 (k0_pay4 x0 x2)) (k0_pay35 x1 (k0_pay4 x0 x2))

/-- The 32 pieces of the encoded block, one per sensor, as the kernel body forms them. -/
def pieces (x0 : Vec Ideal S1024x13 .f32) (x1 : Vec Ideal S1024x4 .f32) (x2 : Vec Ideal S32x3 .f32) : Fin 32 → FVec Ideal S1024x17 .f32
  | ⟨0, _⟩ => k0_pay5 x0 x1 x2
  | ⟨1, _⟩ => k0_pay6 x0 x1 x2
  | ⟨2, _⟩ => k0_pay10 (k0_pay8 x0 x2) (k0_pay9 x0 x1 x2)
  | ⟨3, _⟩ => k0_pay11 x0 x1 (k0_pay4 x0 x2)
  | ⟨4, _⟩ => k0_pay12 x0 x1 (k0_pay4 x0 x2)
  | ⟨5, _⟩ => k0_pay13 x0 x1 (k0_pay4 x0 x2)
  | ⟨6, _⟩ => k0_pay14 x0 x1 (k0_pay4 x0 x2)
  | ⟨7, _⟩ => k0_pay15 x0 x1 (k0_pay4 x0 x2)
  | ⟨8, _⟩ => k0_pay16 x0 x1 (k0_pay4 x0 x2)
  | ⟨9, _⟩ => k0_pay17 x0 x1 (k0_pay4 x0 x2)
  | ⟨10, _⟩ => k0_pay18 x0 x1 (k0_pay4 x0 x2)
  | ⟨11, _⟩ => k0_pay19 x0 x1 (k0_pay4 x0 x2)
  | ⟨12, _⟩ => k0_pay23 (k0_pay21 x0 (k0_pay4 x0 x2)) (k0_pay22 x1 (k0_pay4 x0 x2))
  | ⟨13, _⟩ => k0_pay24 x0 x1 (k0_pay4 x0 x2)
  | ⟨14, _⟩ => k0_pay25 x0 x1 (k0_pay4 x0 x2)
  | ⟨15, _⟩ => k0_pay26 x0 x1 (k0_pay4 x0 x2)
  | ⟨16, _⟩ => k0_pay27 x0 x1 (k0_pay4 x0 x2)
  | ⟨17, _⟩ => k0_pay28 x0 x1 (k0_pay4 x0 x2)
  | ⟨18, _⟩ => k0_pay29 x0 x1 (k0_pay4 x0 x2)
  | ⟨19, _⟩ => k0_pay30 x0 x1 (k0_pay4 x0 x2)
  | ⟨20, _⟩ => k0_pay31 x0 x1 (k0_pay4 x0 x2)
  | ⟨21, _⟩ => k0_pay32 x0 x1 (k0_pay4 x0 x2)
  | ⟨22, _⟩ => concatenate S1024x17 1 [⟨S1024x13, k0_pay34 x0 (k0_pay4 x0 x2)⟩, ⟨S1024x4, k0_pay35 x1 (k0_pay4 x0 x2)⟩] concatenates_S1024x13_S1024x4_S1024x17_d1
  | ⟨23, _⟩ => concatenate S1024x17 1
        [⟨S1024x13, mulf x0 (broadcastTo S1024x13 (extractStridedSlice S1024x1 ![0, 23] (k0_pay4 x0 x2) slices_S1024x32_o0_23_S1024x1) broadcasts_S1024x1_S1024x13)⟩,
         ⟨S1024x4, mulf x1 (broadcastTo S1024x4 (extractStridedSlice S1024x1 ![0, 23] (k0_pay4 x0 x2) slices_S1024x32_o0_23_S1024x1) broadcasts_S1024x1_S1024x4)⟩]
        concatenates_S1024x13_S1024x4_S1024x17_d1
  | ⟨24, _⟩ => concatenate S1024x17 1
        [⟨S1024x13, mulf x0 (broadcastTo S1024x13 (extractStridedSlice S1024x1 ![0, 24] (k0_pay4 x0 x2) slices_S1024x32_o0_24_S1024x1) broadcasts_S1024x1_S1024x13)⟩,
         ⟨S1024x4, mulf x1 (broadcastTo S1024x4 (extractStridedSlice S1024x1 ![0, 24] (k0_pay4 x0 x2) slices_S1024x32_o0_24_S1024x1) broadcasts_S1024x1_S1024x4)⟩]
        concatenates_S1024x13_S1024x4_S1024x17_d1
  | ⟨25, _⟩ => concatenate S1024x17 1
        [⟨S1024x13, mulf x0 (broadcastTo S1024x13 (extractStridedSlice S1024x1 ![0, 25] (k0_pay4 x0 x2) slices_S1024x32_o0_25_S1024x1) broadcasts_S1024x1_S1024x13)⟩,
         ⟨S1024x4, mulf x1 (broadcastTo S1024x4 (extractStridedSlice S1024x1 ![0, 25] (k0_pay4 x0 x2) slices_S1024x32_o0_25_S1024x1) broadcasts_S1024x1_S1024x4)⟩]
        concatenates_S1024x13_S1024x4_S1024x17_d1
  | ⟨26, _⟩ => concatenate S1024x17 1
        [⟨S1024x13, mulf x0 (broadcastTo S1024x13 (extractStridedSlice S1024x1 ![0, 26] (k0_pay4 x0 x2) slices_S1024x32_o0_26_S1024x1) broadcasts_S1024x1_S1024x13)⟩,
         ⟨S1024x4, mulf x1 (broadcastTo S1024x4 (extractStridedSlice S1024x1 ![0, 26] (k0_pay4 x0 x2) slices_S1024x32_o0_26_S1024x1) broadcasts_S1024x1_S1024x4)⟩]
        concatenates_S1024x13_S1024x4_S1024x17_d1
  | ⟨27, _⟩ => concatenate S1024x17 1
        [⟨S1024x13, mulf x0 (broadcastTo S1024x13 (extractStridedSlice S1024x1 ![0, 27] (k0_pay4 x0 x2) slices_S1024x32_o0_27_S1024x1) broadcasts_S1024x1_S1024x13)⟩,
         ⟨S1024x4, mulf x1 (broadcastTo S1024x4 (extractStridedSlice S1024x1 ![0, 27] (k0_pay4 x0 x2) slices_S1024x32_o0_27_S1024x1) broadcasts_S1024x1_S1024x4)⟩]
        concatenates_S1024x13_S1024x4_S1024x17_d1
  | ⟨28, _⟩ => concatenate S1024x17 1
        [⟨S1024x13, mulf x0 (broadcastTo S1024x13 (extractStridedSlice S1024x1 ![0, 28] (k0_pay4 x0 x2) slices_S1024x32_o0_28_S1024x1) broadcasts_S1024x1_S1024x13)⟩,
         ⟨S1024x4, mulf x1 (broadcastTo S1024x4 (extractStridedSlice S1024x1 ![0, 28] (k0_pay4 x0 x2) slices_S1024x32_o0_28_S1024x1) broadcasts_S1024x1_S1024x4)⟩]
        concatenates_S1024x13_S1024x4_S1024x17_d1
  | ⟨29, _⟩ => concatenate S1024x17 1
        [⟨S1024x13, mulf x0 (broadcastTo S1024x13 (extractStridedSlice S1024x1 ![0, 29] (k0_pay4 x0 x2) slices_S1024x32_o0_29_S1024x1) broadcasts_S1024x1_S1024x13)⟩,
         ⟨S1024x4, mulf x1 (broadcastTo S1024x4 (extractStridedSlice S1024x1 ![0, 29] (k0_pay4 x0 x2) slices_S1024x32_o0_29_S1024x1) broadcasts_S1024x1_S1024x4)⟩]
        concatenates_S1024x13_S1024x4_S1024x17_d1
  | ⟨30, _⟩ => concatenate S1024x17 1
        [⟨S1024x13, mulf x0 (broadcastTo S1024x13 (extractStridedSlice S1024x1 ![0, 30] (k0_pay4 x0 x2) slices_S1024x32_o0_30_S1024x1) broadcasts_S1024x1_S1024x13)⟩,
         ⟨S1024x4, mulf x1 (broadcastTo S1024x4 (extractStridedSlice S1024x1 ![0, 30] (k0_pay4 x0 x2) slices_S1024x32_o0_30_S1024x1) broadcasts_S1024x1_S1024x4)⟩]
        concatenates_S1024x13_S1024x4_S1024x17_d1
  | ⟨31, _⟩ => concatenate S1024x17 1
        [⟨S1024x13, mulf x0 (broadcastTo S1024x13 (extractStridedSlice S1024x1 ![0, 31] (k0_pay4 x0 x2) slices_S1024x32_o0_31_S1024x1) broadcasts_S1024x1_S1024x13)⟩,
         ⟨S1024x4, mulf x1 (broadcastTo S1024x4 (extractStridedSlice S1024x1 ![0, 31] (k0_pay4 x0 x2) slices_S1024x32_o0_31_S1024x1) broadcasts_S1024x1_S1024x4)⟩]
        concatenates_S1024x13_S1024x4_S1024x17_d1
  | ⟨n + 32, h⟩ => absurd h (by omega)

/-- Piece `s` at `(p, j)`: the state's or the action's entry times the weight of (p, s). -/
theorem pieces_apply (x0 : Vec Ideal S1024x13 .f32) (x1 : Vec Ideal S1024x4 .f32) (x2 : Vec Ideal S32x3 .f32)
    (p : Fin 1024) (s : Fin 32) (j : Fin 17) :
    pieces x0 x1 x2 s (ix2 p j)
      = join2 (a := 13) (b := 4) (n := 17) rfl (fun c => x0 (ix2 p c) * k0_pay4 x0 x2 (ix2 p s))
          (fun c => x1 (ix2 p c) * k0_pay4 x0 x2 (ix2 p s)) j := by
  match s with
  | ⟨0, _⟩ => exact chunk_apply x0 x1 (k0_pay4 x0 x2) 0 slices_S1024x32_o0_0_S1024x1 ⟨0, by omega⟩ rfl p j
  | ⟨1, _⟩ => exact chunk_apply x0 x1 (k0_pay4 x0 x2) 1 slices_S1024x32_o0_1_S1024x1 ⟨1, by omega⟩ rfl p j
  | ⟨2, _⟩ => exact chunk_apply x0 x1 (k0_pay4 x0 x2) 2 slices_S1024x32_o0_2_S1024x1 ⟨2, by omega⟩ rfl p j
  | ⟨3, _⟩ => exact chunk_apply x0 x1 (k0_pay4 x0 x2) 3 slices_S1024x32_o0_3_S1024x1 ⟨3, by omega⟩ rfl p j
  | ⟨4, _⟩ => exact chunk_apply x0 x1 (k0_pay4 x0 x2) 4 slices_S1024x32_o0_4_S1024x1 ⟨4, by omega⟩ rfl p j
  | ⟨5, _⟩ => exact chunk_apply x0 x1 (k0_pay4 x0 x2) 5 slices_S1024x32_o0_5_S1024x1 ⟨5, by omega⟩ rfl p j
  | ⟨6, _⟩ => exact chunk_apply x0 x1 (k0_pay4 x0 x2) 6 slices_S1024x32_o0_6_S1024x1 ⟨6, by omega⟩ rfl p j
  | ⟨7, _⟩ => exact chunk_apply x0 x1 (k0_pay4 x0 x2) 7 slices_S1024x32_o0_7_S1024x1 ⟨7, by omega⟩ rfl p j
  | ⟨8, _⟩ => exact chunk_apply x0 x1 (k0_pay4 x0 x2) 8 slices_S1024x32_o0_8_S1024x1 ⟨8, by omega⟩ rfl p j
  | ⟨9, _⟩ => exact chunk_apply x0 x1 (k0_pay4 x0 x2) 9 slices_S1024x32_o0_9_S1024x1 ⟨9, by omega⟩ rfl p j
  | ⟨10, _⟩ => exact chunk_apply x0 x1 (k0_pay4 x0 x2) 10 slices_S1024x32_o0_10_S1024x1 ⟨10, by omega⟩ rfl p j
  | ⟨11, _⟩ => exact chunk_apply x0 x1 (k0_pay4 x0 x2) 11 slices_S1024x32_o0_11_S1024x1 ⟨11, by omega⟩ rfl p j
  | ⟨12, _⟩ => exact chunk_apply x0 x1 (k0_pay4 x0 x2) 12 slices_S1024x32_o0_12_S1024x1 ⟨12, by omega⟩ rfl p j
  | ⟨13, _⟩ => exact chunk_apply x0 x1 (k0_pay4 x0 x2) 13 slices_S1024x32_o0_13_S1024x1 ⟨13, by omega⟩ rfl p j
  | ⟨14, _⟩ => exact chunk_apply x0 x1 (k0_pay4 x0 x2) 14 slices_S1024x32_o0_14_S1024x1 ⟨14, by omega⟩ rfl p j
  | ⟨15, _⟩ => exact chunk_apply x0 x1 (k0_pay4 x0 x2) 15 slices_S1024x32_o0_15_S1024x1 ⟨15, by omega⟩ rfl p j
  | ⟨16, _⟩ => exact chunk_apply x0 x1 (k0_pay4 x0 x2) 16 slices_S1024x32_o0_16_S1024x1 ⟨16, by omega⟩ rfl p j
  | ⟨17, _⟩ => exact chunk_apply x0 x1 (k0_pay4 x0 x2) 17 slices_S1024x32_o0_17_S1024x1 ⟨17, by omega⟩ rfl p j
  | ⟨18, _⟩ => exact chunk_apply x0 x1 (k0_pay4 x0 x2) 18 slices_S1024x32_o0_18_S1024x1 ⟨18, by omega⟩ rfl p j
  | ⟨19, _⟩ => exact chunk_apply x0 x1 (k0_pay4 x0 x2) 19 slices_S1024x32_o0_19_S1024x1 ⟨19, by omega⟩ rfl p j
  | ⟨20, _⟩ => exact chunk_apply x0 x1 (k0_pay4 x0 x2) 20 slices_S1024x32_o0_20_S1024x1 ⟨20, by omega⟩ rfl p j
  | ⟨21, _⟩ => exact chunk_apply x0 x1 (k0_pay4 x0 x2) 21 slices_S1024x32_o0_21_S1024x1 ⟨21, by omega⟩ rfl p j
  | ⟨22, _⟩ => exact chunk_apply x0 x1 (k0_pay4 x0 x2) 22 slices_S1024x32_o0_22_S1024x1 ⟨22, by omega⟩ rfl p j
  | ⟨23, _⟩ => exact chunk_apply x0 x1 (k0_pay4 x0 x2) 23 slices_S1024x32_o0_23_S1024x1 ⟨23, by omega⟩ rfl p j
  | ⟨24, _⟩ => exact chunk_apply x0 x1 (k0_pay4 x0 x2) 24 slices_S1024x32_o0_24_S1024x1 ⟨24, by omega⟩ rfl p j
  | ⟨25, _⟩ => exact chunk_apply x0 x1 (k0_pay4 x0 x2) 25 slices_S1024x32_o0_25_S1024x1 ⟨25, by omega⟩ rfl p j
  | ⟨26, _⟩ => exact chunk_apply x0 x1 (k0_pay4 x0 x2) 26 slices_S1024x32_o0_26_S1024x1 ⟨26, by omega⟩ rfl p j
  | ⟨27, _⟩ => exact chunk_apply x0 x1 (k0_pay4 x0 x2) 27 slices_S1024x32_o0_27_S1024x1 ⟨27, by omega⟩ rfl p j
  | ⟨28, _⟩ => exact chunk_apply x0 x1 (k0_pay4 x0 x2) 28 slices_S1024x32_o0_28_S1024x1 ⟨28, by omega⟩ rfl p j
  | ⟨29, _⟩ => exact chunk_apply x0 x1 (k0_pay4 x0 x2) 29 slices_S1024x32_o0_29_S1024x1 ⟨29, by omega⟩ rfl p j
  | ⟨30, _⟩ => exact chunk_apply x0 x1 (k0_pay4 x0 x2) 30 slices_S1024x32_o0_30_S1024x1 ⟨30, by omega⟩ rfl p j
  | ⟨31, _⟩ => exact chunk_apply x0 x1 (k0_pay4 x0 x2) 31 slices_S1024x32_o0_31_S1024x1 ⟨31, by omega⟩ rfl p j
  | ⟨n + 32, h⟩ => exact absurd h (by omega)

/-- The encoded block is the 32 pieces laid side by side. -/
theorem encBlock_eq (x0 : Vec Ideal S1024x13 .f32) (x1 : Vec Ideal S1024x4 .f32) (x2 : Vec Ideal S32x3 .f32) (i : S1024x544.Idx) :
    encBlock x0 x1 x2 i
      = concatenate S1024x544 1 (List.ofFn fun n : Fin 32 => (⟨S1024x17, pieces x0 x1 x2 n⟩ : (s : Shape) × (s.Idx → EReal)))
          concatenates_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x17_S1024x544_d1 i := rfl

/-- Entry (p, 17 s + j) of the encoded block. -/
theorem enc_apply (x0 : Vec Ideal S1024x13 .f32) (x1 : Vec Ideal S1024x4 .f32) (x2 : Vec Ideal S32x3 .f32)
    (p : Fin 1024) (s : Fin 32) (j : Fin 17) :
    encBlock x0 x1 x2 (ix2 p ⟨s.val * 17 + j.val, by have := s.isLt; have := j.isLt; omega⟩)
      = join2 (a := 13) (b := 4) (n := 17) rfl (fun c => x0 (ix2 p c) * k0_pay4 x0 x2 (ix2 p s))
          (fun c => x1 (ix2 p c) * k0_pay4 x0 x2 (ix2 p s)) j := by
  rw [encBlock_eq]
  refine (concatenate_ofFn_apply (t := S1024x544) (s₁ := S1024x17) 1 (pieces x0 x1 x2) _ rfl 17 rfl _ s ?_ (ix2 p j) ?_ (fun b hb => ?_)).trans (pieces_apply x0 x1 x2 p s j)
  · show (s.val * 17 + j.val) / 17 = s.val
    have := j.isLt; omega
  · show j.val = (s.val * 17 + j.val) % 17
    have := j.isLt; omega
  · match b with
    | ⟨0, _⟩ => rfl
    | ⟨1, _⟩ => exact absurd rfl hb

/-- Row `p` of the encoded block is the encoding of row `p` of the state and action blocks under the block's weights. -/
theorem enc_row (x0 : Vec Ideal S1024x13 .f32) (x1 : Vec Ideal S1024x4 .f32) (x2 : Vec Ideal S32x3 .f32)
    (p : Fin 1024) (k : Fin 544) :
    encBlock x0 x1 x2 (ix2 p k)
      = enc (fun c => x0 (ix2 p c)) (fun c => x1 (ix2 p c)) (fun s => k0_pay4 x0 x2 (ix2 p s)) k := by
  have hk : k = ⟨(⟨k.val / 17, by have := k.isLt; omega⟩ : Fin 32).val * 17 + (⟨k.val % 17, Nat.mod_lt _ (by decide)⟩ : Fin 17).val,
      by have := k.isLt; show k.val / 17 * 17 + k.val % 17 < 544; omega⟩ :=
    Fin.ext (by show k.val = k.val / 17 * 17 + k.val % 17; omega)
  exact (congrArg (fun k' => encBlock x0 x1 x2 (ix2 p k')) hk).trans
    (enc_apply x0 x1 x2 p ⟨k.val / 17, by have := k.isLt; omega⟩ ⟨k.val % 17, Nat.mod_lt _ (by decide)⟩)

end Cert.KerEnc

end
-- ==== Proof.LibDenseLayer.lean ====
/-
  A dense layer of a kernel, read at an entry on the extended reals.

  A Pallas kernel computes `X @ W + b` for a block X : [R, n], a weight matrix W : [n, h] loaded whole and a bias kept as a
  one-row array b : [1, h] loaded whole: the loaded matrix and the loaded row are first cast to their own shapes, the product
  goes into the zero accumulator, and the row is spread down the R rows and added. Read at entry (p, k) that is
  (∑ i, X (p, i) * W (i, k)) + b (0, k).
  The dimension record is the one built from the literal axis lists (left axis 1 against right axis 0); its well-formedness
  proof is a parameter, as are the facts that the two casts are of a shape to itself and that the row broadcasts.
  Over any extents R, n, h and any operand formats.
-/
import Idealize.ShloMosaic.PureOps.Ideal.Laws
import Idealize.ShloMosaic.Lib.ValueIdx
import Idealize.ShloMosaic.Lib.ValueLayout
import Idealize.ShloMosaic.Lib.Pipeline.Value
import proofs.«178626_j68238440398979_1_alg».proof.Proof.LibMatmul2D
import proofs.«178626_j68238440398979_1_alg».proof.Proof.LibKeepdims

namespace Cert.LibDenseLayer

open Idealize.ShloMosaic Idealize.ShloMosaic.ValueIdx

/-- The layer at entry `(p, k)`: row `p` of the input against column `k` of the weights, plus the bias row's entry `k`. -/
theorem layer_sum {R n h : ℕ} {φ₁ φ₂ : FTy}
    (wf : DotDims.WF (⟨2, ![R, n]⟩ : Shape) (⟨2, ![n, h]⟩ : Shape) (⟨2, ![R, h]⟩ : Shape)
      ([1] : List (Fin 2)) ([0] : List (Fin 2)) ([0] : List (Fin 2)) ([1] : List (Fin 2)) [] [])
    (X : FVec Ideal (⟨2, ![R, n]⟩ : Shape) φ₁) (W : FVec Ideal (⟨2, ![n, h]⟩ : Shape) φ₂)
    (hW : (⟨2, ![n, h]⟩ : Shape).ShapeCasts ⟨2, ![n, h]⟩)
    (b : FVec Ideal (⟨2, ![1, h]⟩ : Shape) .f32) (hc : (⟨2, ![1, h]⟩ : Shape).ShapeCasts ⟨2, ![1, h]⟩)
    (hb : (⟨2, ![1, h]⟩ : Shape).Broadcasts ⟨2, ![R, h]⟩) (p : Fin R) (k : Fin h) :
    addf (FloatOps.matmul (⟨[1], [0], [0], [1], [], [], wf⟩ : DotDims (⟨2, ![R, n]⟩ : Shape) (⟨2, ![n, h]⟩ : Shape) (⟨2, ![R, h]⟩ : Shape))
          none X (shapeCast ⟨2, ![n, h]⟩ W hW) (constant (F := Ideal) (⟨2, ![R, h]⟩ : Shape) .f32 0x00000000#32))
        (broadcastTo ⟨2, ![R, h]⟩ (shapeCast ⟨2, ![1, h]⟩ b hc) hb) (ix2 p k)
      = (∑ i : Fin n, X (ix2 p i) * W (ix2 i k)) + b (ix2 (0 : Fin 1) k) := by
  show FloatOps.matmul _ none X _ _ (ix2 p k) + broadcastTo ⟨2, ![R, h]⟩ (shapeCast ⟨2, ![1, h]⟩ b hc) hb (ix2 p k) = _
  rw [Cert.LibMatmul2D.rows_cols wf none X _ p k, Cert.LibKeepdims.rowBroadcast_apply b hc hb p k, shapeCast_self]

end Cert.LibDenseLayer
-- ==== Proof.KerLayers.lean ====
/-
  The dense layers of one block of 1024 rows, read at an entry.

  Each layer of the kernel is a matrix product into the zero accumulator plus the bias row spread down the block;
  at entry (p, k) that is the row p of the input against column k of the weights, plus the bias at k
  (`RowSpec.dense`). Changes of float format are the identity on the extended reals, so the rectified layers are
  `max · 0` of a dense layer and the trunk layers `tanh` of one.
-/
import proofs.«178626_j68238440398979_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«178626_j68238440398979_1_alg».proof.Proof.LibMatmul2D
import proofs.«178626_j68238440398979_1_alg».proof.Proof.LibKeepdims
import proofs.«178626_j68238440398979_1_alg».proof.Proof.LibConcatCols
import proofs.«178626_j68238440398979_1_alg».proof.Proof.RowSpec
import proofs.«178626_j68238440398979_1_alg».proof.Proof.LibDenseLayer

noncomputable section

namespace Cert.KerLayers

open Idealize.ShloMosaic Idealize.ShloMosaic.ValueIdx Cert.KernelIdeal Cert.KernelIdeal.Gen Cert.RowSpec Cert.LibConcatCols

/-- A dense layer depends on its input row only through the row's entries. -/
theorem dense_congr {n h : ℕ} {x x' : Fin n → EReal} (W : Fin n → Fin h → EReal) (b : Fin h → EReal) (k : Fin h)
    (hx : ∀ i, x i = x' i) : dense x W b k = dense x' W b k := by
  rw [funext hx]

/-- One layer of the kernel at entry `(p, k)`: the weights and the bias row first cast to their own shapes. -/
theorem layer_apply {R n h : ℕ} {φ₁ φ₂ : FTy}
    (wf : DotDims.WF (⟨2, ![R, n]⟩ : Shape) (⟨2, ![n, h]⟩ : Shape) (⟨2, ![R, h]⟩ : Shape)
      ([1] : List (Fin 2)) ([0] : List (Fin 2)) ([0] : List (Fin 2)) ([1] : List (Fin 2)) [] [])
    (X : FVec Ideal (⟨2, ![R, n]⟩ : Shape) φ₁) (W : FVec Ideal (⟨2, ![n, h]⟩ : Shape) φ₂)
    (hW : (⟨2, ![n, h]⟩ : Shape).ShapeCasts ⟨2, ![n, h]⟩)
    (b : FVec Ideal (⟨2, ![1, h]⟩ : Shape) .f32) (hc : (⟨2, ![1, h]⟩ : Shape).ShapeCasts ⟨2, ![1, h]⟩)
    (hb : (⟨2, ![1, h]⟩ : Shape).Broadcasts ⟨2, ![R, h]⟩) (p : Fin R) (k : Fin h) :
    addf (FloatOps.matmul (⟨[1], [0], [0], [1], [], [], wf⟩ : DotDims (⟨2, ![R, n]⟩ : Shape) (⟨2, ![n, h]⟩ : Shape) (⟨2, ![R, h]⟩ : Shape))
          none X (shapeCast ⟨2, ![n, h]⟩ W hW) (constant (F := Ideal) (⟨2, ![R, h]⟩ : Shape) .f32 0x00000000#32))
        (broadcastTo ⟨2, ![R, h]⟩ (shapeCast ⟨2, ![1, h]⟩ b hc) hb) (ix2 p k)
      = dense (fun i => X (ix2 p i)) (fun i k => W (ix2 i k)) (fun k => b (ix2 (0 : Fin 1) k)) k := by
  exact Cert.LibDenseLayer.layer_sum wf X W hW b hc hb p k

/-- The branch features of a block at entry `(p, n)`, from the encoded block. -/
theorem branch_apply (E : FVec Ideal S1024x544 .bf16) (x3 : Vec Ideal S544x1024 .bf16) (x4 : Vec Ideal S1x1024 .f32)
    (x5 : Vec Ideal S1024x512 .bf16) (x6 : Vec Ideal S1x512 .f32) (x7 : Vec Ideal S512x256 .bf16) (x8 : Vec Ideal S1x256 .f32)
    (p : Fin 1024) (n : Fin 256) :
    k0_pay37 (F := Ideal) E x3 x4 x5 x6 x7 x8 (ix2 p n)
      = dense (fun n => max (dense (fun n => max (dense (fun k => E (ix2 p k)) (fun k n => x3 (ix2 k n)) (fun n => x4 (ix2 (0 : Fin 1) n)) n) Z)
          (fun k n => x5 (ix2 k n)) (fun n => x6 (ix2 (0 : Fin 1) n)) n) Z) (fun k n => x7 (ix2 k n)) (fun n => x8 (ix2 (0 : Fin 1) n)) n := by
  unfold k0_pay37
  refine (layer_apply dot_S1024x512_S512x256_S1024x256_1_0_0_1_n_n.wf _ x7 _ x8 _ _ p n).trans ?_
  refine dense_congr _ _ _ fun i => ?_
  show max (addf (F := Ideal) _ _ (ix2 p i)) Z = _
  refine congrArg (fun t => max t Z) ?_
  refine (layer_apply dot_S1024x1024_S1024x512_S1024x512_1_0_0_1_n_n.wf _ x5 _ x6 _ _ p i).trans ?_
  refine dense_congr _ _ _ fun i2 => ?_
  show max (addf (F := Ideal) _ _ (ix2 p i2)) Z = _
  refine congrArg (fun t => max t Z) ?_
  exact layer_apply dot_S1024x544_S544x1024_S1024x1024_1_0_0_1_n_n.wf E x3 _ x4 _ _ p i2

/-- The first trunk layer of a block at entry `(p, n)`, from the position block. -/
theorem trunk1_apply (v4 : FVec Ideal S1024x3 .bf16) (x9 : Vec Ideal S3x256 .bf16) (x10 : Vec Ideal S1x256 .f32)
    (p : Fin 1024) (n : Fin 256) :
    k0_pay38 (F := Ideal) v4 x9 x10 (ix2 p n)
      = Ideal.tanh (dense (fun k => v4 (ix2 p k)) (fun k n => x9 (ix2 k n)) (fun n => x10 (ix2 (0 : Fin 1) n)) n) := by
  unfold k0_pay38
  show Ideal.tanh (addf (F := Ideal) _ _ (ix2 p n)) = _
  exact congrArg Ideal.tanh (layer_apply dot_S1024x3_S3x256_S1024x256_1_0_0_1_n_n.wf v4 x9 _ x10 _ _ p n)

/-- The one entry of a `[1, 1]` block. -/
theorem extract00 (x19 : Vec Ideal S1x1 .f32) : extractAt ![0, 0] x19 inpos_S1x1_p0_0 = x19 (ix2 (0 : Fin 1) (0 : Fin 1)) :=
  congrArg x19 (funext fun a => Fin.ext (by match a with | ⟨0, _⟩ => rfl | ⟨1, _⟩ => rfl))

/-- The moved state of a block at entry `(p, j)`, from the branch features, the first trunk layer and the position block. -/
theorem moved_apply (v0 : Vec Ideal S1024x13 .f32) (v4 : FVec Ideal S1024x3 .bf16) (br : FVec Ideal S1024x256 .f32)
    (t1 : FVec Ideal S1024x256 .bf16) (x11 : Vec Ideal S256x256 .bf16) (x12 : Vec Ideal S1x256 .f32)
    (x17 : Vec Ideal S256x13 .bf16) (x18 : Vec Ideal S1x13 .f32) (x13 : Vec Ideal S3x128 .bf16) (x14 : Vec Ideal S1x128 .f32)
    (x15 : Vec Ideal S128x13 .bf16) (x16 : Vec Ideal S1x13 .f32) (x19 : Vec Ideal S1x1 .f32) (p : Fin 1024) (j : Fin 13) :
    k0_pay40 (F := Ideal) v0 v4 br t1 (k0_pay39 x11) (constant S1024x256 .f32 0x00000000#32) x12 x17 x18 x13 x14 x15 x16 x19 (ix2 p j)
      = v0 (ix2 p j) + x19 (ix2 (0 : Fin 1) (0 : Fin 1)) *
          (dense (fun n => br (ix2 p n) * Ideal.tanh (dense (fun k => t1 (ix2 p k)) (fun k n => x11 (ix2 k n)) (fun n => x12 (ix2 (0 : Fin 1) n)) n))
              (fun k n => x17 (ix2 k n)) (fun n => x18 (ix2 (0 : Fin 1) n)) j
            + dense (fun n => max (dense (fun k => v4 (ix2 p k)) (fun k n => x13 (ix2 k n)) (fun n => x14 (ix2 (0 : Fin 1) n)) n) Z)
              (fun k n => x15 (ix2 k n)) (fun n => x16 (ix2 (0 : Fin 1) n)) j) := by
  unfold k0_pay40 k0_pay39
  show v0 (ix2 p j) + extractAt ![0, 0] x19 inpos_S1x1_p0_0 * (addf (F := Ideal) _ _ (ix2 p j) + addf (F := Ideal) _ _ (ix2 p j)) = _
  rw [extract00]
  refine congrArg (fun t => v0 (ix2 p j) + x19 (ix2 (0 : Fin 1) (0 : Fin 1)) * t) ?_
  refine congrArg₂ (· + ·) ?_ ?_
  · refine (layer_apply dot_S1024x256_S256x13_S1024x13_1_0_0_1_n_n.wf _ x17 _ x18 _ _ p j).trans ?_
    refine dense_congr _ _ _ fun n => ?_
    show br (ix2 p n) * Ideal.tanh (addf (F := Ideal) _ _ (ix2 p n)) = _
    refine congrArg (fun t => br (ix2 p n) * Ideal.tanh t) ?_
    exact layer_apply dot_S1024x256_S256x256_S1024x256_1_0_0_1_n_n.wf t1 x11 _ x12 _ _ p n
  · refine (layer_apply dot_S1024x128_S128x13_S1024x13_1_0_0_1_n_n.wf _ x15 _ x16 _ _ p j).trans ?_
    refine dense_congr _ _ _ fun n => ?_
    show max (addf (F := Ideal) _ _ (ix2 p n)) Z = _
    refine congrArg (fun t => max t Z) ?_
    exact layer_apply dot_S1024x3_S3x128_S1024x128_1_0_0_1_n_n.wf v4 x13 _ x14 _ _ p n

end Cert.KerLayers

end
-- ==== Proof.KerOut.lean ====
/-
  The last step of one block of 1024 rows, read at an entry: the quaternion columns 3..6 of the moved state divided by
  their norm plus the small constant, the other columns kept.

  The kernel squares the four quaternion columns, sums them along the row (a lane sum kept as a column), takes the
  square root, adds the constant, spreads the result over the four columns and divides; then lays columns 0..2, the
  divided quaternion and columns 7..12 side by side. A lane sum has no starting value, the specification's sum starts
  from the float zero: the two agree because the float zero is the real 0.
-/
import proofs.«178626_j68238440398979_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«178626_j68238440398979_1_alg».proof.Proof.LibMatmul2D
import proofs.«178626_j68238440398979_1_alg».proof.Proof.LibKeepdims
import proofs.«178626_j68238440398979_1_alg».proof.Proof.LibConcatCols
import proofs.«178626_j68238440398979_1_alg».proof.Proof.RowSpec

noncomputable section

namespace Cert.KerOut

open Idealize.ShloMosaic Idealize.ShloMosaic.ValueIdx Cert.KernelIdeal Cert.KernelIdeal.Gen Cert.RowSpec Cert.LibConcatCols

/-- The output block at entry `(p, j)`, from the moved-state block `ns`, its quaternion columns `q` and their squares `q2`. -/
theorem out_apply (ns : FVec Ideal S1024x13 .f32) (q q2 : FVec Ideal S1024x4 .f32)
    (hq : ∀ (p : Fin 1024) (c : Fin 4), q (ix2 p c) = ns (ix2 p ⟨3 + c.val, by omega⟩))
    (hq2 : ∀ (p : Fin 1024) (c : Fin 4), q2 (ix2 p c) = q (ix2 p c) * q (ix2 p c)) (p : Fin 1024) (j : Fin 13) :
    k0_pay1 (F := Ideal) ns q q2 (ix2 p j) = normalized Z (fun j => ns (ix2 p j)) j := by
  unfold k0_pay1 normalized
  refine (concat3_apply (a := 3) (b := 4) (c := 6) (n := 13) rfl _ _ _ concatenates_S1024x3_S1024x4_S1024x6_S1024x13_d1 p j).trans ?_
  refine join3_congr (a := 3) (b := 4) (c := 6) (n := 13) rfl (fun k => ?_) (fun c => ?_) (fun k => ?_) j
  · exact slice2_axis1_apply 0 ns slices_S1024x13_o0_0_S1024x3 p k ⟨k.val, by omega⟩ (Nat.zero_add _).symm
  · show Ideal.div (q (ix2 p c)) (broadcastTo S1024x4 (addf (F := Ideal) (sqrt (shapeCast S1024x1
        (multiReduction (F := Ideal) .add [1] S1024 q2 0x00000000#32 reduces_S1024x4_S1024 (.inl rfl) rfl) shapeCasts_S1024_S1024x1))
        (broadcast S1024x1 (Scalar.ofBits .f32 0x322BCC77#32))) broadcasts_S1024x1_S1024x4 (ix2 p c)) = _
    rw [LibKeepdims.broadcastTo_a1_ab_apply]
    show Ideal.div (q (ix2 p c)) (Ideal.sqrt (shapeCast S1024x1
        (multiReduction (F := Ideal) .add [1] S1024 q2 0x00000000#32 reduces_S1024x4_S1024 (.inl rfl) rfl) shapeCasts_S1024_S1024x1
        (ix2 p (0 : Fin 1))) + eps) = _
    rw [LibKeepdims.keepdimsSum_apply, hq]
    unfold qden quat
    rw [Z_eq, zero_add]
    refine congrArg (fun t => Ideal.div _ (Ideal.sqrt t + eps)) ?_
    exact Finset.sum_congr rfl fun c' _ => by rw [hq2, hq]
  · exact slice2_axis1_apply 7 ns slices_S1024x13_o0_7_S1024x6 p k ⟨7 + k.val, by omega⟩ rfl

end Cert.KerOut

end
-- ==== Proof.KerBlock.lean ====
/-
  One block of 1024 rows through the whole kernel body, read at an entry.

  Row p of the output block is the row map of the specification applied to row p of the state block and of the
  action block, with the weights and biases read off the resident blocks (a bias is the one row of a `[1, h]`
  block, the residual weight the one entry of a `[1, 1]` block) and the sensor weights from the expanded squared
  distance. A difference from the float zero is a negation, because the float zero is the real 0.
-/
import proofs.«178626_j68238440398979_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«178626_j68238440398979_1_alg».proof.Proof.LibMatmul2D
import proofs.«178626_j68238440398979_1_alg».proof.Proof.LibKeepdims
import proofs.«178626_j68238440398979_1_alg».proof.Proof.LibConcatCols
import proofs.«178626_j68238440398979_1_alg».proof.Proof.RowSpec
import proofs.«178626_j68238440398979_1_alg».proof.Proof.KerWeights
import proofs.«178626_j68238440398979_1_alg».proof.Proof.KerEnc
import proofs.«178626_j68238440398979_1_alg».proof.Proof.KerLayers
import proofs.«178626_j68238440398979_1_alg».proof.Proof.KerOut

noncomputable section

namespace Cert.KerBlock

open Idealize.ShloMosaic Idealize.ShloMosaic.ValueIdx Cert.KernelIdeal Cert.KernelIdeal.Gen Cert.RowSpec Cert.LibConcatCols Cert.KerWeights Cert.KerEnc Cert.KerLayers Cert.KerOut

/-- The network's weights read off the resident blocks. -/
def blockNet (x3 : Vec Ideal S544x1024 .bf16) (x4 : Vec Ideal S1x1024 .f32) (x5 : Vec Ideal S1024x512 .bf16) (x6 : Vec Ideal S1x512 .f32)
    (x7 : Vec Ideal S512x256 .bf16) (x8 : Vec Ideal S1x256 .f32) (x9 : Vec Ideal S3x256 .bf16) (x10 : Vec Ideal S1x256 .f32)
    (x11 : Vec Ideal S256x256 .bf16) (x12 : Vec Ideal S1x256 .f32) (x13 : Vec Ideal S3x128 .bf16) (x14 : Vec Ideal S1x128 .f32)
    (x15 : Vec Ideal S128x13 .bf16) (x16 : Vec Ideal S1x13 .f32) (x17 : Vec Ideal S256x13 .bf16) (x18 : Vec Ideal S1x13 .f32)
    (x19 : Vec Ideal S1x1 .f32) : Net where
  bw1 k n := x3 (ix2 k n)
  bb1 n := x4 (ix2 (0 : Fin 1) n)
  bw2 k n := x5 (ix2 k n)
  bb2 n := x6 (ix2 (0 : Fin 1) n)
  bw3 k n := x7 (ix2 k n)
  bb3 n := x8 (ix2 (0 : Fin 1) n)
  tw1 k n := x9 (ix2 k n)
  tb1 n := x10 (ix2 (0 : Fin 1) n)
  tw2 k n := x11 (ix2 k n)
  tb2 n := x12 (ix2 (0 : Fin 1) n)
  qw1 k n := x13 (ix2 k n)
  qb1 n := x14 (ix2 (0 : Fin 1) n)
  qw2 k n := x15 (ix2 k n)
  qb2 n := x16 (ix2 (0 : Fin 1) n)
  pw k n := x17 (ix2 k n)
  pb n := x18 (ix2 (0 : Fin 1) n)
  rw := x19 (ix2 (0 : Fin 1) (0 : Fin 1))

/-- The value the body stores, from the input blocks. -/
def blockOut (x0 : Vec Ideal S1024x13 .f32) (x1 : Vec Ideal S1024x4 .f32) (x2 : Vec Ideal S32x3 .f32)
    (x3 : Vec Ideal S544x1024 .bf16) (x4 : Vec Ideal S1x1024 .f32) (x5 : Vec Ideal S1024x512 .bf16) (x6 : Vec Ideal S1x512 .f32)
    (x7 : Vec Ideal S512x256 .bf16) (x8 : Vec Ideal S1x256 .f32) (x9 : Vec Ideal S3x256 .bf16) (x10 : Vec Ideal S1x256 .f32)
    (x11 : Vec Ideal S256x256 .bf16) (x12 : Vec Ideal S1x256 .f32) (x13 : Vec Ideal S3x128 .bf16) (x14 : Vec Ideal S1x128 .f32)
    (x15 : Vec Ideal S128x13 .bf16) (x16 : Vec Ideal S1x13 .f32) (x17 : Vec Ideal S256x13 .bf16) (x18 : Vec Ideal S1x13 .f32)
    (x19 : Vec Ideal S1x1 .f32) : FVec Ideal S1024x13 .f32 :=
  k0_pay1 (k0_pay40 x0 (k0_pay3 x0) (k0_pay37 (encBlock x0 x1 x2) x3 x4 x5 x6 x7 x8) (k0_pay38 (k0_pay3 x0) x9 x10) (k0_pay39 x11) (constant S1024x256 .f32 0x00000000#32) x12 x17 x18 x13 x14 x15 x16 x19)
    (k0_pay41 x0 (k0_pay3 x0) (k0_pay37 (encBlock x0 x1 x2) x3 x4 x5 x6 x7 x8) (k0_pay38 (k0_pay3 x0) x9 x10) (k0_pay39 x11) (constant S1024x256 .f32 0x00000000#32) x12 x17 x18 x13 x14 x15 x16 x19)
    (k0_pay42 x0 (k0_pay3 x0) (k0_pay37 (encBlock x0 x1 x2) x3 x4 x5 x6 x7 x8) (k0_pay38 (k0_pay3 x0) x9 x10) (k0_pay39 x11) (constant S1024x256 .f32 0x00000000#32) x12 x17 x18 x13 x14 x15 x16 x19)

/-- The weight of (row p, sensor s) of a block, in the specification's words. -/
theorem wgt_spec (x0 : Vec Ideal S1024x13 .f32) (x2 : Vec Ideal S32x3 .f32) (p : Fin 1024) (s : Fin 32) :
    k0_pay4 (F := Ideal) x0 x2 (ix2 p s)
      = wgtOf (dist2Expand (pos fun j => x0 (ix2 p j)) (fun s k => x2 (ix2 s k)) s) := by
  rw [wgt_apply]
  unfold wgtOf
  rw [Z_eq, zero_sub]
  rfl

/-- Entry (p, j) of the stored block. -/
theorem block_apply (x0 : Vec Ideal S1024x13 .f32) (x1 : Vec Ideal S1024x4 .f32) (x2 : Vec Ideal S32x3 .f32)
    (x3 : Vec Ideal S544x1024 .bf16) (x4 : Vec Ideal S1x1024 .f32) (x5 : Vec Ideal S1024x512 .bf16) (x6 : Vec Ideal S1x512 .f32)
    (x7 : Vec Ideal S512x256 .bf16) (x8 : Vec Ideal S1x256 .f32) (x9 : Vec Ideal S3x256 .bf16) (x10 : Vec Ideal S1x256 .f32)
    (x11 : Vec Ideal S256x256 .bf16) (x12 : Vec Ideal S1x256 .f32) (x13 : Vec Ideal S3x128 .bf16) (x14 : Vec Ideal S1x128 .f32)
    (x15 : Vec Ideal S128x13 .bf16) (x16 : Vec Ideal S1x13 .f32) (x17 : Vec Ideal S256x13 .bf16) (x18 : Vec Ideal S1x13 .f32)
    (x19 : Vec Ideal S1x1 .f32) (p : Fin 1024) (j : Fin 13) :
    blockOut x0 x1 x2 x3 x4 x5 x6 x7 x8 x9 x10 x11 x12 x13 x14 x15 x16 x17 x18 x19 (ix2 p j)
      = normalized Z (moved (blockNet x3 x4 x5 x6 x7 x8 x9 x10 x11 x12 x13 x14 x15 x16 x17 x18 x19) (fun j => x0 (ix2 p j))
          (enc (fun j => x0 (ix2 p j)) (fun j => x1 (ix2 p j))
            (fun s => wgtOf (dist2Expand (pos fun j => x0 (ix2 p j)) (fun s k => x2 (ix2 s k)) s)))) j := by
  have hpos : ∀ k : Fin 3, k0_pay3 (F := Ideal) x0 (ix2 p k) = pos (fun j => x0 (ix2 p j)) k := fun k => pos_apply x0 p k
  have henc : ∀ k : Fin 544, encBlock x0 x1 x2 (ix2 p k)
      = enc (fun j => x0 (ix2 p j)) (fun j => x1 (ix2 p j))
          (fun s => wgtOf (dist2Expand (pos fun j => x0 (ix2 p j)) (fun s k => x2 (ix2 s k)) s)) k := fun k => by
    rw [enc_row, show (fun s => k0_pay4 (F := Ideal) x0 x2 (ix2 p s)) = _ from funext fun s => wgt_spec x0 x2 p s]
  unfold blockOut
  refine (out_apply _ _ _ (fun p c => ?_) (fun p c => rfl) p j).trans ?_
  · unfold k0_pay41
    exact slice2_axis1_apply 3 _ slices_S1024x13_o0_3_S1024x4 p c ⟨3 + c.val, by omega⟩ rfl
  · refine congrArg (fun f => normalized Z f j) (funext fun j' => ?_)
    rw [moved_apply]
    unfold moved
    refine congrArg₂ (fun a b => x0 (ix2 p j') + x19 (ix2 (0 : Fin 1) (0 : Fin 1)) * (a + b)) ?_ ?_
    · refine dense_congr _ _ _ fun n => ?_
      refine congrArg₂ (· * ·) ?_ ?_
      · rw [branch_apply]
        unfold branch
        refine dense_congr _ _ _ fun n1 => ?_
        refine congrArg (fun t => max t Z) ?_
        refine dense_congr _ _ _ fun n2 => ?_
        refine congrArg (fun t => max t Z) ?_
        exact dense_congr _ _ _ henc
      · unfold trunk
        refine congrArg Ideal.tanh ?_
        refine dense_congr _ _ _ fun n1 => ?_
        rw [trunk1_apply]
        refine congrArg Ideal.tanh ?_
        exact dense_congr _ _ _ hpos
    · unfold biasNet
      refine dense_congr _ _ _ fun n => ?_
      refine congrArg (fun t => max t Z) ?_
      exact dense_congr _ _ _ hpos

end Cert.KerBlock

end
-- ==== Proof.KerFinal.lean ====
/-
  From the blocks to the whole result array of the kernel.

  The grid has 128 points; point t stages rows 1024 t .. 1024 t + 1023 of the state and action arrays, the whole of every
  other operand (the sensor table, the weight matrices in their narrower float format, the biases as one-row arrays, the
  residual weight as a one-entry array), and writes rows 1024 t .. 1024 t + 1023 of the result. A change of float format
  is the identity on the extended reals and a bias laid out as a row reads as the bias, so every block entry is an entry
  of an argument array; the 128 row bands tile the result, which therefore ends holding the specification's array.
-/
import proofs.«178626_j68238440398979_1_alg».proof.Proof.ValueKernelIdealP
import Idealize.ShloMosaic.Lib.StableHlo.Run
import Idealize.ShloMosaic.Lib.ValueLayout
import proofs.«178626_j68238440398979_1_alg».proof.Proof.KerBlock
import proofs.«178626_j68238440398979_1_alg».proof.Proof.RowResult

noncomputable section

namespace Cert.KerFinal

open Cert.KernelIdeal Cert.KernelIdeal.Gen Cert.KernelIdeal.GenP Idealize.ShloMosaic Idealize.ShloMosaic.TcCoe Idealize.SL.Sem Idealize.ShloMosaic.StableHlo
open Idealize.ShloMosaic.ValueIdx Cert.RowSpec Cert.KerBlock
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The array the result ends holding: the specification's array of the argument arrays, with the expanded squared distance. -/
def result (c : Dev nD) : S131072x13.Idx → EReal :=
  resultArray dist2Expand Z (m ((c : Thread nD τ).loc main_arg0)) (m ((c : Thread nD τ).loc main_arg1)) (m ((c : Thread nD τ).loc main_arg2))
    (netOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)))

/-- The state, action and result windows move down the rows with the grid point. -/
theorem idx_moving : ∀ t : Fin cfg0.N, win0_0.index t (0 : Fin 2) = t.val ∧ win0_0.index t (1 : Fin 2) = 0
    ∧ win0_1.index t (0 : Fin 2) = t.val ∧ win0_1.index t (1 : Fin 2) = 0
    ∧ win0_20.index t (0 : Fin 2) = t.val ∧ win0_20.index t (1 : Fin 2) = 0 :=
  (by decide +kernel : ∀ t : Fin grid0.N, _)

/-- Every other window stays at block (0, 0). -/
theorem idx_resident : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0
    ∧ win0_17.index t (0 : Fin 2) = 0 ∧ win0_17.index t (1 : Fin 2) = 0
    ∧ win0_18.index t (0 : Fin 2) = 0 ∧ win0_18.index t (1 : Fin 2) = 0
    ∧ win0_19.index t (0 : Fin 2) = 0 ∧ win0_19.index t (1 : Fin 2) = 0 :=
  (by decide +kernel : ∀ t : Fin grid0.N, _)

/-! ## The arrays the region finds: the host's casts and reshapes of the arguments -/

theorem V_w3 (c : Dev nD) : (V m c main_v0 : S544x1024.Idx → EReal) = (truncf .bf16 (m ((c : Thread nD τ).loc main_arg3) : FVec Ideal S544x1024 .f32) bitsLt_bf16_f32 : FVec Ideal S544x1024 .bf16) := by
  dsimp only [GenP.V, Gen.hostOps0]; after_results; all_goals rfl

theorem V_w4 (c : Dev nD) : (V m c main_v8 : S1x1024.Idx → EReal) = (shapeCast S1x1024 (m ((c : Thread nD τ).loc main_arg4) : FVec Ideal S1024 .f32) shapeCasts_S1024_S1x1024 : FVec Ideal S1x1024 .f32) := by
  dsimp only [GenP.V, Gen.hostOps0]; after_results; all_goals rfl

theorem V_w5 (c : Dev nD) : (V m c main_v1 : S1024x512.Idx → EReal) = (truncf .bf16 (m ((c : Thread nD τ).loc main_arg5) : FVec Ideal S1024x512 .f32) bitsLt_bf16_f32 : FVec Ideal S1024x512 .bf16) := by
  dsimp only [GenP.V, Gen.hostOps0]; after_results; all_goals rfl

theorem V_w6 (c : Dev nD) : (V m c main_v9 : S1x512.Idx → EReal) = (shapeCast S1x512 (m ((c : Thread nD τ).loc main_arg6) : FVec Ideal S512 .f32) shapeCasts_S512_S1x512 : FVec Ideal S1x512 .f32) := by
  dsimp only [GenP.V, Gen.hostOps0]; after_results; all_goals rfl

theorem V_w7 (c : Dev nD) : (V m c main_v2 : S512x256.Idx → EReal) = (truncf .bf16 (m ((c : Thread nD τ).loc main_arg7) : FVec Ideal S512x256 .f32) bitsLt_bf16_f32 : FVec Ideal S512x256 .bf16) := by
  dsimp only [GenP.V, Gen.hostOps0]; after_results; all_goals rfl

theorem V_w8 (c : Dev nD) : (V m c main_v10 : S1x256.Idx → EReal) = (shapeCast S1x256 (m ((c : Thread nD τ).loc main_arg8) : FVec Ideal S256 .f32) shapeCasts_S256_S1x256 : FVec Ideal S1x256 .f32) := by
  dsimp only [GenP.V, Gen.hostOps0]; after_results; all_goals rfl

theorem V_w9 (c : Dev nD) : (V m c main_v3 : S3x256.Idx → EReal) = (truncf .bf16 (m ((c : Thread nD τ).loc main_arg9) : FVec Ideal S3x256 .f32) bitsLt_bf16_f32 : FVec Ideal S3x256 .bf16) := by
  dsimp only [GenP.V, Gen.hostOps0]; after_results; all_goals rfl

theorem V_w10 (c : Dev nD) : (V m c main_v11 : S1x256.Idx → EReal) = (shapeCast S1x256 (m ((c : Thread nD τ).loc main_arg10) : FVec Ideal S256 .f32) shapeCasts_S256_S1x256 : FVec Ideal S1x256 .f32) := by
  dsimp only [GenP.V, Gen.hostOps0]; after_results; all_goals rfl

theorem V_w11 (c : Dev nD) : (V m c main_v4 : S256x256.Idx → EReal) = (truncf .bf16 (m ((c : Thread nD τ).loc main_arg11) : FVec Ideal S256x256 .f32) bitsLt_bf16_f32 : FVec Ideal S256x256 .bf16) := by
  dsimp only [GenP.V, Gen.hostOps0]; after_results; all_goals rfl

theorem V_w12 (c : Dev nD) : (V m c main_v12 : S1x256.Idx → EReal) = (shapeCast S1x256 (m ((c : Thread nD τ).loc main_arg12) : FVec Ideal S256 .f32) shapeCasts_S256_S1x256 : FVec Ideal S1x256 .f32) := by
  dsimp only [GenP.V, Gen.hostOps0]; after_results; all_goals rfl

theorem V_w13 (c : Dev nD) : (V m c main_v5 : S3x128.Idx → EReal) = (truncf .bf16 (m ((c : Thread nD τ).loc main_arg13) : FVec Ideal S3x128 .f32) bitsLt_bf16_f32 : FVec Ideal S3x128 .bf16) := by
  dsimp only [GenP.V, Gen.hostOps0]; after_results; all_goals rfl

theorem V_w14 (c : Dev nD) : (V m c main_v13 : S1x128.Idx → EReal) = (shapeCast S1x128 (m ((c : Thread nD τ).loc main_arg14) : FVec Ideal S128 .f32) shapeCasts_S128_S1x128 : FVec Ideal S1x128 .f32) := by
  dsimp only [GenP.V, Gen.hostOps0]; after_results; all_goals rfl

theorem V_w15 (c : Dev nD) : (V m c main_v6 : S128x13.Idx → EReal) = (truncf .bf16 (m ((c : Thread nD τ).loc main_arg15) : FVec Ideal S128x13 .f32) bitsLt_bf16_f32 : FVec Ideal S128x13 .bf16) := by
  dsimp only [GenP.V, Gen.hostOps0]; after_results; all_goals rfl

theorem V_w16 (c : Dev nD) : (V m c main_v14 : S1x13.Idx → EReal) = (shapeCast S1x13 (m ((c : Thread nD τ).loc main_arg16) : FVec Ideal S13 .f32) shapeCasts_S13_S1x13 : FVec Ideal S1x13 .f32) := by
  dsimp only [GenP.V, Gen.hostOps0]; after_results; all_goals rfl

theorem V_w17 (c : Dev nD) : (V m c main_v7 : S256x13.Idx → EReal) = (truncf .bf16 (m ((c : Thread nD τ).loc main_arg17) : FVec Ideal S256x13 .f32) bitsLt_bf16_f32 : FVec Ideal S256x13 .bf16) := by
  dsimp only [GenP.V, Gen.hostOps0]; after_results; all_goals rfl

theorem V_w18 (c : Dev nD) : (V m c main_v15 : S1x13.Idx → EReal) = (shapeCast S1x13 (m ((c : Thread nD τ).loc main_arg18) : FVec Ideal S13 .f32) shapeCasts_S13_S1x13 : FVec Ideal S1x13 .f32) := by
  dsimp only [GenP.V, Gen.hostOps0]; after_results; all_goals rfl

theorem V_w19 (c : Dev nD) : (V m c main_v16 : S1x1.Idx → EReal) = (shapeCast S1x1 (m ((c : Thread nD τ).loc main_arg19) : FVec Ideal S_ .f32) shapeCasts_S_S1x1 : FVec Ideal S1x1 .f32) := by
  dsimp only [GenP.V, Gen.hostOps0]; after_results; all_goals rfl

/-! ## The blocks, entry by entry -/

/-- Row p of the state block at point t is row 1024 t + p of the state array. -/
theorem blk0 (c : Dev nD) (t : Fin cfg0.N) (p : Fin 1024) (j : Fin 13) :
    iblk m c 0 t (ix2 p j) = (m ((c : Thread nD τ).loc main_arg0)) (ix2 (⟨t.val * 1024 + p.val, by have ht : t.val < 128 := t.isLt; have := p.isLt; show _ < 131072; omega⟩ : Fin 131072) j) := by
  obtain ⟨e0, e1, -, -, -, -⟩ := idx_moving t
  have hemb : ((cfg0.win 0).blk t).view.emb (ix2 p j)
      = (ix2 (⟨t.val * 1024 + p.val, by have ht : t.val < 128 := t.isLt; have := p.isLt; show _ < 131072; omega⟩ : Fin 131072) j : S131072x13.Idx) := by
    funext ax; apply Fin.ext
    match ax with
    | ⟨0, _⟩ => show win0_0.index t (0 : Fin 2) * 1024 + 1 * p.val = t.val * 1024 + p.val; omega
    | ⟨1, _⟩ => show win0_0.index t (1 : Fin 2) * 13 + 1 * j.val = j.val; omega
  refine (congrArg (V m c main_arg0) hemb).trans ?_
  exact congrFun (V_main_arg0 m c) _

/-- Row p of the action block at point t is row 1024 t + p of the action array. -/
theorem blk1 (c : Dev nD) (t : Fin cfg0.N) (p : Fin 1024) (j : Fin 4) :
    iblk m c 1 t (ix2 p j) = (m ((c : Thread nD τ).loc main_arg1)) (ix2 (⟨t.val * 1024 + p.val, by have ht : t.val < 128 := t.isLt; have := p.isLt; show _ < 131072; omega⟩ : Fin 131072) j) := by
  obtain ⟨-, -, e0, e1, -, -⟩ := idx_moving t
  have hemb : ((cfg0.win 1).blk t).view.emb (ix2 p j)
      = (ix2 (⟨t.val * 1024 + p.val, by have ht : t.val < 128 := t.isLt; have := p.isLt; show _ < 131072; omega⟩ : Fin 131072) j : S131072x4.Idx) := by
    funext ax; apply Fin.ext
    match ax with
    | ⟨0, _⟩ => show win0_1.index t (0 : Fin 2) * 1024 + 1 * p.val = t.val * 1024 + p.val; omega
    | ⟨1, _⟩ => show win0_1.index t (1 : Fin 2) * 4 + 1 * j.val = j.val; omega
  refine (congrArg (V m c main_arg1) hemb).trans ?_
  exact congrFun (V_main_arg1 m c) _

/-- Resident window 2: its one block is its whole array. -/
theorem blk2 (c : Dev nD) (t : Fin cfg0.N) (a : Fin 32) (b : Fin 3) :
    iblk m c 2 t (ix2 a b) = (m ((c : Thread nD τ).loc main_arg2)) (ix2 a b) := by
  have e := idx_resident t
  have hemb : ((cfg0.win 2).blk t).view.emb (ix2 a b) = (ix2 a b : S32x3.Idx) := by
    funext ax; apply Fin.ext
    match ax with
    | ⟨0, _⟩ => show win0_2.index t (0 : Fin 2) * 32 + 1 * a.val = a.val; omega
    | ⟨1, _⟩ => show win0_2.index t (1 : Fin 2) * 3 + 1 * b.val = b.val; omega
  refine (congrArg (V m c main_arg2) hemb).trans ?_
  exact congrFun (V_main_arg2 m c) _

/-- Resident window 3: its one block is its whole array. -/
theorem blk3 (c : Dev nD) (t : Fin cfg0.N) (a : Fin 544) (b : Fin 1024) :
    iblk m c 3 t (ix2 a b) = (m ((c : Thread nD τ).loc main_arg3)) (ix2 a b) := by
  have e := idx_resident t
  have hemb : ((cfg0.win 3).blk t).view.emb (ix2 a b) = (ix2 a b : S544x1024.Idx) := by
    funext ax; apply Fin.ext
    match ax with
    | ⟨0, _⟩ => show win0_3.index t (0 : Fin 2) * 544 + 1 * a.val = a.val; omega
    | ⟨1, _⟩ => show win0_3.index t (1 : Fin 2) * 1024 + 1 * b.val = b.val; omega
  refine (congrArg (V m c main_v0) hemb).trans ?_
  exact congrFun (V_w3 m c) _

/-- Resident window 4: its one block is its whole array. -/
theorem blk4 (c : Dev nD) (t : Fin cfg0.N) (a : Fin 1) (b : Fin 1024) :
    iblk m c 4 t (ix2 a b) = (m ((c : Thread nD τ).loc main_arg4)) (ix1 b) := by
  have e := idx_resident t
  have hemb : ((cfg0.win 4).blk t).view.emb (ix2 a b) = (ix2 a b : S1x1024.Idx) := by
    funext ax; apply Fin.ext
    match ax with
    | ⟨0, _⟩ => show win0_4.index t (0 : Fin 2) * 1 + 1 * a.val = a.val; omega
    | ⟨1, _⟩ => show win0_4.index t (1 : Fin 2) * 1024 + 1 * b.val = b.val; omega
  refine (congrArg (V m c main_v8) hemb).trans ?_
  exact (congrFun (V_w4 m c) _).trans (shapeCast_a_1a_apply _ shapeCasts_S1024_S1x1024 a b)

/-- Resident window 5: its one block is its whole array. -/
theorem blk5 (c : Dev nD) (t : Fin cfg0.N) (a : Fin 1024) (b : Fin 512) :
    iblk m c 5 t (ix2 a b) = (m ((c : Thread nD τ).loc main_arg5)) (ix2 a b) := by
  have e := idx_resident t
  have hemb : ((cfg0.win 5).blk t).view.emb (ix2 a b) = (ix2 a b : S1024x512.Idx) := by
    funext ax; apply Fin.ext
    match ax with
    | ⟨0, _⟩ => show win0_5.index t (0 : Fin 2) * 1024 + 1 * a.val = a.val; omega
    | ⟨1, _⟩ => show win0_5.index t (1 : Fin 2) * 512 + 1 * b.val = b.val; omega
  refine (congrArg (V m c main_v1) hemb).trans ?_
  exact congrFun (V_w5 m c) _

/-- Resident window 6: its one block is its whole array. -/
theorem blk6 (c : Dev nD) (t : Fin cfg0.N) (a : Fin 1) (b : Fin 512) :
    iblk m c 6 t (ix2 a b) = (m ((c : Thread nD τ).loc main_arg6)) (ix1 b) := by
  have e := idx_resident t
  have hemb : ((cfg0.win 6).blk t).view.emb (ix2 a b) = (ix2 a b : S1x512.Idx) := by
    funext ax; apply Fin.ext
    match ax with
    | ⟨0, _⟩ => show win0_6.index t (0 : Fin 2) * 1 + 1 * a.val = a.val; omega
    | ⟨1, _⟩ => show win0_6.index t (1 : Fin 2) * 512 + 1 * b.val = b.val; omega
  refine (congrArg (V m c main_v9) hemb).trans ?_
  exact (congrFun (V_w6 m c) _).trans (shapeCast_a_1a_apply _ shapeCasts_S512_S1x512 a b)

/-- Resident window 7: its one block is its whole array. -/
theorem blk7 (c : Dev nD) (t : Fin cfg0.N) (a : Fin 512) (b : Fin 256) :
    iblk m c 7 t (ix2 a b) = (m ((c : Thread nD τ).loc main_arg7)) (ix2 a b) := by
  have e := idx_resident t
  have hemb : ((cfg0.win 7).blk t).view.emb (ix2 a b) = (ix2 a b : S512x256.Idx) := by
    funext ax; apply Fin.ext
    match ax with
    | ⟨0, _⟩ => show win0_7.index t (0 : Fin 2) * 512 + 1 * a.val = a.val; omega
    | ⟨1, _⟩ => show win0_7.index t (1 : Fin 2) * 256 + 1 * b.val = b.val; omega
  refine (congrArg (V m c main_v2) hemb).trans ?_
  exact congrFun (V_w7 m c) _

/-- Resident window 8: its one block is its whole array. -/
theorem blk8 (c : Dev nD) (t : Fin cfg0.N) (a : Fin 1) (b : Fin 256) :
    iblk m c 8 t (ix2 a b) = (m ((c : Thread nD τ).loc main_arg8)) (ix1 b) := by
  have e := idx_resident t
  have hemb : ((cfg0.win 8).blk t).view.emb (ix2 a b) = (ix2 a b : S1x256.Idx) := by
    funext ax; apply Fin.ext
    match ax with
    | ⟨0, _⟩ => show win0_8.index t (0 : Fin 2) * 1 + 1 * a.val = a.val; omega
    | ⟨1, _⟩ => show win0_8.index t (1 : Fin 2) * 256 + 1 * b.val = b.val; omega
  refine (congrArg (V m c main_v10) hemb).trans ?_
  exact (congrFun (V_w8 m c) _).trans (shapeCast_a_1a_apply _ shapeCasts_S256_S1x256 a b)

/-- Resident window 9: its one block is its whole array. -/
theorem blk9 (c : Dev nD) (t : Fin cfg0.N) (a : Fin 3) (b : Fin 256) :
    iblk m c 9 t (ix2 a b) = (m ((c : Thread nD τ).loc main_arg9)) (ix2 a b) := by
  have e := idx_resident t
  have hemb : ((cfg0.win 9).blk t).view.emb (ix2 a b) = (ix2 a b : S3x256.Idx) := by
    funext ax; apply Fin.ext
    match ax with
    | ⟨0, _⟩ => show win0_9.index t (0 : Fin 2) * 3 + 1 * a.val = a.val; omega
    | ⟨1, _⟩ => show win0_9.index t (1 : Fin 2) * 256 + 1 * b.val = b.val; omega
  refine (congrArg (V m c main_v3) hemb).trans ?_
  exact congrFun (V_w9 m c) _

/-- Resident window 10: its one block is its whole array. -/
theorem blk10 (c : Dev nD) (t : Fin cfg0.N) (a : Fin 1) (b : Fin 256) :
    iblk m c 10 t (ix2 a b) = (m ((c : Thread nD τ).loc main_arg10)) (ix1 b) := by
  have e := idx_resident t
  have hemb : ((cfg0.win 10).blk t).view.emb (ix2 a b) = (ix2 a b : S1x256.Idx) := by
    funext ax; apply Fin.ext
    match ax with
    | ⟨0, _⟩ => show win0_10.index t (0 : Fin 2) * 1 + 1 * a.val = a.val; omega
    | ⟨1, _⟩ => show win0_10.index t (1 : Fin 2) * 256 + 1 * b.val = b.val; omega
  refine (congrArg (V m c main_v11) hemb).trans ?_
  exact (congrFun (V_w10 m c) _).trans (shapeCast_a_1a_apply _ shapeCasts_S256_S1x256 a b)

/-- Resident window 11: its one block is its whole array. -/
theorem blk11 (c : Dev nD) (t : Fin cfg0.N) (a : Fin 256) (b : Fin 256) :
    iblk m c 11 t (ix2 a b) = (m ((c : Thread nD τ).loc main_arg11)) (ix2 a b) := by
  have e := idx_resident t
  have hemb : ((cfg0.win 11).blk t).view.emb (ix2 a b) = (ix2 a b : S256x256.Idx) := by
    funext ax; apply Fin.ext
    match ax with
    | ⟨0, _⟩ => show win0_11.index t (0 : Fin 2) * 256 + 1 * a.val = a.val; omega
    | ⟨1, _⟩ => show win0_11.index t (1 : Fin 2) * 256 + 1 * b.val = b.val; omega
  refine (congrArg (V m c main_v4) hemb).trans ?_
  exact congrFun (V_w11 m c) _

/-- Resident window 12: its one block is its whole array. -/
theorem blk12 (c : Dev nD) (t : Fin cfg0.N) (a : Fin 1) (b : Fin 256) :
    iblk m c 12 t (ix2 a b) = (m ((c : Thread nD τ).loc main_arg12)) (ix1 b) := by
  have e := idx_resident t
  have hemb : ((cfg0.win 12).blk t).view.emb (ix2 a b) = (ix2 a b : S1x256.Idx) := by
    funext ax; apply Fin.ext
    match ax with
    | ⟨0, _⟩ => show win0_12.index t (0 : Fin 2) * 1 + 1 * a.val = a.val; omega
    | ⟨1, _⟩ => show win0_12.index t (1 : Fin 2) * 256 + 1 * b.val = b.val; omega
  refine (congrArg (V m c main_v12) hemb).trans ?_
  exact (congrFun (V_w12 m c) _).trans (shapeCast_a_1a_apply _ shapeCasts_S256_S1x256 a b)

/-- Resident window 13: its one block is its whole array. -/
theorem blk13 (c : Dev nD) (t : Fin cfg0.N) (a : Fin 3) (b : Fin 128) :
    iblk m c 13 t (ix2 a b) = (m ((c : Thread nD τ).loc main_arg13)) (ix2 a b) := by
  have e := idx_resident t
  have hemb : ((cfg0.win 13).blk t).view.emb (ix2 a b) = (ix2 a b : S3x128.Idx) := by
    funext ax; apply Fin.ext
    match ax with
    | ⟨0, _⟩ => show win0_13.index t (0 : Fin 2) * 3 + 1 * a.val = a.val; omega
    | ⟨1, _⟩ => show win0_13.index t (1 : Fin 2) * 128 + 1 * b.val = b.val; omega
  refine (congrArg (V m c main_v5) hemb).trans ?_
  exact congrFun (V_w13 m c) _

/-- Resident window 14: its one block is its whole array. -/
theorem blk14 (c : Dev nD) (t : Fin cfg0.N) (a : Fin 1) (b : Fin 128) :
    iblk m c 14 t (ix2 a b) = (m ((c : Thread nD τ).loc main_arg14)) (ix1 b) := by
  have e := idx_resident t
  have hemb : ((cfg0.win 14).blk t).view.emb (ix2 a b) = (ix2 a b : S1x128.Idx) := by
    funext ax; apply Fin.ext
    match ax with
    | ⟨0, _⟩ => show win0_14.index t (0 : Fin 2) * 1 + 1 * a.val = a.val; omega
    | ⟨1, _⟩ => show win0_14.index t (1 : Fin 2) * 128 + 1 * b.val = b.val; omega
  refine (congrArg (V m c main_v13) hemb).trans ?_
  exact (congrFun (V_w14 m c) _).trans (shapeCast_a_1a_apply _ shapeCasts_S128_S1x128 a b)

/-- Resident window 15: its one block is its whole array. -/
theorem blk15 (c : Dev nD) (t : Fin cfg0.N) (a : Fin 128) (b : Fin 13) :
    iblk m c 15 t (ix2 a b) = (m ((c : Thread nD τ).loc main_arg15)) (ix2 a b) := by
  have e := idx_resident t
  have hemb : ((cfg0.win 15).blk t).view.emb (ix2 a b) = (ix2 a b : S128x13.Idx) := by
    funext ax; apply Fin.ext
    match ax with
    | ⟨0, _⟩ => show win0_15.index t (0 : Fin 2) * 128 + 1 * a.val = a.val; omega
    | ⟨1, _⟩ => show win0_15.index t (1 : Fin 2) * 13 + 1 * b.val = b.val; omega
  refine (congrArg (V m c main_v6) hemb).trans ?_
  exact congrFun (V_w15 m c) _

/-- Resident window 16: its one block is its whole array. -/
theorem blk16 (c : Dev nD) (t : Fin cfg0.N) (a : Fin 1) (b : Fin 13) :
    iblk m c 16 t (ix2 a b) = (m ((c : Thread nD τ).loc main_arg16)) (ix1 b) := by
  have e := idx_resident t
  have hemb : ((cfg0.win 16).blk t).view.emb (ix2 a b) = (ix2 a b : S1x13.Idx) := by
    funext ax; apply Fin.ext
    match ax with
    | ⟨0, _⟩ => show win0_16.index t (0 : Fin 2) * 1 + 1 * a.val = a.val; omega
    | ⟨1, _⟩ => show win0_16.index t (1 : Fin 2) * 13 + 1 * b.val = b.val; omega
  refine (congrArg (V m c main_v14) hemb).trans ?_
  exact (congrFun (V_w16 m c) _).trans (shapeCast_a_1a_apply _ shapeCasts_S13_S1x13 a b)

/-- Resident window 17: its one block is its whole array. -/
theorem blk17 (c : Dev nD) (t : Fin cfg0.N) (a : Fin 256) (b : Fin 13) :
    iblk m c 17 t (ix2 a b) = (m ((c : Thread nD τ).loc main_arg17)) (ix2 a b) := by
  have e := idx_resident t
  have hemb : ((cfg0.win 17).blk t).view.emb (ix2 a b) = (ix2 a b : S256x13.Idx) := by
    funext ax; apply Fin.ext
    match ax with
    | ⟨0, _⟩ => show win0_17.index t (0 : Fin 2) * 256 + 1 * a.val = a.val; omega
    | ⟨1, _⟩ => show win0_17.index t (1 : Fin 2) * 13 + 1 * b.val = b.val; omega
  refine (congrArg (V m c main_v7) hemb).trans ?_
  exact congrFun (V_w17 m c) _

/-- Resident window 18: its one block is its whole array. -/
theorem blk18 (c : Dev nD) (t : Fin cfg0.N) (a : Fin 1) (b : Fin 13) :
    iblk m c 18 t (ix2 a b) = (m ((c : Thread nD τ).loc main_arg18)) (ix1 b) := by
  have e := idx_resident t
  have hemb : ((cfg0.win 18).blk t).view.emb (ix2 a b) = (ix2 a b : S1x13.Idx) := by
    funext ax; apply Fin.ext
    match ax with
    | ⟨0, _⟩ => show win0_18.index t (0 : Fin 2) * 1 + 1 * a.val = a.val; omega
    | ⟨1, _⟩ => show win0_18.index t (1 : Fin 2) * 13 + 1 * b.val = b.val; omega
  refine (congrArg (V m c main_v15) hemb).trans ?_
  exact (congrFun (V_w18 m c) _).trans (shapeCast_a_1a_apply _ shapeCasts_S13_S1x13 a b)

/-- Resident window 19: its one block is its whole array. -/
theorem blk19 (c : Dev nD) (t : Fin cfg0.N) (a : Fin 1) (b : Fin 1) :
    iblk m c 19 t (ix2 a b) = (m ((c : Thread nD τ).loc main_arg19)) ix0 := by
  have e := idx_resident t
  have hemb : ((cfg0.win 19).blk t).view.emb (ix2 a b) = (ix2 a b : S1x1.Idx) := by
    funext ax; apply Fin.ext
    match ax with
    | ⟨0, _⟩ => show win0_19.index t (0 : Fin 2) * 1 + 1 * a.val = a.val; omega
    | ⟨1, _⟩ => show win0_19.index t (1 : Fin 2) * 1 + 1 * b.val = b.val; omega
  refine (congrArg (V m c main_v16) hemb).trans ?_
  exact (congrFun (V_w19 m c) _).trans (congrArg (m ((c : Thread nD τ).loc main_arg19)) (eq_ix0 _))

/-- The network read off the resident blocks is the network read off the argument arrays. -/
theorem net_eq (c : Dev nD) (t : Fin cfg0.N) :
    blockNet (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) = netOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  unfold blockNet netOf
  congr 1
  · funext k n; exact blk3 m c t k n
  · funext n; exact blk4 m c t 0 n
  · funext k n; exact blk5 m c t k n
  · funext n; exact blk6 m c t 0 n
  · funext k n; exact blk7 m c t k n
  · funext n; exact blk8 m c t 0 n
  · funext k n; exact blk9 m c t k n
  · funext n; exact blk10 m c t 0 n
  · funext k n; exact blk11 m c t k n
  · funext n; exact blk12 m c t 0 n
  · funext k n; exact blk13 m c t k n
  · funext n; exact blk14 m c t 0 n
  · funext k n; exact blk15 m c t k n
  · funext n; exact blk16 m c t 0 n
  · funext k n; exact blk17 m c t k n
  · funext n; exact blk18 m c t 0 n

/-! ## What a point writes back, the cover, the whole array -/

/-- Point t writes back block t of the result array. -/
theorem flushed_eq (c : Dev nD) (t : Fin cfg0.N) :
    (dats m 0 c).flushed 20 t = ((cfg0.win 20).blk t).view.read (Elt Ideal) (result m c) := by
  rw [Cert.KernelIdeal.ValueP.flushed20]
  unfold out0_20
  rw [View.canon_unit_zero hz]
  simp only [View.ld_unit_zero (S := S1024x13) hz, View.ld_unit_zero (S := S1024x4) hz, View.ld_unit_zero (S := S32x3) hz, View.ld_unit_zero (S := S544x1024) hz, View.ld_unit_zero (S := S1x1024) hz, View.ld_unit_zero (S := S1024x512) hz, View.ld_unit_zero (S := S1x512) hz, View.ld_unit_zero (S := S512x256) hz, View.ld_unit_zero (S := S1x256) hz, View.ld_unit_zero (S := S3x256) hz, View.ld_unit_zero (S := S256x256) hz, View.ld_unit_zero (S := S3x128) hz, View.ld_unit_zero (S := S1x128) hz, View.ld_unit_zero (S := S128x13) hz, View.ld_unit_zero (S := S1x13) hz, View.ld_unit_zero (S := S256x13) hz, View.ld_unit_zero (S := S1x1) hz]
  funext y
  obtain ⟨p, q, rfl⟩ : ∃ (p : Fin 1024) (q : Fin 13), y = ix2 p q := ⟨y 0, y 1, eq_ix2 y⟩
  obtain ⟨-, -, -, -, e0, e1⟩ := idx_moving t
  have hemb : ((cfg0.win 20).blk t).view.emb (ix2 p q)
      = (ix2 (⟨t.val * 1024 + p.val, by have ht : t.val < 128 := t.isLt; have := p.isLt; show _ < 131072; omega⟩ : Fin 131072) q : S131072x13.Idx) := by
    funext ax; apply Fin.ext
    match ax with
    | ⟨0, _⟩ => show win0_20.index t (0 : Fin 2) * 1024 + 1 * p.val = t.val * 1024 + p.val; omega
    | ⟨1, _⟩ => show win0_20.index t (1 : Fin 2) * 13 + 1 * q.val = q.val; omega
  show blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 p q) = result m c (((cfg0.win 20).blk t).view.emb (ix2 p q))
  refine (block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p q).trans ?_
  refine Eq.trans ?_ (congrArg (result m c) hemb).symm
  exact rowResult_congr dist2Expand Z (net_eq m c t) (funext fun j => blk0 m c t p j) (funext fun j => blk1 m c t p j)
    (funext fun s => funext fun k => blk2 m c t s k) q

/-- The result array after the run: every index lies in the block of the point its row band names, so the 128 blocks
    cover the array and it ends holding the specification's array. -/
theorem final (c : Dev nD) : (dats m 0 c).arrAt 20 cfg0.N = result m c :=
  (dats m 0 c).arrAt_eq_of_cover 20 (result m c) (fun t _ => flushed_eq m c t) fun i => by
    have hi0 : (i 0 : Nat) < 131072 := (i 0).isLt
    have hi1 : (i 1 : Nat) < 13 := (i 1).isLt
    have ht0 : (i 0 : Nat) / 1024 < cfg0.N := by show _ < 128; omega
    obtain ⟨-, -, -, -, e0, e1⟩ := idx_moving ⟨(i 0 : Nat) / 1024, ht0⟩
    refine ⟨⟨(i 0 : Nat) / 1024, ht0⟩, flush0_20 _, ?_⟩
    show i ∈ ((View.whole main_v17).slice (win0_20.rect ⟨(i 0 : Nat) / 1024, ht0⟩)).set
    rw [View.set_slice_whole, Rect.mem_set_unit]
    intro a
    match a with
    | ⟨0, _⟩ =>
      show win0_20.index ⟨(i 0 : Nat) / 1024, ht0⟩ (0 : Fin 2) * 1024 ≤ (i 0 : Nat)
        ∧ (i 0 : Nat) < win0_20.index ⟨(i 0 : Nat) / 1024, ht0⟩ (0 : Fin 2) * 1024 + 1024
      rw [e0]
      show (i 0 : Nat) / 1024 * 1024 ≤ (i 0 : Nat) ∧ (i 0 : Nat) < (i 0 : Nat) / 1024 * 1024 + 1024
      omega
    | ⟨1, _⟩ =>
      show win0_20.index ⟨(i 0 : Nat) / 1024, ht0⟩ (1 : Fin 2) * 13 ≤ (i 1 : Nat)
        ∧ (i 1 : Nat) < win0_20.index ⟨(i 0 : Nat) / 1024, ht0⟩ (1 : Fin 2) * 13 + 13
      rw [e1]
      omega

end Cert.KerFinal

end
-- ==== Proof.RefDense.lean ====
/-
  A dense layer read off a contraction, and the rows the network passes through, named.

  A contraction read at row `b`, column `n` as the sum over `k` of the left array at (b, k) times the weights at (k, n),
  plus the bias at `n`, is the dense layer of row `b` of the left array. The rows below are the stages of the
  network for one batch row, written with the weight arrays themselves; `movedOf_eq` says they are the
  specification's rows for the network read off those arrays.
-/
import proofs.«178626_j68238440398979_1_alg».proof.Proof.RowSpec

noncomputable section

namespace Cert.RefRows

open Idealize.ShloMosaic Idealize.ShloMosaic.ValueIdx Cert.RowSpec

/-- A weight array read as a matrix, a bias array read as a vector. -/
abbrev mat {m h : ℕ} (W : (⟨2, ![m, h]⟩ : Shape).Idx → EReal) : Fin m → Fin h → EReal := fun k n => W (ix2 k n)
abbrev vec {h : ℕ} (v : (⟨1, ![h]⟩ : Shape).Idx → EReal) : Fin h → EReal := fun n => v (ix1 n)

/-- The sum over `k` of the left array at (b, k) times the weights at (k, n), plus the bias at `n`: the dense layer. -/
theorem dense_of_reads {R m h : ℕ} (l : (⟨2, ![R, m]⟩ : Shape).Idx → EReal) (W : (⟨2, ![m, h]⟩ : Shape).Idx → EReal)
    (bv : (⟨1, ![h]⟩ : Shape).Idx → EReal) (row : Fin m → EReal) (b : Fin R) (n : Fin h)
    (lidx : Fin m → (⟨2, ![R, m]⟩ : Shape).Idx) (ridx : Fin m → (⟨2, ![m, h]⟩ : Shape).Idx)
    (bidx : (⟨1, ![h]⟩ : Shape).Idx)
    (hl : ∀ k, lidx k = ix2 b k) (hr : ∀ k, ridx k = ix2 k n) (hb : bidx = ix1 n) (hrow : ∀ k, l (ix2 b k) = row k) :
    (∑ k : Fin m, l (lidx k) * W (ridx k)) + bv bidx = dense row (mat W) (vec bv) n := by
  unfold dense
  rw [hb]
  refine congrArg (· + bv (ix1 n)) (Finset.sum_congr rfl fun k _ => ?_)
  rw [hl k, hr k, hrow k]

section Rows

variable (x0 : (⟨2, ![131072, 13]⟩ : Shape).Idx → EReal) (x1 : (⟨2, ![131072, 4]⟩ : Shape).Idx → EReal)
  (x2 : (⟨2, ![32, 3]⟩ : Shape).Idx → EReal)
  (x3 : (⟨2, ![544, 1024]⟩ : Shape).Idx → EReal) (x4 : (⟨1, ![1024]⟩ : Shape).Idx → EReal)
  (x5 : (⟨2, ![1024, 512]⟩ : Shape).Idx → EReal) (x6 : (⟨1, ![512]⟩ : Shape).Idx → EReal)
  (x7 : (⟨2, ![512, 256]⟩ : Shape).Idx → EReal) (x8 : (⟨1, ![256]⟩ : Shape).Idx → EReal)
  (x9 : (⟨2, ![3, 256]⟩ : Shape).Idx → EReal) (x10 : (⟨1, ![256]⟩ : Shape).Idx → EReal)
  (x11 : (⟨2, ![256, 256]⟩ : Shape).Idx → EReal) (x12 : (⟨1, ![256]⟩ : Shape).Idx → EReal)
  (x13 : (⟨2, ![3, 128]⟩ : Shape).Idx → EReal) (x14 : (⟨1, ![128]⟩ : Shape).Idx → EReal)
  (x15 : (⟨2, ![128, 13]⟩ : Shape).Idx → EReal) (x16 : (⟨1, ![13]⟩ : Shape).Idx → EReal)
  (x17 : (⟨2, ![256, 13]⟩ : Shape).Idx → EReal) (x18 : (⟨1, ![13]⟩ : Shape).Idx → EReal)
  (x19 : (⟨0, ![]⟩ : Shape).Idx → EReal) (b : Fin 131072)

/-- The position of row `b`, and its encoding. -/
def posOf : Fin 3 → EReal := pos (stRow x0 b)
def encOf : Fin 544 → EReal :=
  enc (stRow x0 b) (acRow x1 b) (fun s => wgtOf (dist2Diff (pos (stRow x0 b)) (sensOf x2) s))

/-- The branch: two rectified dense layers and a third dense layer on the encoding. -/
def h1Of : Fin 1024 → EReal := fun n => max (dense (encOf x0 x1 x2 b) (mat x3) (vec x4) n) Z
def h2Of : Fin 512 → EReal := fun n => max (dense (h1Of x0 x1 x2 x3 x4 b) (mat x5) (vec x6) n) Z
def branchOf : Fin 256 → EReal := dense (h2Of x0 x1 x2 x3 x4 x5 x6 b) (mat x7) (vec x8)

/-- The trunk: two `tanh` dense layers on the position. -/
def t1Of : Fin 256 → EReal := fun n => Ideal.tanh (dense (posOf x0 b) (mat x9) (vec x10) n)
def trunkOf : Fin 256 → EReal := fun n => Ideal.tanh (dense (t1Of x0 x9 x10 b) (mat x11) (vec x12) n)

/-- The bias net: a rectified dense layer and a dense layer on the position. -/
def q1Of : Fin 128 → EReal := fun n => max (dense (posOf x0 b) (mat x13) (vec x14) n) Z
def biasOf : Fin 13 → EReal := dense (q1Of x0 x13 x14 b) (mat x15) (vec x16)

/-- The projected product of branch and trunk. -/
def projOf : Fin 13 → EReal :=
  dense (fun n => branchOf x0 x1 x2 x3 x4 x5 x6 x7 x8 b n * trunkOf x0 x9 x10 x11 x12 b n) (mat x17) (vec x18)

/-- The moved state of row `b`. -/
def movedOf : Fin 13 → EReal := fun j =>
  stRow x0 b j + x19 ix0 * (projOf x0 x1 x2 x3 x4 x5 x6 x7 x8 x9 x10 x11 x12 x17 x18 b j + biasOf x0 x13 x14 x15 x16 b j)

/-- The rows above are the specification's moved state for the network read off the arrays. -/
theorem movedOf_eq :
    movedOf x0 x1 x2 x3 x4 x5 x6 x7 x8 x9 x10 x11 x12 x13 x14 x15 x16 x17 x18 x19 b
      = moved (netOf x3 x4 x5 x6 x7 x8 x9 x10 x11 x12 x13 x14 x15 x16 x17 x18 x19) (stRow x0 b)
          (enc (stRow x0 b) (acRow x1 b) (fun s => wgtOf (dist2Diff (pos (stRow x0 b)) (sensOf x2) s))) := rfl

end Rows

end Cert.RefRows

end
-- ==== Proof.LibScatterSet.lean ====
/-
  A scatter whose combiner returns the update, read at an index.

  The host scatter walks the update indices in row-major order; update index `j` lands on the operand index
  `resultIdx? j` (or nowhere) and the combiner `f` merges the value there with the update. When `f` returns the
  update (`x.at[…].set(v)`) and exactly one update index lands on `i`, the result at `i` is that update
  (`scatter_set_apply`); when none does, it is the operand at `i` (`scatter_apply_of_miss`, any combiner).
  Both follow from two facts about a left fold of steps each of which, at a fixed place `i`, either overwrites
  the value (a hit) or leaves it (a miss): after a fold with no hit the place holds what it held, and after a
  fold whose hits all write one value it holds that value (`foldl_apply_of_miss`, `foldl_apply_of_hit`).

  Two windows met as zero padding, for any extents, with one start index (an index vector `[1]`) equal to zero:
  * a `[R, c]` block written into the leading columns of an `[R, C]` array (`scatter_colWindow_apply`: entry
    `(k, q)` of the result, `q < c`, is entry `(k, q)` of the block);
  * a `[c]` block written into the leading entries of a `[C]` vector (`scatter_vecWindow_apply`).
-/
import Idealize.ShloMosaic.Lib.ValueIdx
import Idealize.ShloMosaic.PureOps.Ideal

noncomputable section

namespace Idealize.ShloMosaic.ScatterSet

open Idealize.ShloMosaic Idealize.ShloMosaic.ValueIdx

/-! ## A left fold read at one place -/

section Fold

variable {ι κ α : Type} (step : (κ → α) → ι → (κ → α)) (hit : ι → Prop) (v : ι → α) (i : κ)

/-- After a fold none of whose steps hits the place `i`, the place holds what it held. -/
theorem foldl_apply_of_miss (hmiss : ∀ r n, ¬ hit n → step r n i = r i) :
    ∀ (l : List ι) (x : κ → α), (∀ n ∈ l, ¬ hit n) → l.foldl step x i = x i
  | [], _, _ => rfl
  | n :: t, x, h => by
    rw [List.foldl_cons, foldl_apply_of_miss hmiss t (step x n) (fun m hm => h m (List.mem_cons_of_mem _ hm)),
      hmiss x n (h n List.mem_cons_self)]

/-- After a fold one of whose steps hits the place `i`, all hits writing one value, the place holds that value. -/
theorem foldl_apply_of_hit (hhit : ∀ r n, hit n → step r n i = v n) (hmiss : ∀ r n, ¬ hit n → step r n i = r i) :
    ∀ (l : List ι) (x : κ → α) (n₀ : ι), n₀ ∈ l → hit n₀ → (∀ n ∈ l, hit n → v n = v n₀) → l.foldl step x i = v n₀
  | [], _, _, h, _, _ => absurd h List.not_mem_nil
  | n :: t, x, n₀, hmem, hn₀, hall => by
    rw [List.foldl_cons]
    by_cases hex : ∃ m ∈ t, hit m
    · obtain ⟨m, hm, hhm⟩ := hex
      rw [← hall m (List.mem_cons_of_mem _ hm) hhm]
      exact foldl_apply_of_hit hhit hmiss t (step x n) m hm hhm (fun k hk hhk =>
        (hall k (List.mem_cons_of_mem _ hk) hhk).trans (hall m (List.mem_cons_of_mem _ hm) hhm).symm)
    · have hnone : ∀ m ∈ t, ¬ hit m := fun m hm hh => hex ⟨m, hm, hh⟩
      rw [foldl_apply_of_miss step hit i hmiss t (step x n) hnone]
      rcases List.mem_cons.mp hmem with rfl | h'
      · exact hhit x n₀ hn₀
      · exact absurd hn₀ (hnone n₀ h')

end Fold

/-! ## The scatter read at an index -/

section Scatter

variable {s si u : Shape} {w : Nat} {α : Type}

/-- One step of the scatter at the place `i`: a hit writes the combined value, a miss leaves the place. -/
theorem step_hit (d : ScatterDims s si u) (f : α → α → α) (idx : IVec si w) (upd : u.Idx → α) (i : s.Idx)
    (r : s.Idx → α) (n : Fin u.numel) (h : d.resultIdx? (u.rowMajor.symm n) idx = some i) :
    (match d.resultIdx? (u.rowMajor.symm n) idx with
      | some i0 => fun i' => if i' = i0 then f (r i0) (upd (u.rowMajor.symm n)) else r i'
      | none => r) i = f (r i) (upd (u.rowMajor.symm n)) := by
  rw [h]
  exact if_pos rfl

theorem step_miss (d : ScatterDims s si u) (f : α → α → α) (idx : IVec si w) (upd : u.Idx → α) (i : s.Idx)
    (r : s.Idx → α) (n : Fin u.numel) (h : ¬ d.resultIdx? (u.rowMajor.symm n) idx = some i) :
    (match d.resultIdx? (u.rowMajor.symm n) idx with
      | some i0 => fun i' => if i' = i0 then f (r i0) (upd (u.rowMajor.symm n)) else r i'
      | none => r) i = r i := by
  cases hres : d.resultIdx? (u.rowMajor.symm n) idx with
  | none => rfl
  | some i0 =>
    have hne : ¬ i = i0 := fun e => h (by rw [hres, e])
    exact if_neg hne

/-- Where no update lands, the scatter leaves the operand. -/
theorem scatter_apply_of_miss (d : ScatterDims s si u) (f : α → α → α) (x : s.Idx → α) (idx : IVec si w)
    (upd : u.Idx → α) (i : s.Idx) (hnone : ∀ j, ¬ d.resultIdx? j idx = some i) :
    Host.scatter d f x idx upd i = x i := by
  unfold Host.scatter
  exact foldl_apply_of_miss _ (fun n => d.resultIdx? (u.rowMajor.symm n) idx = some i) i
    (fun r n h => step_miss d f idx upd i r n h) _ x (fun n _ => hnone _)

/-- Where exactly one update lands, a scatter whose combiner returns the update holds that update. -/
theorem scatter_set_apply (d : ScatterDims s si u) (f : α → α → α) (hf : ∀ a b, f a b = b) (x : s.Idx → α)
    (idx : IVec si w) (upd : u.Idx → α) (i : s.Idx) (j : u.Idx) (hj : d.resultIdx? j idx = some i)
    (huniq : ∀ j', d.resultIdx? j' idx = some i → j' = j) : Host.scatter d f x idx upd i = upd j := by
  unfold Host.scatter
  have key := foldl_apply_of_hit
    (fun (r : s.Idx → α) (n : Fin u.numel) =>
      match d.resultIdx? (u.rowMajor.symm n) idx with
      | some i0 => fun i' => if i' = i0 then f (r i0) (upd (u.rowMajor.symm n)) else r i'
      | none => r)
    (fun n => d.resultIdx? (u.rowMajor.symm n) idx = some i) (fun n => upd (u.rowMajor.symm n)) i
    (fun r n h => (step_hit d f idx upd i r n h).trans (hf _ _))
    (fun r n h => step_miss d f idx upd i r n h)
    (List.finRange u.numel) x (u.rowMajor j) (List.mem_finRange _)
    (by rw [Equiv.symm_apply_apply]; exact hj)
    (fun n _ hn => by rw [huniq _ hn, Equiv.symm_apply_apply])
  rw [Equiv.symm_apply_apply] at key
  exact key

end Scatter

/-! ## Two zero-padding windows -/

section Windows

variable {R C c w : Nat} {α : Type}

/-- An axis is among the kept ones exactly when it is not among the removed ones. -/
theorem mem_kept_iff {s : Shape} (axes : List (Fin s.rank)) (a : Fin s.rank) : a ∈ s.kept axes ↔ a ∉ axes := by
  simp [Shape.kept, List.mem_filter, List.mem_finRange]

/-- The dimension numbers of a scatter of one `[R, c]` block into an `[R, C]` array at the column the single start
    index names: both update axes are window axes, nothing is inserted. -/
abbrev colWindowDims (R C c : Nat) (wf : ScatterDims.WF ⟨2, ![R, C]⟩ ⟨1, ![1]⟩ ⟨2, ![R, c]⟩ [0, 1] [] [1] 0) :
    ScatterDims ⟨2, ![R, C]⟩ ⟨1, ![1]⟩ ⟨2, ![R, c]⟩ where
  updateWindowDims := [0, 1]
  insertedWindowDims := []
  scatterDimsToOperandDims := [1]
  indexVectorDim := 0
  wf := wf

/-- The dimension numbers of a scatter of one `[c]` block into a `[C]` vector at the entry the single start index
    names. -/
abbrev vecWindowDims (C c : Nat) (wf : ScatterDims.WF ⟨1, ![C]⟩ ⟨1, ![1]⟩ ⟨1, ![c]⟩ [0] [] [0] 0) :
    ScatterDims ⟨1, ![C]⟩ ⟨1, ![1]⟩ ⟨1, ![c]⟩ where
  updateWindowDims := [0]
  insertedWindowDims := []
  scatterDimsToOperandDims := [0]
  indexVectorDim := 0
  wf := wf

/-- With the start index zero, entry `(k, q)` of the block lands on entry `(k, q)` of the array. -/
theorem colWindow_resultIdx? (wf : ScatterDims.WF ⟨2, ![R, C]⟩ ⟨1, ![1]⟩ ⟨2, ![R, c]⟩ [0, 1] [] [1] 0)
    (idx : IVec ⟨1, ![1]⟩ w) (h0 : (idx (ix1 (0 : Fin 1))).toInt = 0) (hc : c ≤ C) (k : Fin R) (q : Fin c) :
    (colWindowDims R C c wf).resultIdx? (ix2 k q) idx
      = some (ix2 k (⟨q.val, lt_of_lt_of_le q.isLt hc⟩ : Fin C)) := by
  have m0 : (⟨0, by omega⟩ : Fin 2) ∉ (colWindowDims R C c wf).scatterDimsToOperandDims := fun h =>
    absurd (congrArg Fin.val (List.mem_singleton.mp h)) Nat.zero_ne_one
  have m1 : (⟨1, by omega⟩ : Fin 2) ∈ (colWindowDims R C c wf).scatterDimsToOperandDims := List.mem_singleton.mpr rfl
  have hs0 : (colWindowDims R C c wf).start (ix2 k q) idx (⟨0, by omega⟩ : Fin 2) = 0 := by
    unfold ScatterDims.start
    rw [dif_neg m0]
  have hs1 : (colWindowDims R C c wf).start (ix2 k q) idx (⟨1, by omega⟩ : Fin 2) = 0 := by
    unfold ScatterDims.start
    rw [dif_pos m1]
    have hsi : (colWindowDims R C c wf).siIdx (ix2 k q)
        ⟨List.idxOf (⟨1, by omega⟩ : Fin 2) (colWindowDims R C c wf).scatterDimsToOperandDims,
          List.idxOf_lt_length_iff.2 m1⟩ = ix1 (0 : Fin 1) := by
      funext b; refine Fin.ext ?_
      match b with
      | ⟨0, _⟩ => rfl
    rw [hsi, h0]
  have hw0 : (colWindowDims R C c wf).window (ix2 k q) (⟨0, by omega⟩ : Fin 2) = k.val := by
    unfold ScatterDims.window
    rw [dif_pos ((mem_kept_iff _ _).mpr List.not_mem_nil)]
    rfl
  have hw1 : (colWindowDims R C c wf).window (ix2 k q) (⟨1, by omega⟩ : Fin 2) = q.val := by
    unfold ScatterDims.window
    rw [dif_pos ((mem_kept_iff _ _).mpr List.not_mem_nil)]
    rfl
  have hall : ∀ a, 0 ≤ (colWindowDims R C c wf).start (ix2 k q) idx a + (colWindowDims R C c wf).window (ix2 k q) a ∧
      (colWindowDims R C c wf).start (ix2 k q) idx a + (colWindowDims R C c wf).window (ix2 k q) a
        < (⟨2, ![R, C]⟩ : Shape).size a := by
    intro a
    match a with
    | ⟨0, _⟩ =>
      rw [hs0, hw0]
      have := k.isLt
      show 0 ≤ (0 : Int) + (k.val : Int) ∧ (0 : Int) + (k.val : Int) < (R : Int)
      omega
    | ⟨1, _⟩ =>
      rw [hs1, hw1]
      have := q.isLt
      show 0 ≤ (0 : Int) + (q.val : Int) ∧ (0 : Int) + (q.val : Int) < (C : Int)
      omega
  unfold ScatterDims.resultIdx?
  rw [dif_pos hall]
  show some _ = some _
  congr 1
  funext a
  refine Fin.ext ?_
  match a with
  | ⟨0, p0⟩ =>
    show ((colWindowDims R C c wf).start (ix2 k q) idx ⟨0, p0⟩
      + (colWindowDims R C c wf).window (ix2 k q) ⟨0, p0⟩).toNat = k.val
    rw [hs0, hw0]
    simp
  | ⟨1, p1⟩ =>
    show ((colWindowDims R C c wf).start (ix2 k q) idx ⟨1, p1⟩
      + (colWindowDims R C c wf).window (ix2 k q) ⟨1, p1⟩).toNat = q.val
    rw [hs1, hw1]
    simp

/-- A `[R, c]` block set into the leading columns of an `[R, C]` array: entry `(k, q)`, `q < c`, of the result is
    entry `(k, q)` of the block. -/
theorem scatter_colWindow_apply (wf : ScatterDims.WF ⟨2, ![R, C]⟩ ⟨1, ![1]⟩ ⟨2, ![R, c]⟩ [0, 1] [] [1] 0)
    (f : α → α → α) (hf : ∀ a b, f a b = b) (x : (⟨2, ![R, C]⟩ : Shape).Idx → α) (idx : IVec ⟨1, ![1]⟩ w)
    (h0 : (idx (ix1 (0 : Fin 1))).toInt = 0) (hc : c ≤ C) (upd : (⟨2, ![R, c]⟩ : Shape).Idx → α) (k : Fin R) (q : Fin c) :
    Host.scatter (colWindowDims R C c wf) f x idx upd (ix2 k (⟨q.val, lt_of_lt_of_le q.isLt hc⟩ : Fin C))
      = upd (ix2 k q) := by
  refine scatter_set_apply _ f hf x idx upd _ (ix2 k q) (colWindow_resultIdx? wf idx h0 hc k q) ?_
  intro j' hj'
  obtain ⟨k', q', rfl⟩ : ∃ k' q', j' = ix2 k' q' := ⟨_, _, eq_ix2 j'⟩
  rw [colWindow_resultIdx? wf idx h0 hc k' q'] at hj'
  have hix := Option.some.inj hj'
  have e0 : k' = k := congrFun hix (⟨0, Nat.zero_lt_two⟩ : Fin 2)
  have e1 : (⟨q'.val, lt_of_lt_of_le q'.isLt hc⟩ : Fin C) = ⟨q.val, lt_of_lt_of_le q.isLt hc⟩ :=
    congrFun hix (⟨1, Nat.one_lt_two⟩ : Fin 2)
  have e1' : q' = q := Fin.ext (by have hv := congrArg Fin.val e1; exact hv)
  rw [e0, e1']

/-- With the start index zero, entry `q` of the block lands on entry `q` of the vector. -/
theorem vecWindow_resultIdx? (wf : ScatterDims.WF ⟨1, ![C]⟩ ⟨1, ![1]⟩ ⟨1, ![c]⟩ [0] [] [0] 0)
    (idx : IVec ⟨1, ![1]⟩ w) (h0 : (idx (ix1 (0 : Fin 1))).toInt = 0) (hc : c ≤ C) (q : Fin c) :
    (vecWindowDims C c wf).resultIdx? (ix1 q) idx = some (ix1 (⟨q.val, lt_of_lt_of_le q.isLt hc⟩ : Fin C)) := by
  have m0 : (⟨0, Nat.one_pos⟩ : Fin 1) ∈ (vecWindowDims C c wf).scatterDimsToOperandDims := List.mem_singleton.mpr rfl
  have hs0 : (vecWindowDims C c wf).start (ix1 q) idx (⟨0, Nat.one_pos⟩ : Fin 1) = 0 := by
    unfold ScatterDims.start
    rw [dif_pos m0]
    have hsi : (vecWindowDims C c wf).siIdx (ix1 q)
        ⟨List.idxOf (⟨0, Nat.one_pos⟩ : Fin 1) (vecWindowDims C c wf).scatterDimsToOperandDims,
          List.idxOf_lt_length_iff.2 m0⟩ = ix1 (0 : Fin 1) := by
      funext b; refine Fin.ext ?_
      match b with
      | ⟨0, _⟩ => rfl
    rw [hsi, h0]
  have hw0 : (vecWindowDims C c wf).window (ix1 q) (⟨0, Nat.one_pos⟩ : Fin 1) = q.val := by
    unfold ScatterDims.window
    rw [dif_pos ((mem_kept_iff _ _).mpr List.not_mem_nil)]
    rfl
  have hall : ∀ a, 0 ≤ (vecWindowDims C c wf).start (ix1 q) idx a + (vecWindowDims C c wf).window (ix1 q) a ∧
      (vecWindowDims C c wf).start (ix1 q) idx a + (vecWindowDims C c wf).window (ix1 q) a
        < (⟨1, ![C]⟩ : Shape).size a := by
    intro a
    match a with
    | ⟨0, _⟩ =>
      rw [hs0, hw0]
      have := q.isLt
      show 0 ≤ (0 : Int) + (q.val : Int) ∧ (0 : Int) + (q.val : Int) < (C : Int)
      omega
  unfold ScatterDims.resultIdx?
  rw [dif_pos hall]
  show some _ = some _
  congr 1
  funext a
  refine Fin.ext ?_
  match a with
  | ⟨0, p0⟩ =>
    show ((vecWindowDims C c wf).start (ix1 q) idx ⟨0, p0⟩
      + (vecWindowDims C c wf).window (ix1 q) ⟨0, p0⟩).toNat = q.val
    rw [hs0, hw0]
    simp

/-- A `[c]` block set into the leading entries of a `[C]` vector: entry `q < c` of the result is entry `q` of the
    block. -/
theorem scatter_vecWindow_apply (wf : ScatterDims.WF ⟨1, ![C]⟩ ⟨1, ![1]⟩ ⟨1, ![c]⟩ [0] [] [0] 0)
    (f : α → α → α) (hf : ∀ a b, f a b = b) (x : (⟨1, ![C]⟩ : Shape).Idx → α) (idx : IVec ⟨1, ![1]⟩ w)
    (h0 : (idx (ix1 (0 : Fin 1))).toInt = 0) (hc : c ≤ C) (upd : (⟨1, ![c]⟩ : Shape).Idx → α) (q : Fin c) :
    Host.scatter (vecWindowDims C c wf) f x idx upd (ix1 (⟨q.val, lt_of_lt_of_le q.isLt hc⟩ : Fin C))
      = upd (ix1 q) := by
  refine scatter_set_apply _ f hf x idx upd _ (ix1 q) (vecWindow_resultIdx? wf idx h0 hc q) ?_
  intro j' hj'
  obtain ⟨q', rfl⟩ : ∃ q', j' = ix1 q' := ⟨_, eq_ix1 j'⟩
  rw [vecWindow_resultIdx? wf idx h0 hc q'] at hj'
  have hix := Option.some.inj hj'
  have e1 : (⟨q'.val, lt_of_lt_of_le q'.isLt hc⟩ : Fin C) = ⟨q.val, lt_of_lt_of_le q.isLt hc⟩ :=
    congrFun hix (⟨0, Nat.one_pos⟩ : Fin 1)
  have e1' : q' = q := Fin.ext (by have hv := congrArg Fin.val e1; exact hv)
  rw [e1']

end Windows

end Idealize.ShloMosaic.ScatterSet

end
-- ==== Proof.LibColWindowAt.lean ====
/-
  A block of columns set into an array at a column offset, read at an entry.

  A scatter with one start index `o` writes the `[R, c]` block into columns `o .. o + c - 1` of the `[R, C]` array:
  update entry `(k, q)` lands on entry `(k, o + q)`. So the result at `(k, o + q)` is the block's entry `(k, q)`, and
  at a column below `o` or from `o + c` on it is the array's own entry. Over any extents.
-/
import Idealize.ShloMosaic.Lib.ValueIdx
import Idealize.ShloMosaic.PureOps.Ideal
import proofs.«178626_j68238440398979_1_alg».proof.Proof.LibScatterSet

noncomputable section

namespace Cert.RefRows

open Idealize.ShloMosaic Idealize.ShloMosaic.ValueIdx Idealize.ShloMosaic.ScatterSet

variable {R C c w : Nat} {α : Type}

/-- With the start index `o`, entry `(k, q)` of the block lands on entry `(k, o + q)` of the array. -/
theorem colWindow_resultIdx?_at (wf : ScatterDims.WF ⟨2, ![R, C]⟩ ⟨1, ![1]⟩ ⟨2, ![R, c]⟩ [0, 1] [] [1] 0)
    (idx : IVec ⟨1, ![1]⟩ w) (o : Nat) (h0 : (idx (ix1 (0 : Fin 1))).toInt = (o : Int)) (hc : o + c ≤ C)
    (k : Fin R) (q : Fin c) :
    (colWindowDims R C c wf).resultIdx? (ix2 k q) idx
      = some (ix2 k (⟨o + q.val, by have := q.isLt; omega⟩ : Fin C)) := by
  have m0 : (⟨0, by omega⟩ : Fin 2) ∉ (colWindowDims R C c wf).scatterDimsToOperandDims := fun h =>
    absurd (congrArg Fin.val (List.mem_singleton.mp h)) Nat.zero_ne_one
  have m1 : (⟨1, by omega⟩ : Fin 2) ∈ (colWindowDims R C c wf).scatterDimsToOperandDims := List.mem_singleton.mpr rfl
  have hs0 : (colWindowDims R C c wf).start (ix2 k q) idx (⟨0, by omega⟩ : Fin 2) = 0 := by
    unfold ScatterDims.start
    rw [dif_neg m0]
  have hs1 : (colWindowDims R C c wf).start (ix2 k q) idx (⟨1, by omega⟩ : Fin 2) = (o : Int) := by
    unfold ScatterDims.start
    rw [dif_pos m1]
    have hsi : (colWindowDims R C c wf).siIdx (ix2 k q)
        ⟨List.idxOf (⟨1, by omega⟩ : Fin 2) (colWindowDims R C c wf).scatterDimsToOperandDims,
          List.idxOf_lt_length_iff.2 m1⟩ = ix1 (0 : Fin 1) := by
      funext b; refine Fin.ext ?_
      match b with
      | ⟨0, _⟩ => rfl
    rw [hsi, h0]
  have hw0 : (colWindowDims R C c wf).window (ix2 k q) (⟨0, by omega⟩ : Fin 2) = k.val := by
    unfold ScatterDims.window
    rw [dif_pos ((mem_kept_iff _ _).mpr List.not_mem_nil)]
    rfl
  have hw1 : (colWindowDims R C c wf).window (ix2 k q) (⟨1, by omega⟩ : Fin 2) = q.val := by
    unfold ScatterDims.window
    rw [dif_pos ((mem_kept_iff _ _).mpr List.not_mem_nil)]
    rfl
  have hall : ∀ a, 0 ≤ (colWindowDims R C c wf).start (ix2 k q) idx a + (colWindowDims R C c wf).window (ix2 k q) a ∧
      (colWindowDims R C c wf).start (ix2 k q) idx a + (colWindowDims R C c wf).window (ix2 k q) a
        < (⟨2, ![R, C]⟩ : Shape).size a := by
    intro a
    match a with
    | ⟨0, _⟩ =>
      rw [hs0, hw0]
      have := k.isLt
      show 0 ≤ (0 : Int) + (k.val : Int) ∧ (0 : Int) + (k.val : Int) < (R : Int)
      omega
    | ⟨1, _⟩ =>
      rw [hs1, hw1]
      have := q.isLt
      show 0 ≤ (o : Int) + (q.val : Int) ∧ (o : Int) + (q.val : Int) < (C : Int)
      omega
  unfold ScatterDims.resultIdx?
  rw [dif_pos hall]
  show some _ = some _
  congr 1
  funext a
  refine Fin.ext ?_
  match a with
  | ⟨0, p0⟩ =>
    show ((colWindowDims R C c wf).start (ix2 k q) idx ⟨0, p0⟩
      + (colWindowDims R C c wf).window (ix2 k q) ⟨0, p0⟩).toNat = k.val
    rw [hs0, hw0]
    simp
  | ⟨1, p1⟩ =>
    show ((colWindowDims R C c wf).start (ix2 k q) idx ⟨1, p1⟩
      + (colWindowDims R C c wf).window (ix2 k q) ⟨1, p1⟩).toNat = o + q.val
    rw [hs1, hw1]
    omega

/-- Inside the written columns: entry `(k, o + q)` of the result is entry `(k, q)` of the block. -/
theorem scatter_colWindow_at_hit (wf : ScatterDims.WF ⟨2, ![R, C]⟩ ⟨1, ![1]⟩ ⟨2, ![R, c]⟩ [0, 1] [] [1] 0)
    (f : α → α → α) (hf : ∀ a b, f a b = b) (x : (⟨2, ![R, C]⟩ : Shape).Idx → α) (idx : IVec ⟨1, ![1]⟩ w) (o : Nat)
    (h0 : (idx (ix1 (0 : Fin 1))).toInt = (o : Int)) (hc : o + c ≤ C) (upd : (⟨2, ![R, c]⟩ : Shape).Idx → α)
    (k : Fin R) (q : Fin c) (j : Fin C) (hj : j.val = o + q.val) :
    Host.scatter (colWindowDims R C c wf) f x idx upd (ix2 k j) = upd (ix2 k q) := by
  have ej : j = (⟨o + q.val, by have := q.isLt; omega⟩ : Fin C) := Fin.ext hj
  rw [ej]
  refine scatter_set_apply _ f hf x idx upd _ (ix2 k q) (colWindow_resultIdx?_at wf idx o h0 hc k q) ?_
  intro j' hj'
  obtain ⟨k', q', rfl⟩ : ∃ k' q', j' = ix2 k' q' := ⟨_, _, eq_ix2 j'⟩
  rw [colWindow_resultIdx?_at wf idx o h0 hc k' q'] at hj'
  have hix := Option.some.inj hj'
  have e0 : k' = k := congrFun hix (⟨0, Nat.zero_lt_two⟩ : Fin 2)
  have e1 : (⟨o + q'.val, by have := q'.isLt; omega⟩ : Fin C) = ⟨o + q.val, by have := q.isLt; omega⟩ :=
    congrFun hix (⟨1, Nat.one_lt_two⟩ : Fin 2)
  have e1' : q' = q := Fin.ext (by have hv : o + q'.val = o + q.val := congrArg Fin.val e1; omega)
  rw [e0, e1']

/-- Outside the written columns the result is the array's own entry. -/
theorem scatter_colWindow_at_miss (wf : ScatterDims.WF ⟨2, ![R, C]⟩ ⟨1, ![1]⟩ ⟨2, ![R, c]⟩ [0, 1] [] [1] 0)
    (f : α → α → α) (x : (⟨2, ![R, C]⟩ : Shape).Idx → α) (idx : IVec ⟨1, ![1]⟩ w) (o : Nat)
    (h0 : (idx (ix1 (0 : Fin 1))).toInt = (o : Int)) (hc : o + c ≤ C) (upd : (⟨2, ![R, c]⟩ : Shape).Idx → α)
    (k : Fin R) (j : Fin C) (hj : j.val < o ∨ o + c ≤ j.val) :
    Host.scatter (colWindowDims R C c wf) f x idx upd (ix2 k j) = x (ix2 k j) := by
  refine scatter_apply_of_miss _ f x idx upd _ ?_
  intro j' hj'
  obtain ⟨k', q', rfl⟩ : ∃ k' q', j' = ix2 k' q' := ⟨_, _, eq_ix2 j'⟩
  rw [colWindow_resultIdx?_at wf idx o h0 hc k' q'] at hj'
  have hix := Option.some.inj hj'
  have e1 : (⟨o + q'.val, by have := q'.isLt; omega⟩ : Fin C) = j := congrFun hix (⟨1, Nat.one_lt_two⟩ : Fin 2)
  have hv : o + q'.val = j.val := congrArg Fin.val e1
  have := q'.isLt
  omega

end Cert.RefRows

end
-- ==== Proof.RefWeight.lean ====
/-
  The sensor weights of a row, read off the reference entry by entry.

  For row `b` and sensor `s` the reference subtracts the row's position from the sensor's location coordinate by
  coordinate, squares, sums the three squares from zero, takes the square root, negates, divides by one half and
  exponentiates: the weight of the squared distance written as the sum of squared coordinate differences.
-/
import proofs.«178626_j68238440398979_1_alg».proof.Proof.Gen.ReferenceIdeal.Read
import proofs.«178626_j68238440398979_1_alg».proof.Proof.RowSpec

noncomputable section

namespace Cert.RefRows

open Idealize.ShloMosaic Idealize.ShloMosaic.ValueIdx Cert.ReferenceIdeal Cert.RowSpec

/-- The coordinate difference sensor minus position, at row `b`, sensor `s`, coordinate `k`. -/
theorem v5_at (x0 : (⟨S131072x13, .f32⟩ : BufTy).Contents (Elt Ideal)) (x2 : (⟨S32x3, .f32⟩ : BufTy).Contents (Elt Ideal))
    (b : Fin 131072) (s : Fin 32) (k : Fin 3) :
    Read.val_main_v5 (F := Ideal) x0 x2 (ix3 b s k) = sensOf x2 s k - pos (stRow x0 b) k := by
  rw [Read.val_main_v5_apply, Read.val_main_v3_apply, Read.val_main_v1_apply, Read.val_main_v4_apply,
    Read.val_main_v2_apply, Read.val_main_v0_apply]
  have e2 : Read.idx_main_v1 (Read.idx_main_v3 (ix3 b s k)) = ix2 s k := by
    funext a
    match a with
    | ⟨0, _⟩ => rfl
    | ⟨1, _⟩ => rfl
  have e0 : Read.idx_main_v0 (Read.idx_main_v2 (Read.idx_main_v4 (ix3 b s k)))
      = ix2 b (⟨k.val, by have := k.isLt; omega⟩ : Fin 13) := by
    funext a
    match a with
    | ⟨0, _⟩ => rfl
    | ⟨1, _⟩ => rfl
  rw [e2, e0]
  rfl

/-- The sum of the three squared differences from zero: the squared distance of row `b` to sensor `s`. -/
theorem call0_v1_at (x0 : (⟨S131072x13, .f32⟩ : BufTy).Contents (Elt Ideal)) (x2 : (⟨S32x3, .f32⟩ : BufTy).Contents (Elt Ideal))
    (b : Fin 131072) (s : Fin 32) :
    Read.val_main_call0_v1 (F := Ideal) x0 x2 (ix2 b s) = dist2Diff (pos (stRow x0 b)) (sensOf x2) s := by
  rw [Read.val_main_call0_v1_apply]
  unfold dist2Diff
  refine congrArg (_ + ·) (Finset.sum_congr rfl fun k _ => ?_)
  have e : Read.idx_main_call0_v1 (ix2 b s) k = ix3 b s k := by
    funext a
    match a with
    | ⟨0, _⟩ => rfl
    | ⟨1, _⟩ => rfl
    | ⟨2, _⟩ => rfl
  rw [e, Read.val_main_call0_v0_apply, v5_at]
  rfl

/-- The weight of row `b` for sensor `s`. -/
theorem v10_at (x0 : (⟨S131072x13, .f32⟩ : BufTy).Contents (Elt Ideal)) (x2 : (⟨S32x3, .f32⟩ : BufTy).Contents (Elt Ideal))
    (b : Fin 131072) (s : Fin 32) (z : Fin 1) :
    Read.val_main_v10 (F := Ideal) x0 x2 (ix3 b s z) = wgtOf (dist2Diff (pos (stRow x0 b)) (sensOf x2) s) := by
  rw [Read.val_main_v10_apply, Read.val_main_v9_apply, Read.val_main_v7_apply, Read.val_main_v6_apply,
    Read.val_main_call0_v2_apply, Read.val_main_v8_apply, Read.val_main_cst_apply]
  have e : Read.idx_main_call0_v2 (ix3 b s z) = ix2 b s := by
    funext a
    match a with
    | ⟨0, _⟩ => rfl
    | ⟨1, _⟩ => rfl
  rw [e, call0_v1_at]
  rfl

end Cert.RefRows

end
-- ==== Proof.LibConcatLast.lean ====
/-
  Arrays of rank three with the same two leading extents joined along the last axis, read at an entry on any element
  type.

  Two arrays [R, S, a] and [R, S, b] concatenated on axis 2 give [R, S, a + b]. The entry at (p, s, i) of the joined
  array is the entry at (p, s) of the piece whose span of the last axis holds i: the first piece at i when i < a, the
  second at i - a otherwise. With `join2` that choice for ONE row of the last axis, as a function of the row's entries
  in each piece, the row (p, s) of the joined array is `join2` of the two pieces' rows (p, s). Over any extents
  R, S, a, b.
-/
import Idealize.ShloMosaic.Lib.ValueIdx
import Idealize.ShloMosaic.Lib.Pipeline.Value
import proofs.«178626_j68238440398979_1_alg».proof.Proof.LibConcatCols

namespace Cert.RefRows

open Idealize.ShloMosaic Idealize.ShloMosaic.ValueIdx Cert.LibConcatCols

/-- Two arrays of R x S rows joined along the last axis, at entry (p, s, i): `join2` of the two pieces' rows (p, s). -/
theorem concat2_last_apply {α : Type} {R S a b n : ℕ} (hn : n = a + b) (x : (⟨3, ![R, S, a]⟩ : Shape).Idx → α)
    (y : (⟨3, ![R, S, b]⟩ : Shape).Idx → α)
    (h : Shape.Concatenates [(⟨3, ![R, S, a]⟩ : Shape), (⟨3, ![R, S, b]⟩ : Shape)] (⟨3, ![R, S, n]⟩ : Shape) 2)
    (p : Fin R) (s : Fin S) (i : Fin n) :
    concatenate (⟨3, ![R, S, n]⟩ : Shape) 2 [⟨(⟨3, ![R, S, a]⟩ : Shape), x⟩, ⟨(⟨3, ![R, S, b]⟩ : Shape), y⟩] h (ix3 p s i)
      = join2 hn (fun c => x (ix3 p s c)) (fun c => y (ix3 p s c)) i := by
  unfold join2
  split
  next hlt =>
    refine concatenate_apply_piece 2 [⟨(⟨3, ![R, S, a]⟩ : Shape), x⟩, ⟨(⟨3, ![R, S, b]⟩ : Shape), y⟩] h (ix3 p s i) 0 (by simp) _ x rfl rfl 0 rfl (ix3 p s ⟨i.val, hlt⟩) (fun ax hax => ?_) ?_
    · match ax with
      | ⟨0, _⟩ => rfl
      | ⟨1, _⟩ => rfl
      | ⟨2, _⟩ => exact absurd rfl hax
    · show 0 + i.val = i.val
      omega
  next hge =>
    have hi := i.isLt
    refine concatenate_apply_piece 2 [⟨(⟨3, ![R, S, a]⟩ : Shape), x⟩, ⟨(⟨3, ![R, S, b]⟩ : Shape), y⟩] h (ix3 p s i) 1 (by simp) _ y rfl rfl a ?_ (ix3 p s ⟨i.val - a, by omega⟩) (fun ax hax => ?_) ?_
    · show (if h' : (3 : ℕ) = 3 then a else 0) + 0 = a
      rw [dif_pos rfl, Nat.add_zero]
    · match ax with
      | ⟨0, _⟩ => rfl
      | ⟨1, _⟩ => rfl
      | ⟨2, _⟩ => exact absurd rfl hax
    · show a + (i.val - a) = i.val
      omega

end Cert.RefRows
-- ==== Proof.RefEnc.lean ====
/-
  The encoding of a row, read off the reference entry by entry.

  Two arrays [R, S, a] and [R, S, b] joined along the last axis give [R, S, a + b]; the entry at (p, s, i) is `join2` of
  the two pieces' rows (p, s). The reference joins, for every row and sensor, the 13 state entries and the 4 action
  entries, each times the sensor's weight, and flattens the 32 blocks of 17 into 544 entries: entry `k` of a row
  belongs to sensor `k / 17` and is column `k % 17` of that sensor's block.
-/
import proofs.«178626_j68238440398979_1_alg».proof.Proof.Gen.ReferenceIdeal.Read
import proofs.«178626_j68238440398979_1_alg».proof.Proof.RowSpec
import proofs.«178626_j68238440398979_1_alg».proof.Proof.RefWeight
import proofs.«178626_j68238440398979_1_alg».proof.Proof.LibConcatLast

noncomputable section

namespace Cert.RefRows

open Idealize.ShloMosaic Idealize.ShloMosaic.ValueIdx Cert.ReferenceIdeal Cert.RowSpec Cert.LibConcatCols

/-- A state entry times the sensor's weight, at row `b`, sensor `s`, column `c`. -/
theorem v14_at (x0 : (⟨S131072x13, .f32⟩ : BufTy).Contents (Elt Ideal)) (x2 : (⟨S32x3, .f32⟩ : BufTy).Contents (Elt Ideal))
    (b : Fin 131072) (s : Fin 32) (c : Fin 13) :
    Read.val_main_v14 (F := Ideal) x0 x2 (ix3 b s c)
      = stRow x0 b c * wgtOf (dist2Diff (pos (stRow x0 b)) (sensOf x2) s) := by
  rw [Read.val_main_v14_apply, Read.val_main_v12_apply, Read.val_main_v11_apply, Read.val_main_v13_apply]
  have e1 : Read.idx_main_v11 (Read.idx_main_v12 (ix3 b s c)) = ix2 b c := by
    funext a
    match a with
    | ⟨0, _⟩ => rfl
    | ⟨1, _⟩ => rfl
  have e2 : Read.idx_main_v13 (ix3 b s c) = ix3 b s (0 : Fin 1) := by
    funext a
    match a with
    | ⟨0, _⟩ => rfl
    | ⟨1, _⟩ => rfl
    | ⟨2, _⟩ => rfl
  rw [e1, e2, v10_at]
  rfl

/-- An action entry times the sensor's weight, at row `b`, sensor `s`, column `c`. -/
theorem v18_at (x0 : (⟨S131072x13, .f32⟩ : BufTy).Contents (Elt Ideal)) (x1 : (⟨S131072x4, .f32⟩ : BufTy).Contents (Elt Ideal))
    (x2 : (⟨S32x3, .f32⟩ : BufTy).Contents (Elt Ideal)) (b : Fin 131072) (s : Fin 32) (c : Fin 4) :
    Read.val_main_v18 (F := Ideal) x0 x1 x2 (ix3 b s c)
      = acRow x1 b c * wgtOf (dist2Diff (pos (stRow x0 b)) (sensOf x2) s) := by
  rw [Read.val_main_v18_apply, Read.val_main_v16_apply, Read.val_main_v15_apply, Read.val_main_v17_apply]
  have e1 : Read.idx_main_v15 (Read.idx_main_v16 (ix3 b s c)) = ix2 b c := by
    funext a
    match a with
    | ⟨0, _⟩ => rfl
    | ⟨1, _⟩ => rfl
  have e2 : Read.idx_main_v17 (ix3 b s c) = ix3 b s (0 : Fin 1) := by
    funext a
    match a with
    | ⟨0, _⟩ => rfl
    | ⟨1, _⟩ => rfl
    | ⟨2, _⟩ => rfl
  rw [e1, e2, v10_at]
  rfl

/-- The joined block of row `b` and sensor `s` at column `c`. -/
theorem v19_at (x0 : (⟨S131072x13, .f32⟩ : BufTy).Contents (Elt Ideal)) (x1 : (⟨S131072x4, .f32⟩ : BufTy).Contents (Elt Ideal))
    (x2 : (⟨S32x3, .f32⟩ : BufTy).Contents (Elt Ideal)) (b : Fin 131072) (s : Fin 32) (c : Fin 17) :
    Read.val_main_v19 (F := Ideal) x0 x1 x2 (ix3 b s c)
      = join2 (a := 13) (b := 4) (n := 17) rfl
          (fun c => stRow x0 b c * wgtOf (dist2Diff (pos (stRow x0 b)) (sensOf x2) s))
          (fun c => acRow x1 b c * wgtOf (dist2Diff (pos (stRow x0 b)) (sensOf x2) s)) c := by
  unfold Read.val_main_v19
  rw [concat2_last_apply (a := 13) (b := 4) (n := 17) rfl]
  exact join2_congr rfl (fun c => v14_at x0 x2 b s c) (fun c => v18_at x0 x1 x2 b s c) c

/-- The encoding of row `b` at entry `k`. -/
theorem v20_at (x0 : (⟨S131072x13, .f32⟩ : BufTy).Contents (Elt Ideal)) (x1 : (⟨S131072x4, .f32⟩ : BufTy).Contents (Elt Ideal))
    (x2 : (⟨S32x3, .f32⟩ : BufTy).Contents (Elt Ideal)) (b : Fin 131072) (k : Fin 544) :
    Read.val_main_v20 (F := Ideal) x0 x1 x2 (ix2 b k)
      = enc (stRow x0 b) (acRow x1 b) (fun s => wgtOf (dist2Diff (pos (stRow x0 b)) (sensOf x2) s)) k := by
  rw [Read.val_main_v20_apply]
  have hk := k.isLt
  have hb := b.isLt
  have e : Read.idx_main_v20 (ix2 b k)
      = ix3 b (⟨k.val / 17, by omega⟩ : Fin 32) (⟨k.val % 17, Nat.mod_lt _ (by decide)⟩ : Fin 17) := by
    funext a
    refine Fin.ext ?_
    match a with
    | ⟨0, _⟩ =>
      show (b.val * 544 + k.val) / 544 = b.val
      omega
    | ⟨1, _⟩ =>
      show (b.val * 544 + k.val) / 17 % 32 = k.val / 17
      omega
    | ⟨2, _⟩ =>
      show (b.val * 544 + k.val) % 17 = k.val % 17
      omega
  rw [e, v19_at]
  rfl

end Cert.RefRows

end
-- ==== Proof.RefBranch.lean ====
/-
  The branch features of a row, read off the reference layer by layer.

  Each layer is a contraction of the previous stage's row against a weight matrix plus the bias broadcast over the
  rows; the first two are rectified against a zero constant.
-/
import proofs.«178626_j68238440398979_1_alg».proof.Proof.Gen.ReferenceIdeal.Read
import proofs.«178626_j68238440398979_1_alg».proof.Proof.RowSpec
import proofs.«178626_j68238440398979_1_alg».proof.Proof.RefDense
import proofs.«178626_j68238440398979_1_alg».proof.Proof.RefEnc

noncomputable section

namespace Cert.RefRows

open Idealize.ShloMosaic Idealize.ShloMosaic.ValueIdx Cert.ReferenceIdeal Cert.RowSpec

/-- The first layer before rectifying, at row `b`, column `n`. -/
theorem v24_at
    (x0 : (⟨S131072x13, .f32⟩ : BufTy).Contents (Elt Ideal)) (x1 : (⟨S131072x4, .f32⟩ : BufTy).Contents (Elt Ideal))
    (x2 : (⟨S32x3, .f32⟩ : BufTy).Contents (Elt Ideal)) (x3 : (⟨S544x1024, .f32⟩ : BufTy).Contents (Elt Ideal))
    (x4 : (⟨S1024, .f32⟩ : BufTy).Contents (Elt Ideal))
    (b : Fin 131072) (n : Fin 1024) :
    Read.val_main_v24 (F := Ideal) x0 x1 x2 x3 x4 (ix2 b n) = dense (encOf x0 x1 x2 b) (mat x3) (vec x4) n := by
  rw [Read.val_main_v24_apply, Read.val_main_v21_apply, Read.val_main_v23_apply, Read.val_main_v22_apply]
  exact dense_of_reads (Read.val_main_v20 (F := Ideal) x0 x1 x2) x3 x4 (encOf x0 x1 x2 b) b n
    (Read.lidx_main_v21 (ix2 b n)) (Read.ridx_main_v21 (ix2 b n)) (Read.idx_main_v22 (Read.idx_main_v23 (ix2 b n)))
    (fun k => funext fun a => match a with | ⟨0, _⟩ => rfl | ⟨1, _⟩ => rfl)
    (fun k => funext fun a => match a with | ⟨0, _⟩ => rfl | ⟨1, _⟩ => rfl)
    (funext fun a => match a with | ⟨0, _⟩ => rfl)
    (fun k => v20_at x0 x1 x2 b k)

/-- The first layer, rectified. -/
theorem v25_at
    (x0 : (⟨S131072x13, .f32⟩ : BufTy).Contents (Elt Ideal)) (x1 : (⟨S131072x4, .f32⟩ : BufTy).Contents (Elt Ideal))
    (x2 : (⟨S32x3, .f32⟩ : BufTy).Contents (Elt Ideal)) (x3 : (⟨S544x1024, .f32⟩ : BufTy).Contents (Elt Ideal))
    (x4 : (⟨S1024, .f32⟩ : BufTy).Contents (Elt Ideal))
    (b : Fin 131072) (n : Fin 1024) :
    Read.val_main_v25 (F := Ideal) x0 x1 x2 x3 x4 (ix2 b n) = h1Of x0 x1 x2 x3 x4 b n := by
  rw [Read.val_main_v25_apply, v24_at, Read.val_main_call1_v0_apply, Read.val_main_call1_cst_apply]
  rfl

/-- The second layer before rectifying. -/
theorem v29_at
    (x0 : (⟨S131072x13, .f32⟩ : BufTy).Contents (Elt Ideal)) (x1 : (⟨S131072x4, .f32⟩ : BufTy).Contents (Elt Ideal))
    (x2 : (⟨S32x3, .f32⟩ : BufTy).Contents (Elt Ideal)) (x3 : (⟨S544x1024, .f32⟩ : BufTy).Contents (Elt Ideal))
    (x4 : (⟨S1024, .f32⟩ : BufTy).Contents (Elt Ideal)) (x5 : (⟨S1024x512, .f32⟩ : BufTy).Contents (Elt Ideal))
    (x6 : (⟨S512, .f32⟩ : BufTy).Contents (Elt Ideal))
    (b : Fin 131072) (n : Fin 512) :
    Read.val_main_v29 (F := Ideal) x0 x1 x2 x3 x4 x5 x6 (ix2 b n)
      = dense (h1Of x0 x1 x2 x3 x4 b) (mat x5) (vec x6) n := by
  rw [Read.val_main_v29_apply, Read.val_main_v26_apply, Read.val_main_v28_apply, Read.val_main_v27_apply]
  exact dense_of_reads (Read.val_main_v25 (F := Ideal) x0 x1 x2 x3 x4) x5 x6 (h1Of x0 x1 x2 x3 x4 b) b n
    (Read.lidx_main_v26 (ix2 b n)) (Read.ridx_main_v26 (ix2 b n)) (Read.idx_main_v27 (Read.idx_main_v28 (ix2 b n)))
    (fun k => funext fun a => match a with | ⟨0, _⟩ => rfl | ⟨1, _⟩ => rfl)
    (fun k => funext fun a => match a with | ⟨0, _⟩ => rfl | ⟨1, _⟩ => rfl)
    (funext fun a => match a with | ⟨0, _⟩ => rfl)
    (fun k => v25_at x0 x1 x2 x3 x4 b k)

/-- The second layer, rectified. -/
theorem v30_at
    (x0 : (⟨S131072x13, .f32⟩ : BufTy).Contents (Elt Ideal)) (x1 : (⟨S131072x4, .f32⟩ : BufTy).Contents (Elt Ideal))
    (x2 : (⟨S32x3, .f32⟩ : BufTy).Contents (Elt Ideal)) (x3 : (⟨S544x1024, .f32⟩ : BufTy).Contents (Elt Ideal))
    (x4 : (⟨S1024, .f32⟩ : BufTy).Contents (Elt Ideal)) (x5 : (⟨S1024x512, .f32⟩ : BufTy).Contents (Elt Ideal))
    (x6 : (⟨S512, .f32⟩ : BufTy).Contents (Elt Ideal))
    (b : Fin 131072) (n : Fin 512) :
    Read.val_main_v30 (F := Ideal) x0 x1 x2 x3 x4 x5 x6 (ix2 b n) = h2Of x0 x1 x2 x3 x4 x5 x6 b n := by
  rw [Read.val_main_v30_apply, v29_at, Read.val_main_call2_v0_apply, Read.val_main_call2_cst_apply]
  rfl

/-- The third layer: the branch features. -/
theorem v34_at
    (x0 : (⟨S131072x13, .f32⟩ : BufTy).Contents (Elt Ideal)) (x1 : (⟨S131072x4, .f32⟩ : BufTy).Contents (Elt Ideal))
    (x2 : (⟨S32x3, .f32⟩ : BufTy).Contents (Elt Ideal)) (x3 : (⟨S544x1024, .f32⟩ : BufTy).Contents (Elt Ideal))
    (x4 : (⟨S1024, .f32⟩ : BufTy).Contents (Elt Ideal)) (x5 : (⟨S1024x512, .f32⟩ : BufTy).Contents (Elt Ideal))
    (x6 : (⟨S512, .f32⟩ : BufTy).Contents (Elt Ideal)) (x7 : (⟨S512x256, .f32⟩ : BufTy).Contents (Elt Ideal))
    (x8 : (⟨S256, .f32⟩ : BufTy).Contents (Elt Ideal))
    (b : Fin 131072) (n : Fin 256) :
    Read.val_main_v34 (F := Ideal) x0 x1 x2 x3 x4 x5 x6 x7 x8 (ix2 b n) = branchOf x0 x1 x2 x3 x4 x5 x6 x7 x8 b n := by
  rw [Read.val_main_v34_apply, Read.val_main_v31_apply, Read.val_main_v33_apply, Read.val_main_v32_apply]
  exact dense_of_reads (Read.val_main_v30 (F := Ideal) x0 x1 x2 x3 x4 x5 x6) x7 x8 (h2Of x0 x1 x2 x3 x4 x5 x6 b) b n
    (Read.lidx_main_v31 (ix2 b n)) (Read.ridx_main_v31 (ix2 b n)) (Read.idx_main_v32 (Read.idx_main_v33 (ix2 b n)))
    (fun k => funext fun a => match a with | ⟨0, _⟩ => rfl | ⟨1, _⟩ => rfl)
    (fun k => funext fun a => match a with | ⟨0, _⟩ => rfl | ⟨1, _⟩ => rfl)
    (funext fun a => match a with | ⟨0, _⟩ => rfl)
    (fun k => v30_at x0 x1 x2 x3 x4 x5 x6 b k)

end Cert.RefRows

end
-- ==== Proof.RefTrunk.lean ====
/-
  The trunk features and the bias net of a row, read off the reference layer by layer.

  Both start from the row's position, the first three state entries. The trunk is two dense layers each under
  `tanh`; the bias net is a rectified dense layer followed by a dense layer.
-/
import proofs.«178626_j68238440398979_1_alg».proof.Proof.Gen.ReferenceIdeal.Read
import proofs.«178626_j68238440398979_1_alg».proof.Proof.RowSpec
import proofs.«178626_j68238440398979_1_alg».proof.Proof.RefDense

noncomputable section

namespace Cert.RefRows

open Idealize.ShloMosaic Idealize.ShloMosaic.ValueIdx Cert.ReferenceIdeal Cert.RowSpec

/-- The position of row `b` at coordinate `k`. -/
theorem v0_at (x0 : (⟨S131072x13, .f32⟩ : BufTy).Contents (Elt Ideal)) (b : Fin 131072) (k : Fin 3) :
    Read.val_main_v0 (F := Ideal) x0 (ix2 b k) = posOf x0 b k := by
  rw [Read.val_main_v0_apply]
  have e : Read.idx_main_v0 (ix2 b k) = ix2 b (⟨k.val, by have := k.isLt; omega⟩ : Fin 13) := by
    funext a
    match a with
    | ⟨0, _⟩ => rfl
    | ⟨1, _⟩ => rfl
  rw [e]
  rfl

/-- The first trunk layer under `tanh`. -/
theorem v39_at
    (x0 : (⟨S131072x13, .f32⟩ : BufTy).Contents (Elt Ideal)) (x9 : (⟨S3x256, .f32⟩ : BufTy).Contents (Elt Ideal))
    (x10 : (⟨S256, .f32⟩ : BufTy).Contents (Elt Ideal))
    (b : Fin 131072) (n : Fin 256) :
    Read.val_main_v39 (F := Ideal) x0 x9 x10 (ix2 b n) = t1Of x0 x9 x10 b n := by
  rw [Read.val_main_v39_apply, Read.val_main_v38_apply, Read.val_main_v35_apply, Read.val_main_v37_apply,
    Read.val_main_v36_apply]
  have h := dense_of_reads (Read.val_main_v0 (F := Ideal) x0) x9 x10 (posOf x0 b) b n
    (Read.lidx_main_v35 (ix2 b n)) (Read.ridx_main_v35 (ix2 b n)) (Read.idx_main_v36 (Read.idx_main_v37 (ix2 b n)))
    (fun k => funext fun a => match a with | ⟨0, _⟩ => rfl | ⟨1, _⟩ => rfl)
    (fun k => funext fun a => match a with | ⟨0, _⟩ => rfl | ⟨1, _⟩ => rfl)
    (funext fun a => match a with | ⟨0, _⟩ => rfl)
    (fun k => v0_at x0 b k)
  exact congrArg Ideal.tanh h

/-- The second trunk layer under `tanh`: the trunk features. -/
theorem v44_at
    (x0 : (⟨S131072x13, .f32⟩ : BufTy).Contents (Elt Ideal)) (x9 : (⟨S3x256, .f32⟩ : BufTy).Contents (Elt Ideal))
    (x10 : (⟨S256, .f32⟩ : BufTy).Contents (Elt Ideal)) (x11 : (⟨S256x256, .f32⟩ : BufTy).Contents (Elt Ideal))
    (x12 : (⟨S256, .f32⟩ : BufTy).Contents (Elt Ideal))
    (b : Fin 131072) (n : Fin 256) :
    Read.val_main_v44 (F := Ideal) x0 x9 x10 x11 x12 (ix2 b n) = trunkOf x0 x9 x10 x11 x12 b n := by
  rw [Read.val_main_v44_apply, Read.val_main_v43_apply, Read.val_main_v40_apply, Read.val_main_v42_apply,
    Read.val_main_v41_apply]
  have h := dense_of_reads (Read.val_main_v39 (F := Ideal) x0 x9 x10) x11 x12 (t1Of x0 x9 x10 b) b n
    (Read.lidx_main_v40 (ix2 b n)) (Read.ridx_main_v40 (ix2 b n)) (Read.idx_main_v41 (Read.idx_main_v42 (ix2 b n)))
    (fun k => funext fun a => match a with | ⟨0, _⟩ => rfl | ⟨1, _⟩ => rfl)
    (fun k => funext fun a => match a with | ⟨0, _⟩ => rfl | ⟨1, _⟩ => rfl)
    (funext fun a => match a with | ⟨0, _⟩ => rfl)
    (fun k => v39_at x0 x9 x10 b k)
  exact congrArg Ideal.tanh h

/-- The first bias-net layer, rectified. -/
theorem v54_at
    (x0 : (⟨S131072x13, .f32⟩ : BufTy).Contents (Elt Ideal)) (x13 : (⟨S3x128, .f32⟩ : BufTy).Contents (Elt Ideal))
    (x14 : (⟨S128, .f32⟩ : BufTy).Contents (Elt Ideal))
    (b : Fin 131072) (n : Fin 128) :
    Read.val_main_v54 (F := Ideal) x0 x13 x14 (ix2 b n) = q1Of x0 x13 x14 b n := by
  rw [Read.val_main_v54_apply, Read.val_main_v53_apply, Read.val_main_v50_apply, Read.val_main_v52_apply,
    Read.val_main_v51_apply, Read.val_main_call3_v0_apply, Read.val_main_call3_cst_apply]
  have h := dense_of_reads (Read.val_main_v0 (F := Ideal) x0) x13 x14 (posOf x0 b) b n
    (Read.lidx_main_v50 (ix2 b n)) (Read.ridx_main_v50 (ix2 b n)) (Read.idx_main_v51 (Read.idx_main_v52 (ix2 b n)))
    (fun k => funext fun a => match a with | ⟨0, _⟩ => rfl | ⟨1, _⟩ => rfl)
    (fun k => funext fun a => match a with | ⟨0, _⟩ => rfl | ⟨1, _⟩ => rfl)
    (funext fun a => match a with | ⟨0, _⟩ => rfl)
    (fun k => v0_at x0 b k)
  exact congrArg (max · Z) h

/-- The second bias-net layer: the bias net. -/
theorem v58_at
    (x0 : (⟨S131072x13, .f32⟩ : BufTy).Contents (Elt Ideal)) (x13 : (⟨S3x128, .f32⟩ : BufTy).Contents (Elt Ideal))
    (x14 : (⟨S128, .f32⟩ : BufTy).Contents (Elt Ideal)) (x15 : (⟨S128x13, .f32⟩ : BufTy).Contents (Elt Ideal))
    (x16 : (⟨S13, .f32⟩ : BufTy).Contents (Elt Ideal))
    (b : Fin 131072) (j : Fin 13) :
    Read.val_main_v58 (F := Ideal) x0 x13 x14 x15 x16 (ix2 b j) = biasOf x0 x13 x14 x15 x16 b j := by
  rw [Read.val_main_v58_apply, Read.val_main_v55_apply, Read.val_main_v57_apply, Read.val_main_v56_apply]
  exact dense_of_reads (Read.val_main_v54 (F := Ideal) x0 x13 x14) x15 x16 (q1Of x0 x13 x14 b) b j
    (Read.lidx_main_v55 (ix2 b j)) (Read.ridx_main_v55 (ix2 b j)) (Read.idx_main_v56 (Read.idx_main_v57 (ix2 b j)))
    (fun k => funext fun a => match a with | ⟨0, _⟩ => rfl | ⟨1, _⟩ => rfl)
    (fun k => funext fun a => match a with | ⟨0, _⟩ => rfl | ⟨1, _⟩ => rfl)
    (funext fun a => match a with | ⟨0, _⟩ => rfl)
    (fun k => v54_at x0 x13 x14 b k)

end Cert.RefRows

end
-- ==== Proof.RefMoved.lean ====
/-
  The moved state of a row, read off the reference.

  The branch and trunk features are multiplied entry by entry and projected by a last dense layer; the bias net is
  added; the sum is scaled by the residual weight (a rank-0 array broadcast over all entries) and added to the state.
-/
import proofs.«178626_j68238440398979_1_alg».proof.Proof.Gen.ReferenceIdeal.Read
import proofs.«178626_j68238440398979_1_alg».proof.Proof.RowSpec
import proofs.«178626_j68238440398979_1_alg».proof.Proof.RefDense
import proofs.«178626_j68238440398979_1_alg».proof.Proof.RefBranch
import proofs.«178626_j68238440398979_1_alg».proof.Proof.RefTrunk

noncomputable section

namespace Cert.RefRows

open Idealize.ShloMosaic Idealize.ShloMosaic.ValueIdx Cert.ReferenceIdeal Cert.RowSpec

/-- The product of the branch and trunk features, at row `b`, column `n`. -/
theorem v45_at
    (x0 : (⟨S131072x13, .f32⟩ : BufTy).Contents (Elt Ideal)) (x1 : (⟨S131072x4, .f32⟩ : BufTy).Contents (Elt Ideal))
    (x2 : (⟨S32x3, .f32⟩ : BufTy).Contents (Elt Ideal)) (x3 : (⟨S544x1024, .f32⟩ : BufTy).Contents (Elt Ideal))
    (x4 : (⟨S1024, .f32⟩ : BufTy).Contents (Elt Ideal)) (x5 : (⟨S1024x512, .f32⟩ : BufTy).Contents (Elt Ideal))
    (x6 : (⟨S512, .f32⟩ : BufTy).Contents (Elt Ideal)) (x7 : (⟨S512x256, .f32⟩ : BufTy).Contents (Elt Ideal))
    (x8 : (⟨S256, .f32⟩ : BufTy).Contents (Elt Ideal)) (x9 : (⟨S3x256, .f32⟩ : BufTy).Contents (Elt Ideal))
    (x10 : (⟨S256, .f32⟩ : BufTy).Contents (Elt Ideal)) (x11 : (⟨S256x256, .f32⟩ : BufTy).Contents (Elt Ideal))
    (x12 : (⟨S256, .f32⟩ : BufTy).Contents (Elt Ideal)) (b : Fin 131072) (n : Fin 256) :
    Read.val_main_v45 (F := Ideal) x0 x1 x2 x3 x4 x5 x6 x7 x8 x9 x10 x11 x12 (ix2 b n)
      = branchOf x0 x1 x2 x3 x4 x5 x6 x7 x8 b n * trunkOf x0 x9 x10 x11 x12 b n := by
  rw [Read.val_main_v45_apply, v34_at, v44_at]
  rfl

/-- The projected product plus its bias, at row `b`, entry `j`. -/
theorem v49_at
    (x0 : (⟨S131072x13, .f32⟩ : BufTy).Contents (Elt Ideal)) (x1 : (⟨S131072x4, .f32⟩ : BufTy).Contents (Elt Ideal))
    (x2 : (⟨S32x3, .f32⟩ : BufTy).Contents (Elt Ideal)) (x3 : (⟨S544x1024, .f32⟩ : BufTy).Contents (Elt Ideal))
    (x4 : (⟨S1024, .f32⟩ : BufTy).Contents (Elt Ideal)) (x5 : (⟨S1024x512, .f32⟩ : BufTy).Contents (Elt Ideal))
    (x6 : (⟨S512, .f32⟩ : BufTy).Contents (Elt Ideal)) (x7 : (⟨S512x256, .f32⟩ : BufTy).Contents (Elt Ideal))
    (x8 : (⟨S256, .f32⟩ : BufTy).Contents (Elt Ideal)) (x9 : (⟨S3x256, .f32⟩ : BufTy).Contents (Elt Ideal))
    (x10 : (⟨S256, .f32⟩ : BufTy).Contents (Elt Ideal)) (x11 : (⟨S256x256, .f32⟩ : BufTy).Contents (Elt Ideal))
    (x12 : (⟨S256, .f32⟩ : BufTy).Contents (Elt Ideal)) (x17 : (⟨S256x13, .f32⟩ : BufTy).Contents (Elt Ideal))
    (x18 : (⟨S13, .f32⟩ : BufTy).Contents (Elt Ideal)) (b : Fin 131072) (j : Fin 13) :
    Read.val_main_v49 (F := Ideal) x0 x1 x2 x3 x4 x5 x6 x7 x8 x9 x10 x11 x12 x17 x18 (ix2 b j)
      = projOf x0 x1 x2 x3 x4 x5 x6 x7 x8 x9 x10 x11 x12 x17 x18 b j := by
  rw [Read.val_main_v49_apply, Read.val_main_v46_apply, Read.val_main_v48_apply, Read.val_main_v47_apply]
  exact dense_of_reads (Read.val_main_v45 (F := Ideal) x0 x1 x2 x3 x4 x5 x6 x7 x8 x9 x10 x11 x12) x17 x18
    (fun n => branchOf x0 x1 x2 x3 x4 x5 x6 x7 x8 b n * trunkOf x0 x9 x10 x11 x12 b n) b j
    (Read.lidx_main_v46 (ix2 b j)) (Read.ridx_main_v46 (ix2 b j)) (Read.idx_main_v47 (Read.idx_main_v48 (ix2 b j)))
    (fun k => funext fun a => match a with | ⟨0, _⟩ => rfl | ⟨1, _⟩ => rfl)
    (fun k => funext fun a => match a with | ⟨0, _⟩ => rfl | ⟨1, _⟩ => rfl)
    (funext fun a => match a with | ⟨0, _⟩ => rfl)
    (fun k => v45_at x0 x1 x2 x3 x4 x5 x6 x7 x8 x9 x10 x11 x12 b k)

/-- The moved state, at row `b`, entry `j`. -/
theorem v62_at
    (x0 : (⟨S131072x13, .f32⟩ : BufTy).Contents (Elt Ideal)) (x1 : (⟨S131072x4, .f32⟩ : BufTy).Contents (Elt Ideal))
    (x2 : (⟨S32x3, .f32⟩ : BufTy).Contents (Elt Ideal)) (x3 : (⟨S544x1024, .f32⟩ : BufTy).Contents (Elt Ideal))
    (x4 : (⟨S1024, .f32⟩ : BufTy).Contents (Elt Ideal)) (x5 : (⟨S1024x512, .f32⟩ : BufTy).Contents (Elt Ideal))
    (x6 : (⟨S512, .f32⟩ : BufTy).Contents (Elt Ideal)) (x7 : (⟨S512x256, .f32⟩ : BufTy).Contents (Elt Ideal))
    (x8 : (⟨S256, .f32⟩ : BufTy).Contents (Elt Ideal)) (x9 : (⟨S3x256, .f32⟩ : BufTy).Contents (Elt Ideal))
    (x10 : (⟨S256, .f32⟩ : BufTy).Contents (Elt Ideal)) (x11 : (⟨S256x256, .f32⟩ : BufTy).Contents (Elt Ideal))
    (x12 : (⟨S256, .f32⟩ : BufTy).Contents (Elt Ideal)) (x13 : (⟨S3x128, .f32⟩ : BufTy).Contents (Elt Ideal))
    (x14 : (⟨S128, .f32⟩ : BufTy).Contents (Elt Ideal)) (x15 : (⟨S128x13, .f32⟩ : BufTy).Contents (Elt Ideal))
    (x16 : (⟨S13, .f32⟩ : BufTy).Contents (Elt Ideal)) (x17 : (⟨S256x13, .f32⟩ : BufTy).Contents (Elt Ideal))
    (x18 : (⟨S13, .f32⟩ : BufTy).Contents (Elt Ideal)) (x19 : (⟨S_, .f32⟩ : BufTy).Contents (Elt Ideal))
    (b : Fin 131072) (j : Fin 13) :
    Read.val_main_v62 (F := Ideal) x0 x1 x2 x3 x4 x5 x6 x7 x8 x9 x10 x11 x12 x13 x14 x15 x16 x17 x18 x19 (ix2 b j)
      = movedOf x0 x1 x2 x3 x4 x5 x6 x7 x8 x9 x10 x11 x12 x13 x14 x15 x16 x17 x18 x19 b j := by
  rw [Read.val_main_v62_apply, Read.val_main_v61_apply, Read.val_main_v60_apply, Read.val_main_v59_apply, v49_at,
    v58_at]
  have e : Read.idx_main_v60 (ix2 b j) = ix0 := funext fun a => a.elim0
  rw [e]
  rfl

end Cert.RefRows

end
-- ==== Proof.RefQuat.lean ====
/-
  The divided quaternion of a row, read off the reference.

  Entries 3..6 of the moved state are sliced out; their squares are summed from zero, the square root taken and
  the small constant added; each of the four entries is divided by that.
-/
import proofs.«178626_j68238440398979_1_alg».proof.Proof.Gen.ReferenceIdeal.Read
import proofs.«178626_j68238440398979_1_alg».proof.Proof.RowSpec
import proofs.«178626_j68238440398979_1_alg».proof.Proof.RefDense
import proofs.«178626_j68238440398979_1_alg».proof.Proof.RefMoved

noncomputable section

namespace Cert.RefRows

open Idealize.ShloMosaic Idealize.ShloMosaic.ValueIdx Cert.ReferenceIdeal Cert.RowSpec

/-- The quaternion entry `q` of the moved state of row `b`. -/
theorem v63_at
    (x0 : (⟨S131072x13, .f32⟩ : BufTy).Contents (Elt Ideal)) (x1 : (⟨S131072x4, .f32⟩ : BufTy).Contents (Elt Ideal))
    (x2 : (⟨S32x3, .f32⟩ : BufTy).Contents (Elt Ideal)) (x3 : (⟨S544x1024, .f32⟩ : BufTy).Contents (Elt Ideal))
    (x4 : (⟨S1024, .f32⟩ : BufTy).Contents (Elt Ideal)) (x5 : (⟨S1024x512, .f32⟩ : BufTy).Contents (Elt Ideal))
    (x6 : (⟨S512, .f32⟩ : BufTy).Contents (Elt Ideal)) (x7 : (⟨S512x256, .f32⟩ : BufTy).Contents (Elt Ideal))
    (x8 : (⟨S256, .f32⟩ : BufTy).Contents (Elt Ideal)) (x9 : (⟨S3x256, .f32⟩ : BufTy).Contents (Elt Ideal))
    (x10 : (⟨S256, .f32⟩ : BufTy).Contents (Elt Ideal)) (x11 : (⟨S256x256, .f32⟩ : BufTy).Contents (Elt Ideal))
    (x12 : (⟨S256, .f32⟩ : BufTy).Contents (Elt Ideal)) (x13 : (⟨S3x128, .f32⟩ : BufTy).Contents (Elt Ideal))
    (x14 : (⟨S128, .f32⟩ : BufTy).Contents (Elt Ideal)) (x15 : (⟨S128x13, .f32⟩ : BufTy).Contents (Elt Ideal))
    (x16 : (⟨S13, .f32⟩ : BufTy).Contents (Elt Ideal)) (x17 : (⟨S256x13, .f32⟩ : BufTy).Contents (Elt Ideal))
    (x18 : (⟨S13, .f32⟩ : BufTy).Contents (Elt Ideal)) (x19 : (⟨S_, .f32⟩ : BufTy).Contents (Elt Ideal))
    (b : Fin 131072) (q : Fin 4) :
    Read.val_main_v63 (F := Ideal) x0 x1 x2 x3 x4 x5 x6 x7 x8 x9 x10 x11 x12 x13 x14 x15 x16 x17 x18 x19 (ix2 b q)
      = quat (movedOf x0 x1 x2 x3 x4 x5 x6 x7 x8 x9 x10 x11 x12 x13 x14 x15 x16 x17 x18 x19 b) q := by
  rw [Read.val_main_v63_apply]
  have e : Read.idx_main_v63 (ix2 b q) = ix2 b (⟨3 + q.val, by have := q.isLt; omega⟩ : Fin 13) := by
    funext a
    match a with
    | ⟨0, _⟩ => rfl
    | ⟨1, _⟩ => rfl
  rw [e, v62_at]
  rfl

/-- The sum of the four squared quaternion entries from zero. -/
theorem call4_v1_at
    (x0 : (⟨S131072x13, .f32⟩ : BufTy).Contents (Elt Ideal)) (x1 : (⟨S131072x4, .f32⟩ : BufTy).Contents (Elt Ideal))
    (x2 : (⟨S32x3, .f32⟩ : BufTy).Contents (Elt Ideal)) (x3 : (⟨S544x1024, .f32⟩ : BufTy).Contents (Elt Ideal))
    (x4 : (⟨S1024, .f32⟩ : BufTy).Contents (Elt Ideal)) (x5 : (⟨S1024x512, .f32⟩ : BufTy).Contents (Elt Ideal))
    (x6 : (⟨S512, .f32⟩ : BufTy).Contents (Elt Ideal)) (x7 : (⟨S512x256, .f32⟩ : BufTy).Contents (Elt Ideal))
    (x8 : (⟨S256, .f32⟩ : BufTy).Contents (Elt Ideal)) (x9 : (⟨S3x256, .f32⟩ : BufTy).Contents (Elt Ideal))
    (x10 : (⟨S256, .f32⟩ : BufTy).Contents (Elt Ideal)) (x11 : (⟨S256x256, .f32⟩ : BufTy).Contents (Elt Ideal))
    (x12 : (⟨S256, .f32⟩ : BufTy).Contents (Elt Ideal)) (x13 : (⟨S3x128, .f32⟩ : BufTy).Contents (Elt Ideal))
    (x14 : (⟨S128, .f32⟩ : BufTy).Contents (Elt Ideal)) (x15 : (⟨S128x13, .f32⟩ : BufTy).Contents (Elt Ideal))
    (x16 : (⟨S13, .f32⟩ : BufTy).Contents (Elt Ideal)) (x17 : (⟨S256x13, .f32⟩ : BufTy).Contents (Elt Ideal))
    (x18 : (⟨S13, .f32⟩ : BufTy).Contents (Elt Ideal)) (x19 : (⟨S_, .f32⟩ : BufTy).Contents (Elt Ideal))
    (b : Fin 131072) :
    Read.val_main_call4_v1 (F := Ideal) x0 x1 x2 x3 x4 x5 x6 x7 x8 x9 x10 x11 x12 x13 x14 x15 x16 x17 x18 x19 (ix1 b)
      = Z + ∑ q : Fin 4, quat (movedOf x0 x1 x2 x3 x4 x5 x6 x7 x8 x9 x10 x11 x12 x13 x14 x15 x16 x17 x18 x19 b) q
          * quat (movedOf x0 x1 x2 x3 x4 x5 x6 x7 x8 x9 x10 x11 x12 x13 x14 x15 x16 x17 x18 x19 b) q := by
  rw [Read.val_main_call4_v1_apply]
  refine congrArg (_ + ·) (Finset.sum_congr rfl fun k _ => ?_)
  have e : Read.idx_main_call4_v1 (ix1 b) k = ix2 b k := by
    funext a
    match a with
    | ⟨0, _⟩ => rfl
    | ⟨1, _⟩ => rfl
  rw [e, Read.val_main_call4_v0_apply, v63_at]
  rfl

/-- The quaternion's norm plus the small constant. -/
theorem v66_at
    (x0 : (⟨S131072x13, .f32⟩ : BufTy).Contents (Elt Ideal)) (x1 : (⟨S131072x4, .f32⟩ : BufTy).Contents (Elt Ideal))
    (x2 : (⟨S32x3, .f32⟩ : BufTy).Contents (Elt Ideal)) (x3 : (⟨S544x1024, .f32⟩ : BufTy).Contents (Elt Ideal))
    (x4 : (⟨S1024, .f32⟩ : BufTy).Contents (Elt Ideal)) (x5 : (⟨S1024x512, .f32⟩ : BufTy).Contents (Elt Ideal))
    (x6 : (⟨S512, .f32⟩ : BufTy).Contents (Elt Ideal)) (x7 : (⟨S512x256, .f32⟩ : BufTy).Contents (Elt Ideal))
    (x8 : (⟨S256, .f32⟩ : BufTy).Contents (Elt Ideal)) (x9 : (⟨S3x256, .f32⟩ : BufTy).Contents (Elt Ideal))
    (x10 : (⟨S256, .f32⟩ : BufTy).Contents (Elt Ideal)) (x11 : (⟨S256x256, .f32⟩ : BufTy).Contents (Elt Ideal))
    (x12 : (⟨S256, .f32⟩ : BufTy).Contents (Elt Ideal)) (x13 : (⟨S3x128, .f32⟩ : BufTy).Contents (Elt Ideal))
    (x14 : (⟨S128, .f32⟩ : BufTy).Contents (Elt Ideal)) (x15 : (⟨S128x13, .f32⟩ : BufTy).Contents (Elt Ideal))
    (x16 : (⟨S13, .f32⟩ : BufTy).Contents (Elt Ideal)) (x17 : (⟨S256x13, .f32⟩ : BufTy).Contents (Elt Ideal))
    (x18 : (⟨S13, .f32⟩ : BufTy).Contents (Elt Ideal)) (x19 : (⟨S_, .f32⟩ : BufTy).Contents (Elt Ideal))
    (b : Fin 131072) (z : Fin 1) :
    Read.val_main_v66 (F := Ideal) x0 x1 x2 x3 x4 x5 x6 x7 x8 x9 x10 x11 x12 x13 x14 x15 x16 x17 x18 x19 (ix2 b z)
      = qden Z (movedOf x0 x1 x2 x3 x4 x5 x6 x7 x8 x9 x10 x11 x12 x13 x14 x15 x16 x17 x18 x19 b) := by
  rw [Read.val_main_v66_apply, Read.val_main_v64_apply, Read.val_main_call4_v2_apply, Read.val_main_v65_apply,
    Read.val_main_cst_0_apply]
  have e : Read.idx_main_call4_v2 (ix2 b z) = ix1 b := by
    funext a
    match a with
    | ⟨0, _⟩ => rfl
  rw [e, call4_v1_at]
  rfl

/-- The divided quaternion entry `q` of row `b`. -/
theorem v68_at
    (x0 : (⟨S131072x13, .f32⟩ : BufTy).Contents (Elt Ideal)) (x1 : (⟨S131072x4, .f32⟩ : BufTy).Contents (Elt Ideal))
    (x2 : (⟨S32x3, .f32⟩ : BufTy).Contents (Elt Ideal)) (x3 : (⟨S544x1024, .f32⟩ : BufTy).Contents (Elt Ideal))
    (x4 : (⟨S1024, .f32⟩ : BufTy).Contents (Elt Ideal)) (x5 : (⟨S1024x512, .f32⟩ : BufTy).Contents (Elt Ideal))
    (x6 : (⟨S512, .f32⟩ : BufTy).Contents (Elt Ideal)) (x7 : (⟨S512x256, .f32⟩ : BufTy).Contents (Elt Ideal))
    (x8 : (⟨S256, .f32⟩ : BufTy).Contents (Elt Ideal)) (x9 : (⟨S3x256, .f32⟩ : BufTy).Contents (Elt Ideal))
    (x10 : (⟨S256, .f32⟩ : BufTy).Contents (Elt Ideal)) (x11 : (⟨S256x256, .f32⟩ : BufTy).Contents (Elt Ideal))
    (x12 : (⟨S256, .f32⟩ : BufTy).Contents (Elt Ideal)) (x13 : (⟨S3x128, .f32⟩ : BufTy).Contents (Elt Ideal))
    (x14 : (⟨S128, .f32⟩ : BufTy).Contents (Elt Ideal)) (x15 : (⟨S128x13, .f32⟩ : BufTy).Contents (Elt Ideal))
    (x16 : (⟨S13, .f32⟩ : BufTy).Contents (Elt Ideal)) (x17 : (⟨S256x13, .f32⟩ : BufTy).Contents (Elt Ideal))
    (x18 : (⟨S13, .f32⟩ : BufTy).Contents (Elt Ideal)) (x19 : (⟨S_, .f32⟩ : BufTy).Contents (Elt Ideal))
    (b : Fin 131072) (q : Fin 4) :
    Read.val_main_v68 (F := Ideal) x0 x1 x2 x3 x4 x5 x6 x7 x8 x9 x10 x11 x12 x13 x14 x15 x16 x17 x18 x19 (ix2 b q)
      = Ideal.div (quat (movedOf x0 x1 x2 x3 x4 x5 x6 x7 x8 x9 x10 x11 x12 x13 x14 x15 x16 x17 x18 x19 b) q)
          (qden Z (movedOf x0 x1 x2 x3 x4 x5 x6 x7 x8 x9 x10 x11 x12 x13 x14 x15 x16 x17 x18 x19 b)) := by
  rw [Read.val_main_v68_apply, v63_at, Read.val_main_v67_apply]
  have e : Read.idx_main_v67 (ix2 b q) = ix2 b (0 : Fin 1) := by
    funext a
    match a with
    | ⟨0, _⟩ => rfl
    | ⟨1, _⟩ => rfl
  rw [e, v66_at]
  rfl

end Cert.RefRows

end
-- ==== Proof.RefEq.lean ====
/-
  The reference's result, row by row: the specification's result array.

  The last operation sets the [131072, 4] block of divided quaternions into columns 3..6 of the moved state, the one
  start index being the constant 3. So entry (b, j) of the result is the moved state's entry for j < 3 and for
  7 ≤ j, and the divided quaternion's entry j - 3 in between: the row `normalized` of the moved state.
-/
import proofs.«178626_j68238440398979_1_alg».proof.Proof.Gen.ReferenceIdeal.Read
import proofs.«178626_j68238440398979_1_alg».proof.Proof.RowSpec
import proofs.«178626_j68238440398979_1_alg».proof.Proof.RefDense
import proofs.«178626_j68238440398979_1_alg».proof.Proof.LibColWindowAt
import proofs.«178626_j68238440398979_1_alg».proof.Proof.RefMoved
import proofs.«178626_j68238440398979_1_alg».proof.Proof.RefQuat

noncomputable section

namespace Cert.RefRows

open Idealize.ShloMosaic Idealize.ShloMosaic.ValueIdx Idealize.ShloMosaic.ScatterSet Cert.ReferenceIdeal Cert.RowSpec
  Cert.LibConcatCols

/-- The one start index of the scatter is 3. -/
theorem v69_at : (Read.val_main_v69 (F := Ideal) (ix1 (0 : Fin 1))).toInt = ((3 : ℕ) : ℤ) := by
  rw [Read.val_main_v69_apply, Read.val_main_c_apply]
  decide

/-- The result at row `b`, entry `j`. -/
theorem v70_at
    (x0 : (⟨S131072x13, .f32⟩ : BufTy).Contents (Elt Ideal)) (x1 : (⟨S131072x4, .f32⟩ : BufTy).Contents (Elt Ideal))
    (x2 : (⟨S32x3, .f32⟩ : BufTy).Contents (Elt Ideal)) (x3 : (⟨S544x1024, .f32⟩ : BufTy).Contents (Elt Ideal))
    (x4 : (⟨S1024, .f32⟩ : BufTy).Contents (Elt Ideal)) (x5 : (⟨S1024x512, .f32⟩ : BufTy).Contents (Elt Ideal))
    (x6 : (⟨S512, .f32⟩ : BufTy).Contents (Elt Ideal)) (x7 : (⟨S512x256, .f32⟩ : BufTy).Contents (Elt Ideal))
    (x8 : (⟨S256, .f32⟩ : BufTy).Contents (Elt Ideal)) (x9 : (⟨S3x256, .f32⟩ : BufTy).Contents (Elt Ideal))
    (x10 : (⟨S256, .f32⟩ : BufTy).Contents (Elt Ideal)) (x11 : (⟨S256x256, .f32⟩ : BufTy).Contents (Elt Ideal))
    (x12 : (⟨S256, .f32⟩ : BufTy).Contents (Elt Ideal)) (x13 : (⟨S3x128, .f32⟩ : BufTy).Contents (Elt Ideal))
    (x14 : (⟨S128, .f32⟩ : BufTy).Contents (Elt Ideal)) (x15 : (⟨S128x13, .f32⟩ : BufTy).Contents (Elt Ideal))
    (x16 : (⟨S13, .f32⟩ : BufTy).Contents (Elt Ideal)) (x17 : (⟨S256x13, .f32⟩ : BufTy).Contents (Elt Ideal))
    (x18 : (⟨S13, .f32⟩ : BufTy).Contents (Elt Ideal)) (x19 : (⟨S_, .f32⟩ : BufTy).Contents (Elt Ideal))
    (b : Fin 131072) (j : Fin 13) :
    Read.val_main_v70 (F := Ideal) x0 x1 x2 x3 x4 x5 x6 x7 x8 x9 x10 x11 x12 x13 x14 x15 x16 x17 x18 x19 (ix2 b j)
      = normalized Z (movedOf x0 x1 x2 x3 x4 x5 x6 x7 x8 x9 x10 x11 x12 x13 x14 x15 x16 x17 x18 x19 b) j := by
  have hj := j.isLt
  unfold Read.val_main_v70 normalized join3
  split
  next h1 =>
    refine (scatter_colWindow_at_miss Gen.scatter_S131072x13_S1_S131072x4_01_n_1_0_wf (fun _ b => b) _ _ 3 v69_at
      (by decide) _ b j (Or.inl h1)).trans ?_
    exact v62_at x0 x1 x2 x3 x4 x5 x6 x7 x8 x9 x10 x11 x12 x13 x14 x15 x16 x17 x18 x19 b j
  next h1 =>
    split
    next h2 =>
      refine (scatter_colWindow_at_hit Gen.scatter_S131072x13_S1_S131072x4_01_n_1_0_wf (fun _ b => b) (fun _ _ => rfl)
        _ _ 3 v69_at (by decide) _ b (⟨j.val - 3, by omega⟩ : Fin 4) j (by show j.val = 3 + (j.val - 3); omega)).trans ?_
      exact v68_at x0 x1 x2 x3 x4 x5 x6 x7 x8 x9 x10 x11 x12 x13 x14 x15 x16 x17 x18 x19 b (⟨j.val - 3, by omega⟩ : Fin 4)
    next h2 =>
      refine (scatter_colWindow_at_miss Gen.scatter_S131072x13_S1_S131072x4_01_n_1_0_wf (fun _ b => b) _ _ 3 v69_at
        (by decide) _ b j (Or.inr (by omega))).trans ?_
      refine (v62_at x0 x1 x2 x3 x4 x5 x6 x7 x8 x9 x10 x11 x12 x13 x14 x15 x16 x17 x18 x19 b j).trans ?_
      exact congrArg (movedOf x0 x1 x2 x3 x4 x5 x6 x7 x8 x9 x10 x11 x12 x13 x14 x15 x16 x17 x18 x19 b)
        (Fin.ext (by show j.val = 7 + (j.val - (3 + 4)); omega))

/-- The reference's result is the specification's result array, with the squared distance as the sum of squared
    differences and the literal zero the reference's. -/
theorem ref_eq
    (x0 : (⟨S131072x13, .f32⟩ : BufTy).Contents (Elt Ideal)) (x1 : (⟨S131072x4, .f32⟩ : BufTy).Contents (Elt Ideal))
    (x2 : (⟨S32x3, .f32⟩ : BufTy).Contents (Elt Ideal)) (x3 : (⟨S544x1024, .f32⟩ : BufTy).Contents (Elt Ideal))
    (x4 : (⟨S1024, .f32⟩ : BufTy).Contents (Elt Ideal)) (x5 : (⟨S1024x512, .f32⟩ : BufTy).Contents (Elt Ideal))
    (x6 : (⟨S512, .f32⟩ : BufTy).Contents (Elt Ideal)) (x7 : (⟨S512x256, .f32⟩ : BufTy).Contents (Elt Ideal))
    (x8 : (⟨S256, .f32⟩ : BufTy).Contents (Elt Ideal)) (x9 : (⟨S3x256, .f32⟩ : BufTy).Contents (Elt Ideal))
    (x10 : (⟨S256, .f32⟩ : BufTy).Contents (Elt Ideal)) (x11 : (⟨S256x256, .f32⟩ : BufTy).Contents (Elt Ideal))
    (x12 : (⟨S256, .f32⟩ : BufTy).Contents (Elt Ideal)) (x13 : (⟨S3x128, .f32⟩ : BufTy).Contents (Elt Ideal))
    (x14 : (⟨S128, .f32⟩ : BufTy).Contents (Elt Ideal)) (x15 : (⟨S128x13, .f32⟩ : BufTy).Contents (Elt Ideal))
    (x16 : (⟨S13, .f32⟩ : BufTy).Contents (Elt Ideal)) (x17 : (⟨S256x13, .f32⟩ : BufTy).Contents (Elt Ideal))
    (x18 : (⟨S13, .f32⟩ : BufTy).Contents (Elt Ideal)) (x19 : (⟨S_, .f32⟩ : BufTy).Contents (Elt Ideal)) :
    Cert.ReferenceIdeal.Read.val_main_v70 (F := Ideal) x0 x1 x2 x3 x4 x5 x6 x7 x8 x9 x10 x11 x12 x13 x14 x15 x16 x17 x18 x19
      = Cert.RowSpec.resultArray Cert.RowSpec.dist2Diff Cert.RowSpec.Z x0 x1 x2
          (Cert.RowSpec.netOf x3 x4 x5 x6 x7 x8 x9 x10 x11 x12 x13 x14 x15 x16 x17 x18 x19) := by
  funext i
  obtain ⟨b, j, rfl⟩ : ∃ b j, i = ix2 b j := ⟨_, _, eq_ix2 i⟩
  have hR : resultArray dist2Diff Z x0 x1 x2 (netOf x3 x4 x5 x6 x7 x8 x9 x10 x11 x12 x13 x14 x15 x16 x17 x18 x19) (ix2 b j)
      = normalized Z (movedOf x0 x1 x2 x3 x4 x5 x6 x7 x8 x9 x10 x11 x12 x13 x14 x15 x16 x17 x18 x19 b) j := by
    rw [movedOf_eq]
    rfl
  rw [hR]
  exact v70_at x0 x1 x2 x3 x4 x5 x6 x7 x8 x9 x10 x11 x12 x13 x14 x15 x16 x17 x18 x19 b j

end Cert.RefRows

end
-- ==== Proof.FiniteIn.lean ====
/-
  The precondition that every input is finite, read back for the state array and the sensor table.

  The predicate is the conjunction, nested to the left, of twenty facts "every entry x of the array has |x| below
  +inf", each a reduction by `and`, over all axes, of the entrywise comparison. A conjunction of two `i1` words that is
  1 has both words 1; a reduction by `and` into a single result that is 1 met only 1s; and an extended real x whose
  absolute value max x (-x) is below +inf is neither +inf nor -inf, so it is a real number.
-/
import proofs.«178626_j68238440398979_1_alg».proof.Pre_finite_inputs
import Idealize.ShloMosaic.Lib.ReduceAll
import Idealize.ShloMosaic.Lib.ValueIdx
import Idealize.ShloMosaic.PureOps.Ideal

noncomputable section

namespace Cert.FiniteIn

open Idealize.ShloMosaic Cert.Pre_finite_inputs

variable [Cert.Pre_finite_inputs.Facts]

/-- An array of rank zero has one index. -/
instance : Subsingleton S_.Idx := ⟨fun a b => funext fun d => d.elim0⟩

/-- A truth value as an `i1` word is 1 exactly when it is true. -/
theorem ofBool_eq_one (b : Bool) : BitVec.ofBool b = 1#1 ↔ b = true := by cases b <;> decide

/-- The pattern 0x7F800000 denotes +inf. -/
theorem inf_eq_top : Ideal.ofBits .f32 0x7F800000#32 = (⊤ : EReal) := by
  simp [Ideal.ofBits, Ideal.ieee]

/-- An extended real whose absolute value, max x (-x), compares below +inf is a real number. -/
theorem real_of_abs_lt (x : EReal)
    (h : Ideal.cmp .olt (max x (-x)) (Ideal.ofBits .f32 0x7F800000#32) = 1#1) : ∃ r : ℝ, x = (r : EReal) := by
  rw [inf_eq_top] at h
  unfold Ideal.cmp at h
  rw [ofBool_eq_one] at h
  have hlt : max x (-x) < ⊤ := of_decide_eq_true h
  have h1 : x < ⊤ := lt_of_le_of_lt (le_max_left _ _) hlt
  have h2 : -x < ⊤ := lt_of_le_of_lt (le_max_right _ _) hlt
  have hb : x ≠ ⊥ := fun e => by
    rw [e, EReal.neg_bot] at h2
    exact lt_irrefl _ h2
  exact ⟨x.toReal, (EReal.coe_toReal (ne_of_lt h1) hb).symm⟩

/-- Part 5 of the predicate is 1 only if the conjunction it was handed is 1. -/
theorem part5_acc (a18 : FVec Ideal S13 .f32) (a19 : FVec Ideal S_ .f32) (acc : IVec S_ 1)
    (v84 : FVec Ideal S256x13 .f32) (c32 : FVec Ideal S_ .f32) (i : S_.Idx)
    (h : fn_part5 (F := Ideal) a18 a19 acc v84 c32 i = 1#1) : acc i = 1#1 :=
  (IntOp.andi_eq_one.1 (IntOp.andi_eq_one.1 (IntOp.andi_eq_one.1 h).1).1).1

/-- Part 4 likewise: four more conjuncts, then part 5. -/
theorem part4_acc (a14 : FVec Ideal S128 .f32) (a15 : FVec Ideal S128x13 .f32) (a16 : FVec Ideal S13 .f32)
    (a17 : FVec Ideal S256x13 .f32) (a18 : FVec Ideal S13 .f32) (a19 : FVec Ideal S_ .f32) (acc v67 : IVec S_ 1)
    (i : S_.Idx) (h : fn_part4 (F := Ideal) a14 a15 a16 a17 a18 a19 acc v67 i = 1#1) : acc i = 1#1 := by
  have h5 := part5_acc _ _ _ _ _ i h
  exact (IntOp.andi_eq_one.1 (IntOp.andi_eq_one.1 (IntOp.andi_eq_one.1 (IntOp.andi_eq_one.1 h5).1).1).1).1

/-- Part 3 likewise: three more conjuncts, then part 4. -/
theorem part3_acc (a11 : FVec Ideal S256x256 .f32) (a12 : FVec Ideal S256 .f32) (a13 : FVec Ideal S3x128 .f32)
    (a14 : FVec Ideal S128 .f32) (a15 : FVec Ideal S128x13 .f32) (a16 : FVec Ideal S13 .f32)
    (a17 : FVec Ideal S256x13 .f32) (a18 : FVec Ideal S13 .f32) (a19 : FVec Ideal S_ .f32) (acc : IVec S_ 1)
    (v49 v50 : FVec Ideal S256 .f32) (i : S_.Idx)
    (h : fn_part3 (F := Ideal) a11 a12 a13 a14 a15 a16 a17 a18 a19 acc v49 v50 i = 1#1) : acc i = 1#1 := by
  have h4 := part4_acc _ _ _ _ _ _ _ _ i h
  exact (IntOp.andi_eq_one.1 (IntOp.andi_eq_one.1 (IntOp.andi_eq_one.1 h4).1).1).1

/-- Part 2 likewise: three more conjuncts, then part 3. -/
theorem part2_acc (a7 : FVec Ideal S512x256 .f32) (a8 : FVec Ideal S256 .f32) (a9 : FVec Ideal S3x256 .f32)
    (a10 : FVec Ideal S256 .f32) (a11 : FVec Ideal S256x256 .f32) (a12 : FVec Ideal S256 .f32)
    (a13 : FVec Ideal S3x128 .f32) (a14 : FVec Ideal S128 .f32) (a15 : FVec Ideal S128x13 .f32)
    (a16 : FVec Ideal S13 .f32) (a17 : FVec Ideal S256x13 .f32) (a18 : FVec Ideal S13 .f32)
    (a19 : FVec Ideal S_ .f32) (acc : IVec S_ 1) (i : S_.Idx)
    (h : fn_part2 (F := Ideal) a7 a8 a9 a10 a11 a12 a13 a14 a15 a16 a17 a18 a19 acc i = 1#1) : acc i = 1#1 := by
  have h3 := part3_acc _ _ _ _ _ _ _ _ _ _ _ _ i h
  exact (IntOp.andi_eq_one.1 (IntOp.andi_eq_one.1 (IntOp.andi_eq_one.1 h3).1).1).1

/-- Part 1 likewise: four more conjuncts, then part 2. -/
theorem part1_acc (a4 : FVec Ideal S1024 .f32) (a5 : FVec Ideal S1024x512 .f32) (a6 : FVec Ideal S512 .f32)
    (a7 : FVec Ideal S512x256 .f32) (a8 : FVec Ideal S256 .f32) (a9 : FVec Ideal S3x256 .f32)
    (a10 : FVec Ideal S256 .f32) (a11 : FVec Ideal S256x256 .f32) (a12 : FVec Ideal S256 .f32)
    (a13 : FVec Ideal S3x128 .f32) (a14 : FVec Ideal S128 .f32) (a15 : FVec Ideal S128x13 .f32)
    (a16 : FVec Ideal S13 .f32) (a17 : FVec Ideal S256x13 .f32) (a18 : FVec Ideal S13 .f32)
    (a19 : FVec Ideal S_ .f32) (acc : IVec S_ 1) (v16 : IVec S544x1024 1) (i : S_.Idx)
    (h : fn_part1 (F := Ideal) a4 a5 a6 a7 a8 a9 a10 a11 a12 a13 a14 a15 a16 a17 a18 a19 acc v16 i = 1#1) :
    acc i = 1#1 := by
  have h2 := part2_acc _ _ _ _ _ _ _ _ _ _ _ _ _ _ i h
  exact (IntOp.andi_eq_one.1 (IntOp.andi_eq_one.1 (IntOp.andi_eq_one.1 (IntOp.andi_eq_one.1 h2).1).1).1).1

/-- Under the precondition, every entry of the state array and of the sensor table is a real number. -/
theorem real_of_pre (x0 : FVec Ideal S131072x13 .f32) (x1 : FVec Ideal S131072x4 .f32) (x2 : FVec Ideal S32x3 .f32)
    (x3 : FVec Ideal S544x1024 .f32) (x4 : FVec Ideal S1024 .f32) (x5 : FVec Ideal S1024x512 .f32)
    (x6 : FVec Ideal S512 .f32) (x7 : FVec Ideal S512x256 .f32) (x8 : FVec Ideal S256 .f32)
    (x9 : FVec Ideal S3x256 .f32) (x10 : FVec Ideal S256 .f32) (x11 : FVec Ideal S256x256 .f32)
    (x12 : FVec Ideal S256 .f32) (x13 : FVec Ideal S3x128 .f32) (x14 : FVec Ideal S128 .f32)
    (x15 : FVec Ideal S128x13 .f32) (x16 : FVec Ideal S13 .f32) (x17 : FVec Ideal S256x13 .f32)
    (x18 : FVec Ideal S13 .f32) (x19 : FVec Ideal S_ .f32)
    (h : Cert.Pre_finite_inputs.fn (F := Ideal) x0 x1 x2 x3 x4 x5 x6 x7 x8 x9 x10 x11 x12 x13 x14 x15 x16 x17 x18 x19
      = fun _ => 1#1) :
    (∀ i, ∃ r : ℝ, x0 i = (r : EReal)) ∧ (∀ i, ∃ r : ℝ, x2 i = (r : EReal)) := by
  have e : Cert.Pre_finite_inputs.fn (F := Ideal) x0 x1 x2 x3 x4 x5 x6 x7 x8 x9 x10 x11 x12 x13 x14 x15 x16 x17 x18 x19
      ValueIdx.ix0 = 1#1 := congrFun h ValueIdx.ix0
  have e1 := part1_acc _ _ _ _ _ _ _ _ _ _ _ _ _ _ _ _ _ _ ValueIdx.ix0 e
  obtain ⟨h8, h12⟩ := IntOp.andi_eq_one.1 e1
  obtain ⟨h3, -⟩ := IntOp.andi_eq_one.1 h8
  refine ⟨fun i => ?_, fun i => ?_⟩
  · exact real_of_abs_lt (x0 i) (Host.reduce_andi_all _ _ _ _ ValueIdx.ix0 h3 i)
  · exact real_of_abs_lt (x2 i) (Host.reduce_andi_all _ _ _ _ ValueIdx.ix0 h12 i)

end Cert.FiniteIn

end
-- ==== Proof.lean ====
/-
  The certificate of the operator-network kernel against its jnp reference.

  Both programs map each of 131072 rows (a 13-entry state, a 4-entry action) through the same network: 32 sensor
  weights exp (-d / (1/2)) of the distances d from the row's position to the sensors, the 544-entry encoding
  (state, action) times each weight, three dense layers for the branch features, two tanh layers on the position
  for the trunk features, the projected product plus a bias net on the position, a residual step on the state, and
  a division of the quaternion entries 3..6 by their norm plus a small constant.
  The kernel works on bands of 1024 rows with the weight matrices held in a narrower float format (the identity on
  the extended reals), forms the encoding sensor by sensor, and writes the squared distance as
  max (|p|^2 - 2 p.s + |s|^2) 0; the reference subtracts the coordinates, and sets the divided quaternion into the
  moved state by a scatter. The two squared distances agree for real positions and sensors, which the
  precondition gives; everything else is the same arithmetic entry by entry.
  The kernel's frames and the runs of both programs are generated text; the value of the kernel's result array, the
  reference's result read entry by entry, and the bridge between them are proved in the modules imported here.
-/
import proofs.«178626_j68238440398979_1_alg».proof.Defs
import proofs.«178626_j68238440398979_1_alg».proof.Proof.Gen.Kernel
import proofs.«178626_j68238440398979_1_alg».proof.Proof.FrameKernelP
import proofs.«178626_j68238440398979_1_alg».proof.Proof.Gen.KernelIdeal
import proofs.«178626_j68238440398979_1_alg».proof.Proof.FrameKernelIdealP
import proofs.«178626_j68238440398979_1_alg».proof.Proof.ValueKernelIdealP
import proofs.«178626_j68238440398979_1_alg».proof.Proof.Gen.ReferenceIdeal
import proofs.«178626_j68238440398979_1_alg».proof.Proof.Gen.ReferenceIdeal.Run
import proofs.«178626_j68238440398979_1_alg».proof.Proof.Gen.ReferenceIdeal.Read
import proofs.«178626_j68238440398979_1_alg».proof.Proof.Gen.Pre_finite_inputs
import proofs.«178626_j68238440398979_1_alg».proof.Proof.RowResult
import proofs.«178626_j68238440398979_1_alg».proof.Proof.KerFinal
import proofs.«178626_j68238440398979_1_alg».proof.Proof.RefEq
import proofs.«178626_j68238440398979_1_alg».proof.Proof.FiniteIn
import Idealize.ShloMosaic.Adequacy
import Idealize.ShloMosaic.Init

noncomputable section

namespace Cert.Proof

open Idealize.ShloMosaic Idealize.ShloMosaic.TcCoe Idealize.SL.Sem Cert.RowSpec

theorem frame_k : Cert.frame_Kernel := fun m ρ _ => Cert.Kernel.GenP.frame m ρ

theorem frame_ki : Cert.frame_KernelIdeal := fun m ρ _ => Cert.KernelIdeal.GenP.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the specification's array: the kernel's with the expanded squared distance, the reference's
    with the sum of squared differences, equal because the state and the sensor table hold real numbers. -/
theorem algebraic : Cert.algebraic_KernelIdeal_ReferenceIdeal := by
  intro m ρ m' ρ' hpre hagree
  refine ⟨fun c => Cert.KerFinal.result m c, ?_, ?_⟩
  · exact (θ_run Cert.KernelIdeal.defs _ _).mono (fun r h c => ⟨(h c).1.trans (Cert.KerFinal.final m c), (h c).2⟩)
      (Cert.KernelIdeal.ValueP.run_blocks m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18, a19⟩ := hagree c
    obtain ⟨hst, hse⟩ := Cert.FiniteIn.real_of_pre _ _ _ _ _ _ _ _ _ _ _ _ _ _ _ _ _ _ _ _ (hpre c)
    rw [Cert.ReferenceIdeal.Read.val_main_v70_eq, Cert.RefRows.ref_eq, a0, a1, a2, a3, a4, a5, a6, a7, a8, a9, a10, a11, a12, a13, a14, a15, a16, a17, a18, a19]
    unfold Cert.KerFinal.result
    funext i
    exact (congrFun (rowResult_expand_eq_diff Z _ _ _ _ (fun j => hst _) (fun s k => hse _)) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
